-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072x2 : Shape := ⟨2, ![131072, 2]⟩
abbrev S262144x3 : Shape := ⟨2, ![262144, 3]⟩
abbrev S393216x4 : Shape := ⟨2, ![393216, 4]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S384x128 : Shape := ⟨2, ![384, 128]⟩
abbrev S512x128 : Shape := ⟨2, ![512, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S384x128 : S_.BroadcastsInDim S384x128 (![] : Fin 0 → Fin S384x128.rank)
  reducesTo_S384x128_S_d0_1 : S384x128.ReducesTo [0, 1] S_
  bcast_S_S512x128 : S_.BroadcastsInDim S512x128 (![] : Fin 0 → Fin S512x128.rank)
  reducesTo_S512x128_S_d0_1 : S512x128.ReducesTo [0, 1] S_

variable [Facts]

def fn_part7 {F : FTy → Type} [FloatOps F] (main_v118 : IVec S_ 1) (main_v119 : FVec F S2 .f32) : IVec S_ 1 :=
  let main_cst_46 : FVec F S_ .f32 := constant S_ .f32 0x7F800000#32
  let main_v120 : FVec F S2 .f32 := broadcastInDim S2 ![] bcast_S_S2 main_cst_46
  let main_v121 : IVec S2 1 := cmpf .olt main_v119 main_v120
  let main_c_47 : IVec S_ 1 := constantI S_ 1 1#1
  let main_v122 : IVec S_ 1 := (fun x v => Host.reduce IntOp.andi x v reducesTo_S2_S_d0 h_S_) main_v121 main_c_47
  let main_v123 : IVec S_ 1 := andi main_v118 main_v122
  main_v123

def fn_part6 {F : FTy → Type} [FloatOps F] (main_arg24 : FVec F S128x128 .f32) (main_arg25 : FVec F S128 .f32) (main_arg26 : FVec F S128x2 .f32) (main_arg27 : FVec F S2 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg24
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg25
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x2 .f32 := Host.absf main_arg26
  let main_cst_44 : FVec F S_ .f32 := constant S_ .f32 0x7F800000#32
  let main_v115 : FVec F S128x2 .f32 := broadcastInDim S128x2 ![] bcast_S_S128x2 main_cst_44
  let main_v116 : IVec S128x2 1 := cmpf .olt main_v114 main_v115
  let main_c_45 : IVec S_ 1 := constantI S_ 1 1#1
  let main_v117 : IVec S_ 1 := (fun x v => Host.reduce IntOp.andi x v reducesTo_S128x2_S_d0_1 h_S_) main_v116 main_c_45
  let main_v118 : IVec S_ 1 := andi main_v113 main_v117
  let main_v119 : FVec F S2 .f32 := Host.absf main_arg27
  fn_part7 (F := F) main_v118 main_v119

def fn_part5 {F : FTy → Type} [FloatOps F] (main_arg21 : FVec F S128 .f32) (main_arg22 : FVec F S128x128 .f32) (main_arg23 : FVec F S128 .f32) (main_arg24 : FVec F S128x128 .f32) (main_arg25 : FVec F S128 .f32) (main_arg26 : FVec F S128x2 .f32) (main_arg27 : FVec F S2 .f32) (main_v83 : IVec S_ 1) (main_v84 : FVec F S512x128 .f32) (main_cst_32 : FVec F S_ .f32) : IVec S_ 1 :=
  let main_v85 : FVec F S512x128 .f32 := broadcastInDim S512x128 ![] bcast_S_S512x128 main_cst_32
  let main_v86 : IVec S512x128 1 := cmpf .olt main_v84 main_v85
  let main_c_33 : IVec S_ 1 := constantI S_ 1 1#1
  let main_v87 : IVec S_ 1 := (fun x v => Host.reduce IntOp.andi x v reducesTo_S512x128_S_d0_1 h_S_) main_v86 main_c_33
  let main_v88 : IVec S_ 1 := andi main_v83 main_v87
  let main_v89 : FVec F S128 .f32 := Host.absf main_arg21
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg22
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg23
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg24 main_arg25 main_arg26 main_arg27 main_v98 main_v101 main_c_39

def fn_part4 {F : FTy → Type} [FloatOps F] (main_arg17 : FVec F S128 .f32) (main_arg18 : FVec F S128x2 .f32) (main_arg19 : FVec F S2 .f32) (main_arg20 : FVec F S512x128 .f32) (main_arg21 : FVec F S128 .f32) (main_arg22 : FVec F S128x128 .f32) (main_arg23 : FVec F S128 .f32) (main_arg24 : FVec F S128x128 .f32) (main_arg25 : FVec F S128 .f32) (main_arg26 : FVec F S128x2 .f32) (main_arg27 : FVec F S2 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x2 .f32 := Host.absf main_arg18
  let main_cst_28 : FVec F S_ .f32 := constant S_ .f32 0x7F800000#32
  let main_v75 : FVec F S128x2 .f32 := broadcastInDim S128x2 ![] bcast_S_S128x2 main_cst_28
  let main_v76 : IVec S128x2 1 := cmpf .olt main_v74 main_v75
  let main_c_29 : IVec S_ 1 := constantI S_ 1 1#1
  let main_v77 : IVec S_ 1 := (fun x v => Host.reduce IntOp.andi x v reducesTo_S128x2_S_d0_1 h_S_) main_v76 main_c_29
  let main_v78 : IVec S_ 1 := andi main_v73 main_v77
  let main_v79 : FVec F S2 .f32 := Host.absf main_arg19
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  let main_v84 : FVec F S512x128 .f32 := Host.absf main_arg20
  let main_cst_32 : FVec F S_ .f32 := constant S_ .f32 0x7F800000#32
  fn_part5 (F := F) main_arg21 main_arg22 main_arg23 main_arg24 main_arg25 main_arg26 main_arg27 main_v83 main_v84 main_cst_32

def fn_part3 {F : FTy → Type} [FloatOps F] (main_arg14 : FVec F S128x128 .f32) (main_arg15 : FVec F S128 .f32) (main_arg16 : FVec F S128x128 .f32) (main_arg17 : FVec F S128 .f32) (main_arg18 : FVec F S128x2 .f32) (main_arg19 : FVec F S2 .f32) (main_arg20 : FVec F S512x128 .f32) (main_arg21 : FVec F S128 .f32) (main_arg22 : FVec F S128x128 .f32) (main_arg23 : FVec F S128 .f32) (main_arg24 : FVec F S128x128 .f32) (main_arg25 : FVec F S128 .f32) (main_arg26 : FVec F S128x2 .f32) (main_arg27 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg17 main_arg18 main_arg19 main_arg20 main_arg21 main_arg22 main_arg23 main_arg24 main_arg25 main_arg26 main_arg27 main_v63 main_v67

def fn_part2 {F : FTy → Type} [FloatOps F] (main_arg10 : FVec F S128x2 .f32) (main_arg11 : FVec F S2 .f32) (main_arg12 : FVec F S384x128 .f32) (main_arg13 : FVec F S128 .f32) (main_arg14 : FVec F S128x128 .f32) (main_arg15 : FVec F S128 .f32) (main_arg16 : FVec F S128x128 .f32) (main_arg17 : FVec F S128 .f32) (main_arg18 : FVec F S128x2 .f32) (main_arg19 : FVec F S2 .f32) (main_arg20 : FVec F S512x128 .f32) (main_arg21 : FVec F S128 .f32) (main_arg22 : FVec F S128x128 .f32) (main_arg23 : FVec F S128 .f32) (main_arg24 : FVec F S128x128 .f32) (main_arg25 : FVec F S128 .f32) (main_arg26 : FVec F S128x2 .f32) (main_arg27 : FVec F S2 .f32) (main_v33 : IVec S_ 1) : IVec S_ 1 :=
  let main_v34 : FVec F S128x2 .f32 := Host.absf main_arg10
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg11
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S384x128 .f32 := Host.absf main_arg12
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg7 : FVec F S128 .f32) (main_arg8 : FVec F S128x128 .f32) (main_arg9 : FVec F S128 .f32) (main_arg10 : FVec F S128x2 .f32) (main_arg11 : FVec F S2 .f32) (main_arg12 : FVec F S384x128 .f32) (main_arg13 : FVec F S128 .f32) (main_arg14 : FVec F S128x128 .f32) (main_arg15 : FVec F S128 .f32) (main_arg16 : FVec F S128x128 .f32) (main_arg17 : FVec F S128 .f32) (main_arg18 : FVec F S128x2 .f32) (main_arg19 : FVec F S2 .f32) (main_arg20 : FVec F S512x128 .f32) (main_arg21 : FVec F S128 .f32) (main_arg22 : FVec F S128x128 .f32) (main_arg23 : FVec F S128 .f32) (main_arg24 : FVec F S128x128 .f32) (main_arg25 : FVec F S128 .f32) (main_arg26 : FVec F S128x2 .f32) (main_arg27 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S131072x128 .f32) (main_arg1 : IVec S131072x2 32) (main_arg2 : IVec S262144x3 32) (main_arg3 : IVec S393216x4 32) (main_arg4 : FVec F S256x128 .f32) (main_arg5 : FVec F S128 .f32) (main_arg6 : FVec F S128x128 .f32) (main_arg7 : FVec F S128 .f32) (main_arg8 : FVec F S128x128 .f32) (main_arg9 : FVec F S128 .f32) (main_arg10 : FVec F S128x2 .f32) (main_arg11 : FVec F S2 .f32) (main_arg12 : FVec F S384x128 .f32) (main_arg13 : FVec F S128 .f32) (main_arg14 : FVec F S128x128 .f32) (main_arg15 : FVec F S128 .f32) (main_arg16 : FVec F S128x128 .f32) (main_arg17 : FVec F S128 .f32) (main_arg18 : FVec F S128x2 .f32) (main_arg19 : FVec F S2 .f32) (main_arg20 : FVec F S512x128 .f32) (main_arg21 : FVec F S128 .f32) (main_arg22 : FVec F S128x128 .f32) (main_arg23 : FVec F S128 .f32) (main_arg24 : FVec F S128x128 .f32) (main_arg25 : FVec F S128 .f32) (main_arg26 : FVec F S128x2 .f32) (main_arg27 : FVec F S2 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S256x128 .f32 := Host.absf main_arg4
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S131072x128 : Shape := ⟨2, ![131072, 128]⟩
abbrev S131072x2 : Shape := ⟨2, ![131072, 2]⟩
abbrev S262144x3 : Shape := ⟨2, ![262144, 3]⟩
abbrev S393216x4 : Shape := ⟨2, ![393216, 4]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S384x128 : Shape := ⟨2, ![384, 128]⟩
abbrev S512x128 : Shape := ⟨2, ![512, 128]⟩
abbrev S_ : Shape := ⟨0, ![]⟩
abbrev S131072x2x1 : Shape := ⟨3, ![131072, 2, 1]⟩
abbrev S131072x2x128 : Shape := ⟨3, ![131072, 2, 128]⟩
abbrev S131072x256 : Shape := ⟨2, ![131072, 256]⟩
abbrev S1x128 : Shape := ⟨2, ![1, 128]⟩
abbrev S1x2 : Shape := ⟨2, ![1, 2]⟩
abbrev S2x131072 : Shape := ⟨2, ![2, 131072]⟩
abbrev S4096x256 : Shape := ⟨2, ![4096, 256]⟩
abbrev S2x4096 : Shape := ⟨2, ![2, 4096]⟩
abbrev S4096x128 : Shape := ⟨2, ![4096, 128]⟩
abbrev S4096x2 : Shape := ⟨2, ![4096, 2]⟩
abbrev S262144x3x1 : Shape := ⟨3, ![262144, 3, 1]⟩
abbrev S262144x3x128 : Shape := ⟨3, ![262144, 3, 128]⟩
abbrev S262144x384 : Shape := ⟨2, ![262144, 384]⟩
abbrev S2x262144 : Shape := ⟨2, ![2, 262144]⟩
abbrev S4096x384 : Shape := ⟨2, ![4096, 384]⟩
abbrev S262144x2 : Shape := ⟨2, ![262144, 2]⟩
abbrev S393216x4x1 : Shape := ⟨3, ![393216, 4, 1]⟩
abbrev S393216x4x128 : Shape := ⟨3, ![393216, 4, 128]⟩
abbrev S393216x512 : Shape := ⟨2, ![393216, 512]⟩
abbrev S2x393216 : Shape := ⟨2, ![2, 393216]⟩
abbrev S4096x512 : Shape := ⟨2, ![4096, 512]⟩
abbrev S393216x2 : Shape := ⟨2, ![393216, 2]⟩
abbrev S786432x2 : Shape := ⟨2, ![786432, 2]⟩

abbrev nBuf : Space → Nat
  | .hbm => 105
  | .vmem => 36
  | .smem => 0
  | _ => 0

abbrev bufTy : (tb : Table) → Fin (tcTables nBuf tb) → BufTy
  | .hbm, ⟨0, _⟩ => ⟨S131072x128, .f32⟩
  | .hbm, ⟨1, _⟩ => ⟨S131072x2, .i32⟩
  | .hbm, ⟨2, _⟩ => ⟨S262144x3, .i32⟩
  | .hbm, ⟨3, _⟩ => ⟨S393216x4, .i32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x2, .f32⟩
  | .hbm, ⟨11, _⟩ => ⟨S2, .f32⟩
  | .hbm, ⟨12, _⟩ => ⟨S384x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x2, .f32⟩
  | .hbm, ⟨19, _⟩ => ⟨S2, .f32⟩
  | .hbm, ⟨20, _⟩ => ⟨S512x128, .f32⟩
  | .hbm, ⟨21, _⟩ => ⟨S128, .f32⟩
  | .hbm, ⟨22, _⟩ => ⟨S128x128, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S128x2, .f32⟩
  | .hbm, ⟨27, _⟩ => ⟨S2, .f32⟩
  | .hbm, ⟨28, _⟩ => ⟨S131072x128, .bf16⟩
  | .hbm, ⟨29, _⟩ => ⟨S_, .i32⟩
  | .hbm, ⟨30, _⟩ => ⟨S131072x2, .i32⟩
  | .hbm, ⟨31, _⟩ => ⟨S131072x2, .i1⟩
  | .hbm, ⟨32, _⟩ => ⟨S_, .i32⟩
  | .hbm, ⟨33, _⟩ => ⟨S131072x2, .i32⟩
  | .hbm, ⟨34, _⟩ => ⟨S131072x2, .i32⟩
  | .hbm, ⟨35, _⟩ => ⟨S131072x2, .i32⟩
  | .hbm, ⟨36, _⟩ => ⟨S131072x2x1, .i32⟩
  | .hbm, ⟨37, _⟩ => ⟨S131072x2x128, .bf16⟩
  | .hbm, ⟨38, _⟩ => ⟨S131072x2x128, .bf16⟩
  | .hbm, ⟨39, _⟩ => ⟨S131072x2x128, .f32⟩
  | .hbm, ⟨40, _⟩ => ⟨S131072x2x128, .f32⟩
  | .hbm, ⟨41, _⟩ => ⟨S131072x2x128, .f32⟩
  | .hbm, ⟨42, _⟩ => ⟨S131072x256, .f32⟩
  | .hbm, ⟨43, _⟩ => ⟨S131072x256, .bf16⟩
  | .hbm, ⟨44, _⟩ => ⟨S256x128, .bf16⟩
  | .hbm, ⟨45, _⟩ => ⟨S128x128, .bf16⟩
  | .hbm, ⟨46, _⟩ => ⟨S128x128, .bf16⟩
  | .hbm, ⟨47, _⟩ => ⟨S128x2, .bf16⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x2, .f32⟩
  | .hbm, ⟨52, _⟩ => ⟨S2x131072, .f32⟩
  | .hbm, ⟨53, _⟩ => ⟨S131072x2, .f32⟩
  | .hbm, ⟨54, _⟩ => ⟨S_, .i32⟩
  | .hbm, ⟨55, _⟩ => ⟨S262144x3, .i32⟩
  | .hbm, ⟨56, _⟩ => ⟨S262144x3, .i1⟩
  | .hbm, ⟨57, _⟩ => ⟨S_, .i32⟩
  | .hbm, ⟨58, _⟩ => ⟨S262144x3, .i32⟩
  | .hbm, ⟨59, _⟩ => ⟨S262144x3, .i32⟩
  | .hbm, ⟨60, _⟩ => ⟨S262144x3, .i32⟩
  | .hbm, ⟨61, _⟩ => ⟨S262144x3x1, .i32⟩
  | .hbm, ⟨62, _⟩ => ⟨S262144x3x128, .bf16⟩
  | .hbm, ⟨63, _⟩ => ⟨S262144x3x128, .bf16⟩
  | .hbm, ⟨64, _⟩ => ⟨S262144x3x128, .f32⟩
  | .hbm, ⟨65, _⟩ => ⟨S262144x3x128, .f32⟩
  | .hbm, ⟨66, _⟩ => ⟨S262144x3x128, .f32⟩
  | .hbm, ⟨67, _⟩ => ⟨S262144x384, .f32⟩
  | .hbm, ⟨68, _⟩ => ⟨S262144x384, .bf16⟩
  | .hbm, ⟨69, _⟩ => ⟨S384x128, .bf16⟩
  | .hbm, ⟨70, _⟩ => ⟨S128x128, .bf16⟩
  | .hbm, ⟨71, _⟩ => ⟨S128x128, .bf16⟩
  | .hbm, ⟨72, _⟩ => ⟨S128x2, .bf16⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x2, .f32⟩
  | .hbm, ⟨77, _⟩ => ⟨S2x262144, .f32⟩
  | .hbm, ⟨78, _⟩ => ⟨S262144x2, .f32⟩
  | .hbm, ⟨79, _⟩ => ⟨S_, .i32⟩
  | .hbm, ⟨80, _⟩ => ⟨S393216x4, .i32⟩
  | .hbm, ⟨81, _⟩ => ⟨S393216x4, .i1⟩
  | .hbm, ⟨82, _⟩ => ⟨S_, .i32⟩
  | .hbm, ⟨83, _⟩ => ⟨S393216x4, .i32⟩
  | .hbm, ⟨84, _⟩ => ⟨S393216x4, .i32⟩
  | .hbm, ⟨85, _⟩ => ⟨S393216x4, .i32⟩
  | .hbm, ⟨86, _⟩ => ⟨S393216x4x1, .i32⟩
  | .hbm, ⟨87, _⟩ => ⟨S393216x4x128, .bf16⟩
  | .hbm, ⟨88, _⟩ => ⟨S393216x4x128, .bf16⟩
  | .hbm, ⟨89, _⟩ => ⟨S393216x4x128, .f32⟩
  | .hbm, ⟨90, _⟩ => ⟨S393216x4x128, .f32⟩
  | .hbm, ⟨91, _⟩ => ⟨S393216x4x128, .f32⟩
  | .hbm, ⟨92, _⟩ => ⟨S393216x512, .f32⟩
  | .hbm, ⟨93, _⟩ => ⟨S393216x512, .bf16⟩
  | .hbm, ⟨94, _⟩ => ⟨S512x128, .bf16⟩
  | .hbm, ⟨95, _⟩ => ⟨S128x128, .bf16⟩
  | .hbm, ⟨96, _⟩ => ⟨S128x128, .bf16⟩
  | .hbm, ⟨97, _⟩ => ⟨S128x2, .bf16⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S1x2, .f32⟩
  | .hbm, ⟨102, _⟩ => ⟨S2x393216, .f32⟩
  | .hbm, ⟨103, _⟩ => ⟨S393216x2, .f32⟩
  | .hbm, ⟨104, _⟩ => ⟨S786432x2, .f32⟩
  | .local _ .vmem, ⟨0, _⟩ => ⟨S4096x256, .bf16⟩
  | .local _ .vmem, ⟨1, _⟩ => ⟨S4096x256, .bf16⟩
  | .local _ .vmem, ⟨2, _⟩ => ⟨S256x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S128x2, .bf16⟩
  | .local _ .vmem, ⟨9, _⟩ => ⟨S1x2, .f32⟩
  | .local _ .vmem, ⟨10, _⟩ => ⟨S2x4096, .f32⟩
  | .local _ .vmem, ⟨11, _⟩ => ⟨S2x4096, .f32⟩
  | .local _ .vmem, ⟨12, _⟩ => ⟨S4096x384, .bf16⟩
  | .local _ .vmem, ⟨13, _⟩ => ⟨S4096x384, .bf16⟩
  | .local _ .vmem, ⟨14, _⟩ => ⟨S384x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S128x128, .bf16⟩
  | .local _ .vmem, ⟨19, _⟩ => ⟨S1x128, .f32⟩
  | .local _ .vmem, ⟨20, _⟩ => ⟨S128x2, .bf16⟩
  | .local _ .vmem, ⟨21, _⟩ => ⟨S1x2, .f32⟩
  | .local _ .vmem, ⟨22, _⟩ => ⟨S2x4096, .f32⟩
  | .local _ .vmem, ⟨23, _⟩ => ⟨S2x4096, .f32⟩
  | .local _ .vmem, ⟨24, _⟩ => ⟨S4096x512, .bf16⟩
  | .local _ .vmem, ⟨25, _⟩ => ⟨S4096x512, .bf16⟩
  | .local _ .vmem, ⟨26, _⟩ => ⟨S512x128, .bf16⟩
  | .local _ .vmem, ⟨27, _⟩ => ⟨S1x128, .f32⟩
  | .local _ .vmem, ⟨28, _⟩ => ⟨S128x128, .bf16⟩
  | .local _ .vmem, ⟨29, _⟩ => ⟨S1x128, .f32⟩
  | .local _ .vmem, ⟨30, _⟩ => ⟨S128x128, .bf16⟩
  | .local _ .vmem, ⟨31, _⟩ => ⟨S1x128, .f32⟩
  | .local _ .vmem, ⟨32, _⟩ => ⟨S128x2, .bf16⟩
  | .local _ .vmem, ⟨33, _⟩ => ⟨S1x2, .f32⟩
  | .local _ .vmem, ⟨34, _⟩ => ⟨S2x4096, .f32⟩
  | .local _ .vmem, ⟨35, _⟩ => ⟨S2x4096, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_c : Ref sig .tc := ⟨.hbm, 29, rfl⟩
abbrev main_v1 : Ref sig .tc := ⟨.hbm, 30, rfl⟩
abbrev main_v2 : Ref sig .tc := ⟨.hbm, 31, rfl⟩
abbrev main_c_0 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_1 : Ref sig .tc := ⟨.hbm, 54, rfl⟩
abbrev main_v24 : Ref sig .tc := ⟨.hbm, 55, rfl⟩
abbrev main_v25 : Ref sig .tc := ⟨.hbm, 56, rfl⟩
abbrev main_c_2 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_3 : Ref sig .tc := ⟨.hbm, 79, rfl⟩
abbrev main_v47 : Ref sig .tc := ⟨.hbm, 80, rfl⟩
abbrev main_v48 : Ref sig .tc := ⟨.hbm, 81, rfl⟩
abbrev main_c_4 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x2 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2x4096 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![96], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x2 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x2 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2x4096 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bitsLt_bf16_f32 : FTy.bits .bf16 < FTy.bits .f32
  bcast_S_S131072x2 : S_.BroadcastsInDim S131072x2 (![] : Fin 0 → Fin S131072x2.rank)
  bcast_S131072x2_S131072x2x1_0_1 : S131072x2.BroadcastsInDim S131072x2x1 (![0, 1] : Fin 2 → Fin S131072x2x1.rank)
  shapeCasts_S131072x2x128_S131072x256 : S131072x2x128.ShapeCasts S131072x256
  shapeCasts_S128_S1x128 : S128.ShapeCasts S1x128
  shapeCasts_S2_S1x2 : S2.ShapeCasts S1x2
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  transposes_S4096x2_p1_0_S2x4096 : S4096x2.Transposes [1, 0] S2x4096
  inb_S2x4096_S2x4096_0_0 : ∀ a, (![0, 0] : Fin 2 → Nat) a + S2x4096.size a ≤ S2x4096.size a
  h_S2x4096 : 0 < S2x4096.numel
  transposes_S2x131072_S131072x2_1_0 : S2x131072.Transposes [1, 0] S131072x2
  bcast_S_S262144x3 : S_.BroadcastsInDim S262144x3 (![] : Fin 0 → Fin S262144x3.rank)
  bcast_S262144x3_S262144x3x1_0_1 : S262144x3.BroadcastsInDim S262144x3x1 (![0, 1] : Fin 2 → Fin S262144x3x1.rank)
  shapeCasts_S262144x3x128_S262144x384 : S262144x3x128.ShapeCasts S262144x384
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  transposes_S2x262144_S262144x2_1_0 : S2x262144.Transposes [1, 0] S262144x2
  bcast_S_S393216x4 : S_.BroadcastsInDim S393216x4 (![] : Fin 0 → Fin S393216x4.rank)
  bcast_S393216x4_S393216x4x1_0_1 : S393216x4.BroadcastsInDim S393216x4x1 (![0, 1] : Fin 2 → Fin S393216x4x1.rank)
  shapeCasts_S393216x4x128_S393216x512 : S393216x4x128.ShapeCasts S393216x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S2x393216_S393216x2_1_0 : S2x393216.Transposes [1, 0] S393216x2
  concatenates_S131072x2_S262144x2_S393216x2_S786432x2_d0 : Shape.Concatenates [S131072x2, S262144x2, S393216x2] S786432x2 0
  gather_S131072x128_S131072x2x1_S131072x2x128_2_0_n_n_0_2_1128_wf : GatherDims.WF S131072x128 S131072x2x1 S131072x2x128 [2] [0] [] [0] [] 2 ![1, 128]
  dot_S4096x256_S256x128_S4096x128_1_0_0_1_n_n_wf : DotDims.WF S4096x256 S256x128 S4096x128 [1] [0] [0] [1] [] []
  dot_S4096x128_S128x128_S4096x128_1_0_0_1_n_n_wf : DotDims.WF S4096x128 S128x128 S4096x128 [1] [0] [0] [1] [] []
  dot_S4096x128_S128x2_S4096x2_1_0_0_1_n_n_wf : DotDims.WF S4096x128 S128x2 S4096x2 [1] [0] [0] [1] [] []
  gather_S131072x128_S262144x3x1_S262144x3x128_2_0_n_n_0_2_1128_wf : GatherDims.WF S131072x128 S262144x3x1 S262144x3x128 [2] [0] [] [0] [] 2 ![1, 128]
  dot_S4096x384_S384x128_S4096x128_1_0_0_1_n_n_wf : DotDims.WF S4096x384 S384x128 S4096x128 [1] [0] [0] [1] [] []
  gather_S131072x128_S393216x4x1_S393216x4x128_2_0_n_n_0_2_1128_wf : GatherDims.WF S131072x128 S393216x4x1 S393216x4x128 [2] [0] [] [0] [] 2 ![1, 128]
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .bf16 = 32 ∨ (Rect.block (s := S131072x256) S4096x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x2.size a ≤ S128x2.size a
  hwx0_7 : ∀ i : grid0.Coords, EltTy.bits .bf16 = 32 ∨ (Rect.block (s := S128x2) S128x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x4096.size a ≤ S2x131072.size a
  hwx0_9 : ∀ i : grid0.Coords, EltTy.bits .f32 = 32 ∨ (Rect.block (s := S2x131072) S2x4096.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x384.size a ≤ S262144x384.size a
  hwx1_0 : ∀ i : grid1.Coords, EltTy.bits .bf16 = 32 ∨ (Rect.block (s := S262144x384) S4096x384.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x128.size a ≤ S384x128.size a
  hwx1_1 : ∀ i : grid1.Coords, EltTy.bits .bf16 = 32 ∨ (Rect.block (s := S384x128) S384x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x2.size a ≤ S128x2.size a
  hwx1_7 : ∀ i : grid1.Coords, EltTy.bits .bf16 = 32 ∨ (Rect.block (s := S128x2) S128x2.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2.size a ≤ S1x2.size a
  hwx1_8 : ∀ i : grid1.Coords, EltTy.bits .f32 = 32 ∨ (Rect.block (s := S1x2) S1x2.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2x4096.size a ≤ S2x262144.size a
  hwx1_9 : ∀ i : grid1.Coords, EltTy.bits .f32 = 32 ∨ (Rect.block (s := S2x262144) S2x4096.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x512.size a ≤ S393216x512.size a
  hwx2_0 : ∀ i : grid2.Coords, EltTy.bits .bf16 = 32 ∨ (Rect.block (s := S393216x512) S4096x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S512x128.size a
  hwx2_1 : ∀ i : grid2.Coords, EltTy.bits .bf16 = 32 ∨ (Rect.block (s := S512x128) S512x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x2.size a ≤ S128x2.size a
  hwx2_7 : ∀ i : grid2.Coords, EltTy.bits .bf16 = 32 ∨ (Rect.block (s := S128x2) S128x2.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x2.size a ≤ S1x2.size a
  hwx2_8 : ∀ i : grid2.Coords, EltTy.bits .f32 = 32 ∨ (Rect.block (s := S1x2) S1x2.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2x4096.size a ≤ S2x393216.size a
  hwx2_9 : ∀ i : grid2.Coords, EltTy.bits .f32 = 32 ∨ (Rect.block (s := S2x393216) S2x4096.size (cc2_transform_9 i) (hinb2_9 i)).WholeWords (EltTy.packing .f32)

variable [Facts₀]

def gather_S131072x128_S131072x2x1_S131072x2x128_2_0_n_n_0_2_1128 : GatherDims S131072x128 S131072x2x1 S131072x2x128 where
  offsetDims := [2]
  collapsedSliceDims := [0]
  operandBatchingDims := []
  startIndicesBatchingDims := []
  startIndexMap := [0]
  indexVectorDim := 2
  sliceSizes := ![1, 128]
  wf := gather_S131072x128_S131072x2x1_S131072x2x128_2_0_n_n_0_2_1128_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf
def gather_S131072x128_S262144x3x1_S262144x3x128_2_0_n_n_0_2_1128 : GatherDims S131072x128 S262144x3x1 S262144x3x128 where
  offsetDims := [2]
  collapsedSliceDims := [0]
  operandBatchingDims := []
  startIndicesBatchingDims := []
  startIndexMap := [0]
  indexVectorDim := 2
  sliceSizes := ![1, 128]
  wf := gather_S131072x128_S262144x3x1_S262144x3x128_2_0_n_n_0_2_1128_wf
def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf
def gather_S131072x128_S393216x4x1_S393216x4x128_2_0_n_n_0_2_1128 : GatherDims S131072x128 S393216x4x1 S393216x4x128 where
  offsetDims := [2]
  collapsedSliceDims := [0]
  operandBatchingDims := []
  startIndicesBatchingDims := []
  startIndexMap := [0]
  indexVectorDim := 2
  sliceSizes := ![1, 128]
  wf := gather_S131072x128_S393216x4x1_S393216x4x128_2_0_n_n_0_2_1128_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_v13) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S128x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S2x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v36) S4096x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S128x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S1x2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v45) S2x4096.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v59) S4096x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S512x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v63) S128x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v67) S1x2.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v68) S2x4096.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S131072x128 : Shape := ⟨2, ![131072, 128]⟩
abbrev S131072x2 : Shape := ⟨2, ![131072, 2]⟩
abbrev S262144x3 : Shape := ⟨2, ![262144, 3]⟩
abbrev S393216x4 : Shape := ⟨2, ![393216, 4]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S384x128 : Shape := ⟨2, ![384, 128]⟩
abbrev S512x128 : Shape := ⟨2, ![512, 128]⟩
abbrev S_ : Shape := ⟨0, ![]⟩
abbrev S131072x2x1 : Shape := ⟨3, ![131072, 2, 1]⟩
abbrev S131072x2x128 : Shape := ⟨3, ![131072, 2, 128]⟩
abbrev S131072x256 : Shape := ⟨2, ![131072, 256]⟩
abbrev S1x128 : Shape := ⟨2, ![1, 128]⟩
abbrev S1x2 : Shape := ⟨2, ![1, 2]⟩
abbrev S262144x3x1 : Shape := ⟨3, ![262144, 3, 1]⟩
abbrev S262144x3x128 : Shape := ⟨3, ![262144, 3, 128]⟩
abbrev S262144x384 : Shape := ⟨2, ![262144, 384]⟩
abbrev S262144x128 : Shape := ⟨2, ![262144, 128]⟩
abbrev S262144x2 : Shape := ⟨2, ![262144, 2]⟩
abbrev S393216x4x1 : Shape := ⟨3, ![393216, 4, 1]⟩
abbrev S393216x4x128 : Shape := ⟨3, ![393216, 4, 128]⟩
abbrev S393216x512 : Shape := ⟨2, ![393216, 512]⟩
abbrev S393216x128 : Shape := ⟨2, ![393216, 128]⟩
abbrev S393216x2 : Shape := ⟨2, ![393216, 2]⟩
abbrev S786432x2 : Shape := ⟨2, ![786432, 2]⟩

abbrev nBuf : Space → Nat
  | .hbm => 143
  | .vmem => 0
  | .smem => 0
  | _ => 0

abbrev hbmTy0_0 (i : Nat) : BufTy := match i % 128 with
  | 0 => ⟨S131072x128, .f32⟩
  | 1 => ⟨S131072x2, .i32⟩
  | 2 => ⟨S262144x3, .i32⟩
  | 3 => ⟨S393216x4, .i32⟩
  | 4 => ⟨S256x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x2, .f32⟩
  | 11 => ⟨S2, .f32⟩
  | 12 => ⟨S384x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x2, .f32⟩
  | 19 => ⟨S2, .f32⟩
  | 20 => ⟨S512x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S128x2, .f32⟩
  | 27 => ⟨S2, .f32⟩
  | 28 => ⟨S_, .i32⟩
  | 29 => ⟨S131072x2, .i32⟩
  | 30 => ⟨S131072x2, .i1⟩
  | 31 => ⟨S_, .i32⟩
  | 32 => ⟨S131072x2, .i32⟩
  | 33 => ⟨S131072x2, .i32⟩
  | 34 => ⟨S131072x2, .i32⟩
  | 35 => ⟨S131072x2x1, .i32⟩
  | 36 => ⟨S131072x2x128, .f32⟩
  | 37 => ⟨S131072x256, .f32⟩
  | 38 => ⟨S131072x2x128, .f32⟩
  | 39 => ⟨S131072x256, .f32⟩
  | 40 => ⟨S131072x256, .f32⟩
  | 41 => ⟨S131072x128, .f32⟩
  | 42 => ⟨S1x128, .f32⟩
  | 43 => ⟨S131072x128, .f32⟩
  | 44 => ⟨S131072x128, .f32⟩
  | 45 => ⟨S_, .f32⟩
  | 46 => ⟨S131072x128, .f32⟩
  | 47 => ⟨S131072x128, .f32⟩
  | 48 => ⟨S131072x128, .f32⟩
  | 49 => ⟨S1x128, .f32⟩
  | 50 => ⟨S131072x128, .f32⟩
  | 51 => ⟨S131072x128, .f32⟩
  | 52 => ⟨S_, .f32⟩
  | 53 => ⟨S131072x128, .f32⟩
  | 54 => ⟨S131072x128, .f32⟩
  | 55 => ⟨S131072x128, .f32⟩
  | 56 => ⟨S1x128, .f32⟩
  | 57 => ⟨S131072x128, .f32⟩
  | 58 => ⟨S131072x128, .f32⟩
  | 59 => ⟨S_, .f32⟩
  | 60 => ⟨S131072x128, .f32⟩
  | 61 => ⟨S131072x128, .f32⟩
  | 62 => ⟨S131072x2, .f32⟩
  | 63 => ⟨S1x2, .f32⟩
  | 64 => ⟨S131072x2, .f32⟩
  | 65 => ⟨S131072x2, .f32⟩
  | 66 => ⟨S_, .i32⟩
  | 67 => ⟨S262144x3, .i32⟩
  | 68 => ⟨S262144x3, .i1⟩
  | 69 => ⟨S_, .i32⟩
  | 70 => ⟨S262144x3, .i32⟩
  | 71 => ⟨S262144x3, .i32⟩
  | 72 => ⟨S262144x3, .i32⟩
  | 73 => ⟨S262144x3x1, .i32⟩
  | 74 => ⟨S262144x3x128, .f32⟩
  | 75 => ⟨S262144x384, .f32⟩
  | 76 => ⟨S262144x3x128, .f32⟩
  | 77 => ⟨S262144x384, .f32⟩
  | 78 => ⟨S262144x384, .f32⟩
  | 79 => ⟨S262144x128, .f32⟩
  | 80 => ⟨S1x128, .f32⟩
  | 81 => ⟨S262144x128, .f32⟩
  | 82 => ⟨S262144x128, .f32⟩
  | 83 => ⟨S_, .f32⟩
  | 84 => ⟨S262144x128, .f32⟩
  | 85 => ⟨S262144x128, .f32⟩
  | 86 => ⟨S262144x128, .f32⟩
  | 87 => ⟨S1x128, .f32⟩
  | 88 => ⟨S262144x128, .f32⟩
  | 89 => ⟨S262144x128, .f32⟩
  | 90 => ⟨S_, .f32⟩
  | 91 => ⟨S262144x128, .f32⟩
  | 92 => ⟨S262144x128, .f32⟩
  | 93 => ⟨S262144x128, .f32⟩
  | 94 => ⟨S1x128, .f32⟩
  | 95 => ⟨S262144x128, .f32⟩
  | 96 => ⟨S262144x128, .f32⟩
  | 97 => ⟨S_, .f32⟩
  | 98 => ⟨S262144x128, .f32⟩
  | 99 => ⟨S262144x128, .f32⟩
  | 100 => ⟨S262144x2, .f32⟩
  | 101 => ⟨S1x2, .f32⟩
  | 102 => ⟨S262144x2, .f32⟩
  | 103 => ⟨S262144x2, .f32⟩
  | 104 => ⟨S_, .i32⟩
  | 105 => ⟨S393216x4, .i32⟩
  | 106 => ⟨S393216x4, .i1⟩
  | 107 => ⟨S_, .i32⟩
  | 108 => ⟨S393216x4, .i32⟩
  | 109 => ⟨S393216x4, .i32⟩
  | 110 => ⟨S393216x4, .i32⟩
  | 111 => ⟨S393216x4x1, .i32⟩
  | 112 => ⟨S393216x4x128, .f32⟩
  | 113 => ⟨S393216x512, .f32⟩
  | 114 => ⟨S393216x4x128, .f32⟩
  | 115 => ⟨S393216x512, .f32⟩
  | 116 => ⟨S393216x512, .f32⟩
  | 117 => ⟨S393216x128, .f32⟩
  | 118 => ⟨S1x128, .f32⟩
  | 119 => ⟨S393216x128, .f32⟩
  | 120 => ⟨S393216x128, .f32⟩
  | 121 => ⟨S_, .f32⟩
  | 122 => ⟨S393216x128, .f32⟩
  | 123 => ⟨S393216x128, .f32⟩
  | 124 => ⟨S393216x128, .f32⟩
  | 125 => ⟨S1x128, .f32⟩
  | 126 => ⟨S393216x128, .f32⟩
  | 127 => ⟨S393216x128, .f32⟩
  | _ => ⟨S131072x128, .f32⟩

abbrev hbmTy0_1 (i : Nat) : BufTy := match i % 128 with
  | 0 => ⟨S_, .f32⟩
  | 1 => ⟨S393216x128, .f32⟩
  | 2 => ⟨S393216x128, .f32⟩
  | 3 => ⟨S393216x128, .f32⟩
  | 4 => ⟨S1x128, .f32⟩
  | 5 => ⟨S393216x128, .f32⟩
  | 6 => ⟨S393216x128, .f32⟩
  | 7 => ⟨S_, .f32⟩
  | 8 => ⟨S393216x128, .f32⟩
  | 9 => ⟨S393216x128, .f32⟩
  | 10 => ⟨S393216x2, .f32⟩
  | 11 => ⟨S1x2, .f32⟩
  | 12 => ⟨S393216x2, .f32⟩
  | 13 => ⟨S393216x2, .f32⟩
  | 14 => ⟨S786432x2, .f32⟩
  | _ => ⟨S131072x128, .f32⟩

abbrev hbmTy (i : Nat) : BufTy := match i / 128 with
  | 0 => hbmTy0_0 i
  | 1 => hbmTy0_1 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_call0_cst : Ref sig .tc := ⟨.hbm, 45, rfl⟩
abbrev main_call0_v0 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_call1_cst : Ref sig .tc := ⟨.hbm, 52, rfl⟩
abbrev main_call1_v0 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_call2_cst : Ref sig .tc := ⟨.hbm, 59, rfl⟩
abbrev main_call2_v0 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_c_1 : Ref sig .tc := ⟨.hbm, 66, rfl⟩
abbrev main_v30 : Ref sig .tc := ⟨.hbm, 67, rfl⟩
abbrev main_v31 : Ref sig .tc := ⟨.hbm, 68, rfl⟩
abbrev main_c_2 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_call3_cst : Ref sig .tc := ⟨.hbm, 83, rfl⟩
abbrev main_call3_v0 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_call4_cst : Ref sig .tc := ⟨.hbm, 90, rfl⟩
abbrev main_call4_v0 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_call5_cst : Ref sig .tc := ⟨.hbm, 97, rfl⟩
abbrev main_call5_v0 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_c_3 : Ref sig .tc := ⟨.hbm, 104, rfl⟩
abbrev main_v60 : Ref sig .tc := ⟨.hbm, 105, rfl⟩
abbrev main_v61 : Ref sig .tc := ⟨.hbm, 106, rfl⟩
abbrev main_c_4 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_call6_cst : Ref sig .tc := ⟨.hbm, 121, rfl⟩
abbrev main_call6_v0 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_call7_cst : Ref sig .tc := ⟨.hbm, 128, rfl⟩
abbrev main_call7_v0 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_call8_cst : Ref sig .tc := ⟨.hbm, 135, rfl⟩
abbrev main_call8_v0 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩

abbrev nD : Nat := 1
abbrev τ : Topo := Topo.v7x

variable {F : FTy → Type} [FloatOps F]

class Facts₀ : Prop where
  bcast_S_S131072x2 : S_.BroadcastsInDim S131072x2 (![] : Fin 0 → Fin S131072x2.rank)
  bcast_S131072x2_S131072x2x1_0_1 : S131072x2.BroadcastsInDim S131072x2x1 (![0, 1] : Fin 2 → Fin S131072x2x1.rank)
  shapeCasts_S131072x2x128_S131072x256 : S131072x2x128.ShapeCasts S131072x256
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  bcast_S_S262144x3 : S_.BroadcastsInDim S262144x3 (![] : Fin 0 → Fin S262144x3.rank)
  bcast_S262144x3_S262144x3x1_0_1 : S262144x3.BroadcastsInDim S262144x3x1 (![0, 1] : Fin 2 → Fin S262144x3x1.rank)
  shapeCasts_S262144x3x128_S262144x384 : S262144x3x128.ShapeCasts S262144x384
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S1x2_S262144x2_0_1 : S1x2.BroadcastsInDim S262144x2 (![0, 1] : Fin 2 → Fin S262144x2.rank)
  bcast_S_S393216x4 : S_.BroadcastsInDim S393216x4 (![] : Fin 0 → Fin S393216x4.rank)
  bcast_S393216x4_S393216x4x1_0_1 : S393216x4.BroadcastsInDim S393216x4x1 (![0, 1] : Fin 2 → Fin S393216x4x1.rank)
  shapeCasts_S393216x4x128_S393216x512 : S393216x4x128.ShapeCasts S393216x512
  bcast_S1x128_S393216x128_0_1 : S1x128.BroadcastsInDim S393216x128 (![0, 1] : Fin 2 → Fin S393216x128.rank)
  bcast_S_S393216x128 : S_.BroadcastsInDim S393216x128 (![] : Fin 0 → Fin S393216x128.rank)
  bcast_S1x2_S393216x2_0_1 : S1x2.BroadcastsInDim S393216x2 (![0, 1] : Fin 2 → Fin S393216x2.rank)
  concatenates_S131072x2_S262144x2_S393216x2_S786432x2_d0 : Shape.Concatenates [S131072x2, S262144x2, S393216x2] S786432x2 0
  gather_S131072x128_S131072x2x1_S131072x2x128_2_0_n_n_0_2_1128_wf : GatherDims.WF S131072x128 S131072x2x1 S131072x2x128 [2] [0] [] [0] [] 2 ![1, 128]
  dot_S131072x256_S256x128_S131072x128_1_0_0_1_n_n_wf : DotDims.WF S131072x256 S256x128 S131072x128 [1] [0] [0] [1] [] []
  dot_S131072x128_S128x128_S131072x128_1_0_0_1_n_n_wf : DotDims.WF S131072x128 S128x128 S131072x128 [1] [0] [0] [1] [] []
  dot_S131072x128_S128x2_S131072x2_1_0_0_1_n_n_wf : DotDims.WF S131072x128 S128x2 S131072x2 [1] [0] [0] [1] [] []
  gather_S131072x128_S262144x3x1_S262144x3x128_2_0_n_n_0_2_1128_wf : GatherDims.WF S131072x128 S262144x3x1 S262144x3x128 [2] [0] [] [0] [] 2 ![1, 128]
  dot_S262144x384_S384x128_S262144x128_1_0_0_1_n_n_wf : DotDims.WF S262144x384 S384x128 S262144x128 [1] [0] [0] [1] [] []
  dot_S262144x128_S128x128_S262144x128_1_0_0_1_n_n_wf : DotDims.WF S262144x128 S128x128 S262144x128 [1] [0] [0] [1] [] []
  dot_S262144x128_S128x2_S262144x2_1_0_0_1_n_n_wf : DotDims.WF S262144x128 S128x2 S262144x2 [1] [0] [0] [1] [] []
  gather_S131072x128_S393216x4x1_S393216x4x128_2_0_n_n_0_2_1128_wf : GatherDims.WF S131072x128 S393216x4x1 S393216x4x128 [2] [0] [] [0] [] 2 ![1, 128]
  dot_S393216x512_S512x128_S393216x128_1_0_0_1_n_n_wf : DotDims.WF S393216x512 S512x128 S393216x128 [1] [0] [0] [1] [] []
  dot_S393216x128_S128x128_S393216x128_1_0_0_1_n_n_wf : DotDims.WF S393216x128 S128x128 S393216x128 [1] [0] [0] [1] [] []
  dot_S393216x128_S128x2_S393216x2_1_0_0_1_n_n_wf : DotDims.WF S393216x128 S128x2 S393216x2 [1] [0] [0] [1] [] []

variable [Facts₀]

def gather_S131072x128_S131072x2x1_S131072x2x128_2_0_n_n_0_2_1128 : GatherDims S131072x128 S131072x2x1 S131072x2x128 where
  offsetDims := [2]
  collapsedSliceDims := [0]
  operandBatchingDims := []
  startIndicesBatchingDims := []
  startIndexMap := [0]
  indexVectorDim := 2
  sliceSizes := ![1, 128]
  wf := gather_S131072x128_S131072x2x1_S131072x2x128_2_0_n_n_0_2_1128_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x128_S128x2_S131072x2_1_0_0_1_n_n : DotDims S131072x128 S128x2 S131072x2 where
  lhsContracting := [1]
  rhsContracting := [0]
  lhsNonContracting := [0]
  rhsNonContracting := [1]
  lhsBatch := []
  rhsBatch := []
  wf := dot_S131072x128_S128x2_S131072x2_1_0_0_1_n_n_wf
def gather_S131072x128_S262144x3x1_S262144x3x128_2_0_n_n_0_2_1128 : GatherDims S131072x128 S262144x3x1 S262144x3x128 where
  offsetDims := [2]
  collapsedSliceDims := [0]
  operandBatchingDims := []
  startIndicesBatchingDims := []
  startIndexMap := [0]
  indexVectorDim := 2
  sliceSizes := ![1, 128]
  wf := gather_S131072x128_S262144x3x1_S262144x3x128_2_0_n_n_0_2_1128_wf
def dot_S262144x384_S384x128_S262144x128_1_0_0_1_n_n : DotDims S262144x384 S384x128 S262144x128 where
  lhsContracting := [1]
  rhsContracting := [0]
  lhsNonContracting := [0]
  rhsNonContracting := [1]
  lhsBatch := []
  rhsBatch := []
  wf := dot_S262144x384_S384x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x2_S262144x2_1_0_0_1_n_n : DotDims S262144x128 S128x2 S262144x2 where
  lhsContracting := [1]
  rhsContracting := [0]
  lhsNonContracting := [0]
  rhsNonContracting := [1]
  lhsBatch := []
  rhsBatch := []
  wf := dot_S262144x128_S128x2_S262144x2_1_0_0_1_n_n_wf
def gather_S131072x128_S393216x4x1_S393216x4x128_2_0_n_n_0_2_1128 : GatherDims S131072x128 S393216x4x1 S393216x4x128 where
  offsetDims := [2]
  collapsedSliceDims := [0]
  operandBatchingDims := []
  startIndicesBatchingDims := []
  startIndexMap := [0]
  indexVectorDim := 2
  sliceSizes := ![1, 128]
  wf := gather_S131072x128_S393216x4x1_S393216x4x128_2_0_n_n_0_2_1128_wf
def dot_S393216x512_S512x128_S393216x128_1_0_0_1_n_n : DotDims S393216x512 S512x128 S393216x128 where
  lhsContracting := [1]
  rhsContracting := [0]
  lhsNonContracting := [0]
  rhsNonContracting := [1]
  lhsBatch := []
  rhsBatch := []
  wf := dot_S393216x512_S512x128_S393216x128_1_0_0_1_n_n_wf
def dot_S393216x128_S128x128_S393216x128_1_0_0_1_n_n : DotDims S393216x128 S128x128 S393216x128 where
  lhsContracting := [1]
  rhsContracting := [0]
  lhsNonContracting := [0]
  rhsNonContracting := [1]
  lhsBatch := []
  rhsBatch := []
  wf := dot_S393216x128_S128x128_S393216x128_1_0_0_1_n_n_wf
def dot_S393216x128_S128x2_S393216x2_1_0_0_1_n_n : DotDims S393216x128 S128x2 S393216x2 where
  lhsContracting := [1]
  rhsContracting := [0]
  lhsNonContracting := [0]
  rhsNonContracting := [1]
  lhsBatch := []
  rhsBatch := []
  wf := dot_S393216x128_S128x2_S393216x2_1_0_0_1_n_n_wf

class Facts : Prop extends Facts₀ where

variable [Facts]
-- ==== Proof.WordBody0.lean ====
/-
  Pallas region 0 of the program, seen from inside: one grid point of the row-blocked perceptron.

  The region walks the node axis in blocks of 4096 rows.  At point `t` it reads block `t` of the pooled rows
  (4096 × 256) and the whole of the eight parameter arrays (their block index is constant, so they are copied in
  once and stay), computes the four affine layers with the ramp between them on that block, and writes the
  transposed 2 × 4096 result as block `t` of the 2 × N output.  This module states what one point leaves behind —
  every input buffer unchanged, the output buffer at the body's arithmetic applied to the nine input blocks —
  proves it of the printed body by symbolic execution, and packages it as the per-point obligation of the
  block pipeline.  Everything is stated for an arbitrary contents `V` of the core's buffers at the moment the
  region is entered, and at any interpretation `F` of the float formats.
-/
import proofs.«174930_j4569845203353_2_alg».proof.Proof.Gen.Kernel.Launch
import proofs.«174930_j4569845203353_2_alg».proof.Proof.Gen.Kernel.Skeleton
import proofs.«174930_j4569845203353_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the point reads -/

/-- Window `w`'s block at point `t`, cut out of its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block of the entry contents at every point, whether or not the
    point fetches it: between two fetches the window's block index does not move. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- Input window 1's staging buffer holds the window's block of the entry contents at every point, whether or not the
    point fetches it: between two fetches the window's block index does not move. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- Input window 2's staging buffer holds the window's block of the entry contents at every point, whether or not the
    point fetches it: between two fetches the window's block index does not move. -/
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
/-- Input window 3's staging buffer holds the window's block of the entry contents at every point, whether or not the
    point fetches it: between two fetches the window's block index does not move. -/
theorem held0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
/-- Input window 4's staging buffer holds the window's block of the entry contents at every point, whether or not the
    point fetches it: between two fetches the window's block index does not move. -/
theorem held0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
/-- Input window 5's staging buffer holds the window's block of the entry contents at every point, whether or not the
    point fetches it: between two fetches the window's block index does not move. -/
theorem held0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
/-- Input window 6's staging buffer holds the window's block of the entry contents at every point, whether or not the
    point fetches it: between two fetches the window's block index does not move. -/
theorem held0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)
/-- Input window 7's staging buffer holds the window's block of the entry contents at every point, whether or not the
    point fetches it: between two fetches the window's block index does not move. -/
theorem held0_7_of {c : Dev nD} (dat : Dat τ (Elt F) Unit ℕ (UR sig nD τ) ℕ cfg0 c) (hA : dat.A 7 = V c (Pipeline.arrRef spec0 7))
    (hafter : ∀ t, dat.after 7 t = blk0 V c 7 t) (t : Fin cfg0.N) (d) : dat.before 7 t d = blk0 V c 7 t :=
  (dat.before_in_eq_fetched 7 rfl (fun _ => rfl) (fun _ _ _ => rfl) (fun t => by rw [hafter]; unfold Dat.blockOf blk0; rw [hA]; try rfl) t d).trans
    (by unfold Dat.fetched Dat.blockOf blk0; rw [hA]; try rfl)
/-- Input window 8's staging buffer holds the window's block of the entry contents at every point, whether or not the
    point fetches it: between two fetches the window's block index does not move. -/
theorem held0_8_of {c : Dev nD} (dat : Dat τ (Elt F) Unit ℕ (UR sig nD τ) ℕ cfg0 c) (hA : dat.A 8 = V c (Pipeline.arrRef spec0 8))
    (hafter : ∀ t, dat.after 8 t = blk0 V c 8 t) (t : Fin cfg0.N) (d) : dat.before 8 t d = blk0 V c 8 t :=
  (dat.before_in_eq_fetched 8 rfl (fun _ => rfl) (fun _ _ _ => rfl) (fun t => by rw [hafter]; unfold Dat.blockOf blk0; rw [hA]; try rfl) t d).trans
    (by unfold Dat.fetched Dat.blockOf blk0; rw [hA]; try rfl)

/-! ## What one point leaves in the output buffer -/

/-- The output buffer after the body: one store of the whole 2 × 4096 block, its value the four layers applied to the
    nine loaded blocks (each loaded whole). -/
def out0 (x0 : Vec F S4096x256 .bf16) (x1 : Vec F S256x128 .bf16) (x2 : Vec F S1x128 .f32) (x3 : Vec F S128x128 .bf16) (x4 : Vec F S1x128 .f32) (x5 : Vec F S128x128 .bf16) (x6 : Vec F S1x128 .f32) (x7 : Vec F S128x2 .bf16) (x8 : Vec F S1x2 .f32) : Vec F S2x4096 .f32 :=
  View.canon [⟨(Rect.unit (s := S2x4096) ![0, 0] S2x4096.size inb_S2x4096_S2x4096_0_0), k0_pay1 (k0_pay2 (View.ld x0 (Rect.unit (s := S4096x256) ![0, 0] S4096x256.size inb_S4096x256_S4096x256_0_0)) (View.ld x1 (Rect.unit (s := S256x128) ![0, 0] S256x128.size inb_S256x128_S256x128_0_0)) (View.ld x2 (Rect.unit (s := S1x128) ![0, 0] S1x128.size inb_S1x128_S1x128_0_0)) (View.ld x3 (Rect.unit (s := S128x128) ![0, 0] S128x128.size inb_S128x128_S128x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0)) (View.ld x7 (Rect.unit (s := S128x2) ![0, 0] S128x2.size inb_S128x2_S128x2_0_0))) (View.ld x8 (Rect.unit (s := S1x2) ![0, 0] S1x2.size inb_S1x2_S1x2_0_0))⟩]

/-- That one store covers the buffer. -/
theorem cover0 (p0 : Vec F S2x4096 .f32) (y : S2x4096.Idx) :
    ∃ pc ∈ ([⟨(Rect.unit (s := S2x4096) ![0, 0] S2x4096.size inb_S2x4096_S2x4096_0_0), p0⟩] : List (View.Piece (Elt F) S2x4096 .f32)), y ∈ pc.1.set :=
  View.cover_of_tiled [⟨(Rect.unit (s := S2x4096) ![0, 0] S2x4096.size inb_S2x4096_S2x4096_0_0), p0⟩] S2x4096.size (by rfl) y

/-! ## The body run symbolically -/

set_option maxHeartbeats 4000000 in
/-- The body on whole staging buffers — the nine inputs at contents `x0 … x8`, the output at anything — runs without
    fault to a state where the inputs are as they were and the output holds `out0 x0 … x8`. -/
theorem sound_kernel0 (c : Dev nD) (E : Set ℕ) (i : grid0.Coords) (arg1 : Memref sig .tc .vmem S4096x256 .bf16) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x2 .bf16) (harg8 : arg8.IsWhole) (arg9 : Memref sig .tc .vmem S1x2 .f32) (harg9 : arg9.IsWhole) (arg10 : Memref sig .tc .vmem S2x4096 .f32) (harg10 : arg10.IsWhole)
    (x0 : Vec F S4096x256 .bf16) (x1 : Vec F S256x128 .bf16) (x2 : Vec F S1x128 .f32) (x3 : Vec F S128x128 .bf16) (x4 : Vec F S1x128 .f32) (x5 : Vec F S128x128 .bf16) (x6 : Vec F S1x128 .f32) (x7 : Vec F S128x2 .bf16) (x8 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0 x0 x1 x2 x3 x4 x5 x6 x7 x8)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0 _)

/-! ## The block pipeline's bookkeeping for this region -/

/-- The arrays are the entry contents; after the body at point `t` each input buffer holds its block and the output
    buffer `out0` of the nine blocks; nothing is owed between points and every share is whole. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => out0 (blk0 V c 0 t) (blk0 V c 1 t) (blk0 V c 2 t) (blk0 V c 3 t) (blk0 V c 4 t) (blk0 V c 5 t) (blk0 V c 6 t) (blk0 V c 7 t) (blk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = blk0 V c 7 t := by dsimp only [dat0]
theorem after0_8 (c : Dev nD) (t : Fin cfg0.N) : (dat0 V c).after 8 t = blk0 V c 8 t := by dsimp only [dat0]
theorem after0_9 (c : Dev nD) (t : Fin cfg0.N) : (dat0 V c).after 9 t = out0 (blk0 V c 0 t) (blk0 V c 1 t) (blk0 V c 2 t) (blk0 V c 3 t) (blk0 V c 4 t) (blk0 V c 5 t) (blk0 V c 6 t) (blk0 V c 7 t) (blk0 V c 8 t) := by dsimp only [dat0]

theorem before0_0 (c : Dev nD) (t : Fin cfg0.N) (d) : (dat0 V c).before 0 t d = blk0 V c 0 t :=
  held0_0_of V (dat0 V c) (A_eq0 V c 0) (after0_0 V c) t d
theorem before0_1 (c : Dev nD) (t : Fin cfg0.N) (d) : (dat0 V c).before 1 t d = blk0 V c 1 t :=
  held0_1_of V (dat0 V c) (A_eq0 V c 1) (after0_1 V c) t d
theorem before0_2 (c : Dev nD) (t : Fin cfg0.N) (d) : (dat0 V c).before 2 t d = blk0 V c 2 t :=
  held0_2_of V (dat0 V c) (A_eq0 V c 2) (after0_2 V c) t d
theorem before0_3 (c : Dev nD) (t : Fin cfg0.N) (d) : (dat0 V c).before 3 t d = blk0 V c 3 t :=
  held0_3_of V (dat0 V c) (A_eq0 V c 3) (after0_3 V c) t d
theorem before0_4 (c : Dev nD) (t : Fin cfg0.N) (d) : (dat0 V c).before 4 t d = blk0 V c 4 t :=
  held0_4_of V (dat0 V c) (A_eq0 V c 4) (after0_4 V c) t d
theorem before0_5 (c : Dev nD) (t : Fin cfg0.N) (d) : (dat0 V c).before 5 t d = blk0 V c 5 t :=
  held0_5_of V (dat0 V c) (A_eq0 V c 5) (after0_5 V c) t d
theorem before0_6 (c : Dev nD) (t : Fin cfg0.N) (d) : (dat0 V c).before 6 t d = blk0 V c 6 t :=
  held0_6_of V (dat0 V c) (A_eq0 V c 6) (after0_6 V c) t d
theorem before0_7 (c : Dev nD) (t : Fin cfg0.N) (d) : (dat0 V c).before 7 t d = blk0 V c 7 t :=
  held0_7_of V (dat0 V c) (A_eq0 V c 7) (after0_7 V c) t d
theorem before0_8 (c : Dev nD) (t : Fin cfg0.N) (d) : (dat0 V c).before 8 t d = blk0 V c 8 t :=
  held0_8_of V (dat0 V c) (A_eq0 V c 8) (after0_8 V c) t d

/-! ## One point of the pipeline -/

/-- What the body is entered with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the input buffers hold their blocks, so the symbolic run applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (blk0 V c 0 t) (blk0 V c 1 t) (blk0 V c 2 t) (blk0 V c 3 t) (blk0 V c 4 t) (blk0 V c 5 t) (blk0 V c 6 t) (blk0 V c 7 t) (blk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's per-point obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Region

end
-- ==== Proof.WordBody1.lean ====
/-
  Pallas region 1 of the program, seen from inside: one grid point of the row-blocked perceptron.

  The region walks the node axis in blocks of 4096 rows.  At point `t` it reads block `t` of the pooled rows
  (4096 × 384) and the whole of the eight parameter arrays (their block index is constant, so they are copied in
  once and stay), computes the four affine layers with the ramp between them on that block, and writes the
  transposed 2 × 4096 result as block `t` of the 2 × N output.  This module states what one point leaves behind —
  every input buffer unchanged, the output buffer at the body's arithmetic applied to the nine input blocks —
  proves it of the printed body by symbolic execution, and packages it as the per-point obligation of the
  block pipeline.  Everything is stated for an arbitrary contents `V` of the core's buffers at the moment the
  region is entered, and at any interpretation `F` of the float formats.
-/
import proofs.«174930_j4569845203353_2_alg».proof.Proof.Gen.Kernel.Launch
import proofs.«174930_j4569845203353_2_alg».proof.Proof.Gen.Kernel.Skeleton
import proofs.«174930_j4569845203353_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the point reads -/

/-- Window `w`'s block at point `t`, cut out of its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block of the entry contents at every point, whether or not the
    point fetches it: between two fetches the window's block index does not move. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- Input window 1's staging buffer holds the window's block of the entry contents at every point, whether or not the
    point fetches it: between two fetches the window's block index does not move. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- Input window 2's staging buffer holds the window's block of the entry contents at every point, whether or not the
    point fetches it: between two fetches the window's block index does not move. -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
/-- Input window 3's staging buffer holds the window's block of the entry contents at every point, whether or not the
    point fetches it: between two fetches the window's block index does not move. -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
/-- Input window 4's staging buffer holds the window's block of the entry contents at every point, whether or not the
    point fetches it: between two fetches the window's block index does not move. -/
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
/-- Input window 5's staging buffer holds the window's block of the entry contents at every point, whether or not the
    point fetches it: between two fetches the window's block index does not move. -/
theorem held1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
/-- Input window 6's staging buffer holds the window's block of the entry contents at every point, whether or not the
    point fetches it: between two fetches the window's block index does not move. -/
theorem held1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)
/-- Input window 7's staging buffer holds the window's block of the entry contents at every point, whether or not the
    point fetches it: between two fetches the window's block index does not move. -/
theorem held1_7_of {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)
/-- Input window 8's staging buffer holds the window's block of the entry contents at every point, whether or not the
    point fetches it: between two fetches the window's block index does not move. -/
theorem held1_8_of {c : Dev nD} (dat : Dat τ (Elt F) Unit ℕ (UR sig nD τ) ℕ cfg1 c) (hA : dat.A 8 = V c (Pipeline.arrRef spec1 8))
    (hafter : ∀ t, dat.after 8 t = blk1 V c 8 t) (t : Fin cfg1.N) (d) : dat.before 8 t d = blk1 V c 8 t :=
  (dat.before_in_eq_fetched 8 rfl (fun _ => rfl) (fun _ _ _ => rfl) (fun t => by rw [hafter]; unfold Dat.blockOf blk1; rw [hA]; try rfl) t d).trans
    (by unfold Dat.fetched Dat.blockOf blk1; rw [hA]; try rfl)

/-! ## What one point leaves in the output buffer -/

/-- The output buffer after the body: one store of the whole 2 × 4096 block, its value the four layers applied to the
    nine loaded blocks (each loaded whole). -/
def out1 (x0 : Vec F S4096x384 .bf16) (x1 : Vec F S384x128 .bf16) (x2 : Vec F S1x128 .f32) (x3 : Vec F S128x128 .bf16) (x4 : Vec F S1x128 .f32) (x5 : Vec F S128x128 .bf16) (x6 : Vec F S1x128 .f32) (x7 : Vec F S128x2 .bf16) (x8 : Vec F S1x2 .f32) : Vec F S2x4096 .f32 :=
  View.canon [⟨(Rect.unit (s := S2x4096) ![0, 0] S2x4096.size inb_S2x4096_S2x4096_0_0), k1_pay1 (k1_pay2 (View.ld x0 (Rect.unit (s := S4096x384) ![0, 0] S4096x384.size inb_S4096x384_S4096x384_0_0)) (View.ld x1 (Rect.unit (s := S384x128) ![0, 0] S384x128.size inb_S384x128_S384x128_0_0)) (View.ld x2 (Rect.unit (s := S1x128) ![0, 0] S1x128.size inb_S1x128_S1x128_0_0)) (View.ld x3 (Rect.unit (s := S128x128) ![0, 0] S128x128.size inb_S128x128_S128x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0)) (View.ld x7 (Rect.unit (s := S128x2) ![0, 0] S128x2.size inb_S128x2_S128x2_0_0))) (View.ld x8 (Rect.unit (s := S1x2) ![0, 0] S1x2.size inb_S1x2_S1x2_0_0))⟩]

/-- That one store covers the buffer. -/
theorem cover1 (p0 : Vec F S2x4096 .f32) (y : S2x4096.Idx) :
    ∃ pc ∈ ([⟨(Rect.unit (s := S2x4096) ![0, 0] S2x4096.size inb_S2x4096_S2x4096_0_0), p0⟩] : List (View.Piece (Elt F) S2x4096 .f32)), y ∈ pc.1.set :=
  View.cover_of_tiled [⟨(Rect.unit (s := S2x4096) ![0, 0] S2x4096.size inb_S2x4096_S2x4096_0_0), p0⟩] S2x4096.size (by rfl) y

/-! ## The body run symbolically -/

set_option maxHeartbeats 4000000 in
/-- The body on whole staging buffers — the nine inputs at contents `x0 … x8`, the output at anything — runs without
    fault to a state where the inputs are as they were and the output holds `out1 x0 … x8`. -/
theorem sound_kernel1 (c : Dev nD) (E : Set ℕ) (i : grid1.Coords) (arg1 : Memref sig .tc .vmem S4096x384 .bf16) (harg1 : arg1.IsWhole) (arg2 : Memref sig .tc .vmem S384x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x2 .bf16) (harg8 : arg8.IsWhole) (arg9 : Memref sig .tc .vmem S1x2 .f32) (harg9 : arg9.IsWhole) (arg10 : Memref sig .tc .vmem S2x4096 .f32) (harg10 : arg10.IsWhole)
    (x0 : Vec F S4096x384 .bf16) (x1 : Vec F S384x128 .bf16) (x2 : Vec F S1x128 .f32) (x3 : Vec F S128x128 .bf16) (x4 : Vec F S1x128 .f32) (x5 : Vec F S128x128 .bf16) (x6 : Vec F S1x128 .f32) (x7 : Vec F S128x2 .bf16) (x8 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1 x0 x1 x2 x3 x4 x5 x6 x7 x8)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1 _)

/-! ## The block pipeline's bookkeeping for this region -/

/-- The arrays are the entry contents; after the body at point `t` each input buffer holds its block and the output
    buffer `out1` of the nine blocks; nothing is owed between points and every share is whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => out1 (blk1 V c 0 t) (blk1 V c 1 t) (blk1 V c 2 t) (blk1 V c 3 t) (blk1 V c 4 t) (blk1 V c 5 t) (blk1 V c 6 t) (blk1 V c 7 t) (blk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = blk1 V c 8 t := by dsimp only [dat1]
theorem after1_9 (c : Dev nD) (t : Fin cfg1.N) : (dat1 V c).after 9 t = out1 (blk1 V c 0 t) (blk1 V c 1 t) (blk1 V c 2 t) (blk1 V c 3 t) (blk1 V c 4 t) (blk1 V c 5 t) (blk1 V c 6 t) (blk1 V c 7 t) (blk1 V c 8 t) := by dsimp only [dat1]

theorem before1_0 (c : Dev nD) (t : Fin cfg1.N) (d) : (dat1 V c).before 0 t d = blk1 V c 0 t :=
  held1_0_of V (dat1 V c) (A_eq1 V c 0) (after1_0 V c) t d
theorem before1_1 (c : Dev nD) (t : Fin cfg1.N) (d) : (dat1 V c).before 1 t d = blk1 V c 1 t :=
  held1_1_of V (dat1 V c) (A_eq1 V c 1) (after1_1 V c) t d
theorem before1_2 (c : Dev nD) (t : Fin cfg1.N) (d) : (dat1 V c).before 2 t d = blk1 V c 2 t :=
  held1_2_of V (dat1 V c) (A_eq1 V c 2) (after1_2 V c) t d
theorem before1_3 (c : Dev nD) (t : Fin cfg1.N) (d) : (dat1 V c).before 3 t d = blk1 V c 3 t :=
  held1_3_of V (dat1 V c) (A_eq1 V c 3) (after1_3 V c) t d
theorem before1_4 (c : Dev nD) (t : Fin cfg1.N) (d) : (dat1 V c).before 4 t d = blk1 V c 4 t :=
  held1_4_of V (dat1 V c) (A_eq1 V c 4) (after1_4 V c) t d
theorem before1_5 (c : Dev nD) (t : Fin cfg1.N) (d) : (dat1 V c).before 5 t d = blk1 V c 5 t :=
  held1_5_of V (dat1 V c) (A_eq1 V c 5) (after1_5 V c) t d
theorem before1_6 (c : Dev nD) (t : Fin cfg1.N) (d) : (dat1 V c).before 6 t d = blk1 V c 6 t :=
  held1_6_of V (dat1 V c) (A_eq1 V c 6) (after1_6 V c) t d
theorem before1_7 (c : Dev nD) (t : Fin cfg1.N) (d) : (dat1 V c).before 7 t d = blk1 V c 7 t :=
  held1_7_of V (dat1 V c) (A_eq1 V c 7) (after1_7 V c) t d
theorem before1_8 (c : Dev nD) (t : Fin cfg1.N) (d) : (dat1 V c).before 8 t d = blk1 V c 8 t :=
  held1_8_of V (dat1 V c) (A_eq1 V c 8) (after1_8 V c) t d

/-! ## One point of the pipeline -/

/-- What the body is entered with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- The body at any point: the input buffers hold their blocks, so the symbolic run applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's per-point obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Region

end
-- ==== Proof.WordBody2.lean ====
/-
  Pallas region 2 of the program, seen from inside: one grid point of the row-blocked perceptron.

  The region walks the node axis in blocks of 4096 rows.  At point `t` it reads block `t` of the pooled rows
  (4096 × 512) and the whole of the eight parameter arrays (their block index is constant, so they are copied in
  once and stay), computes the four affine layers with the ramp between them on that block, and writes the
  transposed 2 × 4096 result as block `t` of the 2 × N output.  This module states what one point leaves behind —
  every input buffer unchanged, the output buffer at the body's arithmetic applied to the nine input blocks —
  proves it of the printed body by symbolic execution, and packages it as the per-point obligation of the
  block pipeline.  Everything is stated for an arbitrary contents `V` of the core's buffers at the moment the
  region is entered, and at any interpretation `F` of the float formats.
-/
import proofs.«174930_j4569845203353_2_alg».proof.Proof.Gen.Kernel.Launch
import proofs.«174930_j4569845203353_2_alg».proof.Proof.Gen.Kernel.Skeleton
import proofs.«174930_j4569845203353_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the point reads -/

/-- Window `w`'s block at point `t`, cut out of its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block of the entry contents at every point, whether or not the
    point fetches it: between two fetches the window's block index does not move. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
/-- Input window 1's staging buffer holds the window's block of the entry contents at every point, whether or not the
    point fetches it: between two fetches the window's block index does not move. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
/-- Input window 2's staging buffer holds the window's block of the entry contents at every point, whether or not the
    point fetches it: between two fetches the window's block index does not move. -/
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
/-- Input window 3's staging buffer holds the window's block of the entry contents at every point, whether or not the
    point fetches it: between two fetches the window's block index does not move. -/
theorem held2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
/-- Input window 4's staging buffer holds the window's block of the entry contents at every point, whether or not the
    point fetches it: between two fetches the window's block index does not move. -/
theorem held2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)
/-- Input window 5's staging buffer holds the window's block of the entry contents at every point, whether or not the
    point fetches it: between two fetches the window's block index does not move. -/
theorem held2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)
/-- Input window 6's staging buffer holds the window's block of the entry contents at every point, whether or not the
    point fetches it: between two fetches the window's block index does not move. -/
theorem held2_6_of {c : Dev nD} (dat : Dat τ (Elt F) Unit ℕ (UR sig nD τ) ℕ cfg2 c) (hA : dat.A 6 = V c (Pipeline.arrRef spec2 6))
    (hafter : ∀ t, dat.after 6 t = blk2 V c 6 t) (t : Fin cfg2.N) (d) : dat.before 6 t d = blk2 V c 6 t :=
  (dat.before_in_eq_fetched 6 rfl (fun _ => rfl) (fun _ _ _ => rfl) (fun t => by rw [hafter]; unfold Dat.blockOf blk2; rw [hA]; try rfl) t d).trans
    (by unfold Dat.fetched Dat.blockOf blk2; rw [hA]; try rfl)
/-- Input window 7's staging buffer holds the window's block of the entry contents at every point, whether or not the
    point fetches it: between two fetches the window's block index does not move. -/
theorem held2_7_of {c : Dev nD} (dat : Dat τ (Elt F) Unit ℕ (UR sig nD τ) ℕ cfg2 c) (hA : dat.A 7 = V c (Pipeline.arrRef spec2 7))
    (hafter : ∀ t, dat.after 7 t = blk2 V c 7 t) (t : Fin cfg2.N) (d) : dat.before 7 t d = blk2 V c 7 t :=
  (dat.before_in_eq_fetched 7 rfl (fun _ => rfl) (fun _ _ _ => rfl) (fun t => by rw [hafter]; unfold Dat.blockOf blk2; rw [hA]; try rfl) t d).trans
    (by unfold Dat.fetched Dat.blockOf blk2; rw [hA]; try rfl)
/-- Input window 8's staging buffer holds the window's block of the entry contents at every point, whether or not the
    point fetches it: between two fetches the window's block index does not move. -/
theorem held2_8_of {c : Dev nD} (dat : Dat τ (Elt F) Unit ℕ (UR sig nD τ) ℕ cfg2 c) (hA : dat.A 8 = V c (Pipeline.arrRef spec2 8))
    (hafter : ∀ t, dat.after 8 t = blk2 V c 8 t) (t : Fin cfg2.N) (d) : dat.before 8 t d = blk2 V c 8 t :=
  (dat.before_in_eq_fetched 8 rfl (fun _ => rfl) (fun _ _ _ => rfl) (fun t => by rw [hafter]; unfold Dat.blockOf blk2; rw [hA]; try rfl) t d).trans
    (by unfold Dat.fetched Dat.blockOf blk2; rw [hA]; try rfl)

/-! ## What one point leaves in the output buffer -/

/-- The output buffer after the body: one store of the whole 2 × 4096 block, its value the four layers applied to the
    nine loaded blocks (each loaded whole). -/
def out2 (x0 : Vec F S4096x512 .bf16) (x1 : Vec F S512x128 .bf16) (x2 : Vec F S1x128 .f32) (x3 : Vec F S128x128 .bf16) (x4 : Vec F S1x128 .f32) (x5 : Vec F S128x128 .bf16) (x6 : Vec F S1x128 .f32) (x7 : Vec F S128x2 .bf16) (x8 : Vec F S1x2 .f32) : Vec F S2x4096 .f32 :=
  View.canon [⟨(Rect.unit (s := S2x4096) ![0, 0] S2x4096.size inb_S2x4096_S2x4096_0_0), k2_pay1 (k2_pay2 (View.ld x0 (Rect.unit (s := S4096x512) ![0, 0] S4096x512.size inb_S4096x512_S4096x512_0_0)) (View.ld x1 (Rect.unit (s := S512x128) ![0, 0] S512x128.size inb_S512x128_S512x128_0_0)) (View.ld x2 (Rect.unit (s := S1x128) ![0, 0] S1x128.size inb_S1x128_S1x128_0_0)) (View.ld x3 (Rect.unit (s := S128x128) ![0, 0] S128x128.size inb_S128x128_S128x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0)) (View.ld x7 (Rect.unit (s := S128x2) ![0, 0] S128x2.size inb_S128x2_S128x2_0_0))) (View.ld x8 (Rect.unit (s := S1x2) ![0, 0] S1x2.size inb_S1x2_S1x2_0_0))⟩]

/-- That one store covers the buffer. -/
theorem cover2 (p0 : Vec F S2x4096 .f32) (y : S2x4096.Idx) :
    ∃ pc ∈ ([⟨(Rect.unit (s := S2x4096) ![0, 0] S2x4096.size inb_S2x4096_S2x4096_0_0), p0⟩] : List (View.Piece (Elt F) S2x4096 .f32)), y ∈ pc.1.set :=
  View.cover_of_tiled [⟨(Rect.unit (s := S2x4096) ![0, 0] S2x4096.size inb_S2x4096_S2x4096_0_0), p0⟩] S2x4096.size (by rfl) y

/-! ## The body run symbolically -/

set_option maxHeartbeats 4000000 in
/-- The body on whole staging buffers — the nine inputs at contents `x0 … x8`, the output at anything — runs without
    fault to a state where the inputs are as they were and the output holds `out2 x0 … x8`. -/
theorem sound_kernel2 (c : Dev nD) (E : Set ℕ) (i : grid2.Coords) (arg1 : Memref sig .tc .vmem S4096x512 .bf16) (harg1 : arg1.IsWhole) (arg2 : Memref sig .tc .vmem S512x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x2 .bf16) (harg8 : arg8.IsWhole) (arg9 : Memref sig .tc .vmem S1x2 .f32) (harg9 : arg9.IsWhole) (arg10 : Memref sig .tc .vmem S2x4096 .f32) (harg10 : arg10.IsWhole)
    (x0 : Vec F S4096x512 .bf16) (x1 : Vec F S512x128 .bf16) (x2 : Vec F S1x128 .f32) (x3 : Vec F S128x128 .bf16) (x4 : Vec F S1x128 .f32) (x5 : Vec F S128x128 .bf16) (x6 : Vec F S1x128 .f32) (x7 : Vec F S128x2 .bf16) (x8 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2 x0 x1 x2 x3 x4 x5 x6 x7 x8)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10) K := by
  simp only [cc2__mlp_kernel_eq_skeleton]; unfold cc2__mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2 _)

/-! ## The block pipeline's bookkeeping for this region -/

/-- The arrays are the entry contents; after the body at point `t` each input buffer holds its block and the output
    buffer `out2` of the nine blocks; nothing is owed between points and every share is whole. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => out2 (blk2 V c 0 t) (blk2 V c 1 t) (blk2 V c 2 t) (blk2 V c 3 t) (blk2 V c 4 t) (blk2 V c 5 t) (blk2 V c 6 t) (blk2 V c 7 t) (blk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = blk2 V c 7 t := by dsimp only [dat2]
theorem after2_8 (c : Dev nD) (t : Fin cfg2.N) : (dat2 V c).after 8 t = blk2 V c 8 t := by dsimp only [dat2]
theorem after2_9 (c : Dev nD) (t : Fin cfg2.N) : (dat2 V c).after 9 t = out2 (blk2 V c 0 t) (blk2 V c 1 t) (blk2 V c 2 t) (blk2 V c 3 t) (blk2 V c 4 t) (blk2 V c 5 t) (blk2 V c 6 t) (blk2 V c 7 t) (blk2 V c 8 t) := by dsimp only [dat2]

theorem before2_0 (c : Dev nD) (t : Fin cfg2.N) (d) : (dat2 V c).before 0 t d = blk2 V c 0 t :=
  held2_0_of V (dat2 V c) (A_eq2 V c 0) (after2_0 V c) t d
theorem before2_1 (c : Dev nD) (t : Fin cfg2.N) (d) : (dat2 V c).before 1 t d = blk2 V c 1 t :=
  held2_1_of V (dat2 V c) (A_eq2 V c 1) (after2_1 V c) t d
theorem before2_2 (c : Dev nD) (t : Fin cfg2.N) (d) : (dat2 V c).before 2 t d = blk2 V c 2 t :=
  held2_2_of V (dat2 V c) (A_eq2 V c 2) (after2_2 V c) t d
theorem before2_3 (c : Dev nD) (t : Fin cfg2.N) (d) : (dat2 V c).before 3 t d = blk2 V c 3 t :=
  held2_3_of V (dat2 V c) (A_eq2 V c 3) (after2_3 V c) t d
theorem before2_4 (c : Dev nD) (t : Fin cfg2.N) (d) : (dat2 V c).before 4 t d = blk2 V c 4 t :=
  held2_4_of V (dat2 V c) (A_eq2 V c 4) (after2_4 V c) t d
theorem before2_5 (c : Dev nD) (t : Fin cfg2.N) (d) : (dat2 V c).before 5 t d = blk2 V c 5 t :=
  held2_5_of V (dat2 V c) (A_eq2 V c 5) (after2_5 V c) t d
theorem before2_6 (c : Dev nD) (t : Fin cfg2.N) (d) : (dat2 V c).before 6 t d = blk2 V c 6 t :=
  held2_6_of V (dat2 V c) (A_eq2 V c 6) (after2_6 V c) t d
theorem before2_7 (c : Dev nD) (t : Fin cfg2.N) (d) : (dat2 V c).before 7 t d = blk2 V c 7 t :=
  held2_7_of V (dat2 V c) (A_eq2 V c 7) (after2_7 V c) t d
theorem before2_8 (c : Dev nD) (t : Fin cfg2.N) (d) : (dat2 V c).before 8 t d = blk2 V c 8 t :=
  held2_8_of V (dat2 V c) (A_eq2 V c 8) (after2_8 V c) t d

/-! ## One point of the pipeline -/

/-- What the body is entered with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 4000000 in
/-- The body at any point: the input buffers hold their blocks, so the symbolic run applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) (blk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's per-point obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Region

end
-- ==== Proof.WordRun.lean ====
/-
  The whole program as a chain of seven segments — host stretch, region, host stretch, region, host stretch, region,
  host stretch — with the contents of every unscoped buffer named at each boundary.

  `X1` is what the first host stretch makes of the launch memory; a region changes exactly one buffer, its output
  array, to what its block pipeline leaves there (`left0`, `left1`, `left2`); a host stretch applies its operations.
  The run theorem says: from any launch memory every weakly fair execution terminates without fault and ends with
  every unscoped buffer at the last boundary's contents `X7`. Both the frame claim (no segment writes an argument)
  and the value of the result buffer are read off that.
-/
import proofs.«174930_j4569845203353_2_alg».proof.Proof.WordBody0
import proofs.«174930_j4569845203353_2_alg».proof.Proof.WordBody1
import proofs.«174930_j4569845203353_2_alg».proof.Proof.WordBody2
import proofs.«174930_j4569845203353_2_alg».proof.Proof.Gen.Kernel.Regions

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary -/

/-- A boundary's contents read at the TensorCore's references. -/
abbrev atTc (W : Dev nD → Valuation τ sig (Elt F)) : (c : Dev nD) → (b : Ref sig .tc) → Buf (Elt F) ((c : Thread nD τ).loc b) :=
  fun c b => W c b

/-- At launch. -/
abbrev X0 : Dev nD → Valuation τ sig (Elt F) := fun c => Gen.V0 m c
/-- After the first host stretch: region 0's entry. -/
abbrev X1 : Dev nD → Valuation τ sig (Elt F) := fun c => StableHlo.after hostOps0 (X0 m c)

/-- What region 0's block pipeline leaves in its output array `main_v22`: the write-backs of all points folded in. -/
def left0 (c : Dev nD) : Buf (Elt F) ((c : Thread nD τ).loc main_v22) :=
  (dat0 (atTc (X1 m)) c).arrAt 9 cfg0.N

/-- The buffers when region 0 is left: as entered, except the output array. -/
def X2 (c : Dev nD) : Valuation τ sig (Elt F) :=
  Function.update (X1 m c) (Proc.devRef .tc main_v22) (left0 m c)

/-- Windows 0 … 8 of region 0 are inputs, over arrays other than the output's. -/
theorem inputs0 : ∀ w : Fin 10, w ≠ 9 → (cfg0.win w).isOut = false ∧ Pipeline.arrRef spec0 w ≠ main_v22 := by decide

/-- Each of the region's ten arrays is left at what the pipeline's bookkeeping says: an input as entered, the output at `left0`. -/
theorem kept0 (c : Dev nD) (w : Fin cfg0.W) : (dat0 (atTc (X1 m)) c).arrAt w cfg0.N = atTc (X2 m) c (Pipeline.arrRef spec0 w) := by
  by_cases h : w = 9
  · subst h
    show left0 m c = Function.update (X1 m c) (Proc.devRef .tc main_v22) (left0 m c) (Proc.devRef .tc main_v22)
    exact (Function.update_self (Proc.devRef (τ := τ) .tc main_v22) (left0 m c) (X1 m c)).symm
  · obtain ⟨hin, hne⟩ := inputs0 w h
    refine ((dat0 (atTc (X1 m)) c).arrAt_in w hin _).trans ((A_eq0 (atTc (X1 m)) c w).trans ?_)
    show X1 m c (Proc.devRef .tc (Pipeline.arrRef spec0 w)) = Function.update (X1 m c) (Proc.devRef .tc main_v22) (left0 m c) (Proc.devRef .tc (Pipeline.arrRef spec0 w))
    exact (Function.update_of_ne (StableHlo.devRef_ne_of_ne hne) _ _).symm

/-- Every other buffer is left as entered. -/
theorem rest0 (c : Dev nD) : ∀ b, b ∉ Finset.univ.image (Pipeline.arrRef spec0) → atTc (X2 m) c b = atTc (X1 m) c b :=
  fun b hb => Function.update_of_ne (StableHlo.devRef_ne_of_ne fun e => hb (Finset.mem_image.mpr ⟨9, Finset.mem_univ _, e.symm⟩)) _ _

/-- After the second host stretch: region 1's entry. -/
abbrev X3 : Dev nD → Valuation τ sig (Elt F) := fun c => StableHlo.after hostOps1 (X2 m c)

/-- What region 1's block pipeline leaves in its output array `main_v45`: the write-backs of all points folded in. -/
def left1 (c : Dev nD) : Buf (Elt F) ((c : Thread nD τ).loc main_v45) :=
  (dat1 (atTc (X3 m)) c).arrAt 9 cfg1.N

/-- The buffers when region 1 is left: as entered, except the output array. -/
def X4 (c : Dev nD) : Valuation τ sig (Elt F) :=
  Function.update (X3 m c) (Proc.devRef .tc main_v45) (left1 m c)

/-- Windows 0 … 8 of region 1 are inputs, over arrays other than the output's. -/
theorem inputs1 : ∀ w : Fin 10, w ≠ 9 → (cfg1.win w).isOut = false ∧ Pipeline.arrRef spec1 w ≠ main_v45 := by decide

/-- Each of the region's ten arrays is left at what the pipeline's bookkeeping says: an input as entered, the output at `left1`. -/
theorem kept1 (c : Dev nD) (w : Fin cfg1.W) : (dat1 (atTc (X3 m)) c).arrAt w cfg1.N = atTc (X4 m) c (Pipeline.arrRef spec1 w) := by
  by_cases h : w = 9
  · subst h
    show left1 m c = Function.update (X3 m c) (Proc.devRef .tc main_v45) (left1 m c) (Proc.devRef .tc main_v45)
    exact (Function.update_self (Proc.devRef (τ := τ) .tc main_v45) (left1 m c) (X3 m c)).symm
  · obtain ⟨hin, hne⟩ := inputs1 w h
    refine ((dat1 (atTc (X3 m)) c).arrAt_in w hin _).trans ((A_eq1 (atTc (X3 m)) c w).trans ?_)
    show X3 m c (Proc.devRef .tc (Pipeline.arrRef spec1 w)) = Function.update (X3 m c) (Proc.devRef .tc main_v45) (left1 m c) (Proc.devRef .tc (Pipeline.arrRef spec1 w))
    exact (Function.update_of_ne (StableHlo.devRef_ne_of_ne hne) _ _).symm

/-- Every other buffer is left as entered. -/
theorem rest1 (c : Dev nD) : ∀ b, b ∉ Finset.univ.image (Pipeline.arrRef spec1) → atTc (X4 m) c b = atTc (X3 m) c b :=
  fun b hb => Function.update_of_ne (StableHlo.devRef_ne_of_ne fun e => hb (Finset.mem_image.mpr ⟨9, Finset.mem_univ _, e.symm⟩)) _ _

/-- After the third host stretch: region 2's entry. -/
abbrev X5 : Dev nD → Valuation τ sig (Elt F) := fun c => StableHlo.after hostOps2 (X4 m c)

/-- What region 2's block pipeline leaves in its output array `main_v68`: the write-backs of all points folded in. -/
def left2 (c : Dev nD) : Buf (Elt F) ((c : Thread nD τ).loc main_v68) :=
  (dat2 (atTc (X5 m)) c).arrAt 9 cfg2.N

/-- The buffers when region 2 is left: as entered, except the output array. -/
def X6 (c : Dev nD) : Valuation τ sig (Elt F) :=
  Function.update (X5 m c) (Proc.devRef .tc main_v68) (left2 m c)

/-- Windows 0 … 8 of region 2 are inputs, over arrays other than the output's. -/
theorem inputs2 : ∀ w : Fin 10, w ≠ 9 → (cfg2.win w).isOut = false ∧ Pipeline.arrRef spec2 w ≠ main_v68 := by decide

/-- Each of the region's ten arrays is left at what the pipeline's bookkeeping says: an input as entered, the output at `left2`. -/
theorem kept2 (c : Dev nD) (w : Fin cfg2.W) : (dat2 (atTc (X5 m)) c).arrAt w cfg2.N = atTc (X6 m) c (Pipeline.arrRef spec2 w) := by
  by_cases h : w = 9
  · subst h
    show left2 m c = Function.update (X5 m c) (Proc.devRef .tc main_v68) (left2 m c) (Proc.devRef .tc main_v68)
    exact (Function.update_self (Proc.devRef (τ := τ) .tc main_v68) (left2 m c) (X5 m c)).symm
  · obtain ⟨hin, hne⟩ := inputs2 w h
    refine ((dat2 (atTc (X5 m)) c).arrAt_in w hin _).trans ((A_eq2 (atTc (X5 m)) c w).trans ?_)
    show X5 m c (Proc.devRef .tc (Pipeline.arrRef spec2 w)) = Function.update (X5 m c) (Proc.devRef .tc main_v68) (left2 m c) (Proc.devRef .tc (Pipeline.arrRef spec2 w))
    exact (Function.update_of_ne (StableHlo.devRef_ne_of_ne hne) _ _).symm

/-- Every other buffer is left as entered. -/
theorem rest2 (c : Dev nD) : ∀ b, b ∉ Finset.univ.image (Pipeline.arrRef spec2) → atTc (X6 m) c b = atTc (X5 m) c b :=
  fun b hb => Function.update_of_ne (StableHlo.devRef_ne_of_ne fun e => hb (Finset.mem_image.mpr ⟨9, Finset.mem_univ _, e.symm⟩)) _ _

/-- After the last host stretch: the end. -/
abbrev X7 : Dev nD → Valuation τ sig (Elt F) := fun c => StableHlo.after hostOps3 (X6 m c)

/-! ## The bookkeeping of the three pipelines, and what rides along -/

/-- Each pipeline's bookkeeping at its own region's entry contents. -/
def pdats : (p : Fin 3) → (c : Dev nD) → Dat τ (Elt F) Unit ℕ (UR sig nD τ) ℕ (Pipeline.pin (pcfgs (F := F)) adm p) c
  | ⟨0, _⟩ => fun c => dat0 (atTc (X1 m)) c
  | ⟨1, _⟩ => fun c => dat1 (atTc (X3 m)) c
  | ⟨2, _⟩ => fun c => dat2 (atTc (X5 m)) c
abbrev 𝒱₀ : Variants := Variants.none
/-- No core waits on another: no level is assigned. -/
abbrev L : GSem nD τ sig → Finset Unit := fun _ => ∅
abbrev lv : GSem nD τ sig → Unit → ℕ := fun _ _ => 0
/-- Beside the buffers every segment carries the core's generator register, at some state, and the fact that the core
    owes nothing. -/
abbrev R (c : Dev nD) : sProp 𝕄 := iprop((∃ r, prngReg c r) ∗ ∃ W, owes (c : Thread nD τ) (0 : CellTallies nD τ sig Unit) W)
/-- A host stretch as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those a boundary's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tₙ (c : Dev nD) : sProp 𝕄 := iprop(StableHlo.held (c : Thread nD τ) (Pipeline.ucRefs τ sig) (X7 m c) ∗ ∃ r, prngReg c r)

/-! ## The regions as segments -/

-- the library's entry and exit lemmas are stated over the pinned configuration, which unifies with the printed one only
-- when plain definitions in a metavariable's type may be unfolded
set_option backward.isDefEq.respectTransparency.types false in
/-- Region 0 as a segment of the program: entered with every unscoped buffer at `X1`, left with them at `X2`.
    On entry the ten arrays of the region are split off the unscoped buffers; on exit they are put back, the nine
    inputs unchanged and the output at what the block pipeline wrote. The generator register rides through the
    region's invariant; nothing is owed; the body has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (X1 m)) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (atTc (X1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (X1 m) c) (atTc (X2 m) c) ((pdats m 0 c).arrAt · cfg0.N) (kept0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration, which unifies with the printed one only
-- when plain definitions in a metavariable's type may be unfolded
set_option backward.isDefEq.respectTransparency.types false in
/-- Region 1 as a segment of the program: entered with every unscoped buffer at `X3`, left with them at `X4`.
    On entry the ten arrays of the region are split off the unscoped buffers; on exit they are put back, the nine
    inputs unchanged and the output at what the block pipeline wrote. The generator register rides through the
    region's invariant; nothing is owed; the body has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (X3 m)) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (atTc (X3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X3 m) c) (atTc (X4 m) c) ((pdats m 1 c).arrAt · cfg1.N) (kept1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration, which unifies with the printed one only
-- when plain definitions in a metavariable's type may be unfolded
set_option backward.isDefEq.respectTransparency.types false in
/-- Region 2 as a segment of the program: entered with every unscoped buffer at `X5`, left with them at `X6`.
    On entry the ten arrays of the region are split off the unscoped buffers; on exit they are put back, the nine
    inputs unchanged and the output at what the block pipeline wrote. The generator register rides through the
    region's invariant; nothing is owed; the body has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (X5 m)) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (atTc (X5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (X5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (X5 m) c) (atTc (X6 m) c) ((pdats m 2 c).arrAt · cfg2.N) (kept2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segs : List (Pipeline.Seg (pcfgs (F := F)) adm (pdats m) () defs₀ 𝒱₀ L lv) :=
  [ .host (hseg hostOps0 hostOps0_sub hostOps0_fresh (X0 m)),
    .region (reg0 m),
    .host (hseg hostOps1 hostOps1_sub hostOps1_fresh (X2 m)),
    .region (reg1 m),
    .host (hseg hostOps2 hostOps2_sub hostOps2_fresh (X4 m)),
    .region (reg2 m),
    .host (hseg hostOps3 hostOps3_sub hostOps3_fresh (X6 m)) ]

/-- The program IS the run of those segments. -/
theorem main_run (c : Dev nD) : main (F := F) c = Pipeline.Seg.run (segs m) := (main_chain c).trans (by chain_rfl)

set_option backward.isDefEq.respectTransparency.types false in
/-- THE RUN. From any launch memory with zero counters every weakly fair execution of the program terminates, nothing
    faulting, and in the final memory every unscoped buffer of every core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = X7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X7 m c b)
    (hfin := fun c s' => by
      iintro ⟨⟨Hh, -⟩, HSI⟩
      unfold StableHlo.held
      imodintro
      iapply (pointsTo_read_all (Pipeline.ucRefs τ sig) (fun b => (((c : Thread nD τ)).1, b)) (X7 m c) s')
      isplitl [Hh] <;> iassumption)
    (hQ := fun s h c => h c)

end Cert.Kernel.Region

end
-- ==== Proof.WordEnds.lean ====
/-
  The ends of the run read off.

  The chain of boundary contents of the run is the program's generic chain of boundary contents with the three
  unknown region outputs instantiated at what the three block pipelines leave.  No host stretch writes an argument
  array and each region changes only its own output array, so each of the 28 argument arrays ends as launched: the
  frame claim.  The result buffer ends at the last boundary's contents at that buffer.
-/
import proofs.«174930_j4569845203353_2_alg».proof.Proof.WordRun

set_option maxRecDepth 16384

noncomputable section

namespace Cert.Kernel.Region

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- What the regions leave, as the family the generic boundary chain is written over: region 0's output array at
    `left0`, region 1's at `left1`, region 2's at `left2` (any other reference: its launch contents, never read). -/
def outs : Gen.Outs (F := F) := fun _ r c =>
  Function.update (Function.update (Function.update (fun r' : Ref sig .tc => m ((c : Thread nD τ).loc r'))
    main_v22 (left0 m c)) main_v45 (left1 m c)) main_v68 (left2 m c) r

theorem outs_2 (c : Dev nD) : outs m 2 main_v22 c = left0 m c := by
  unfold outs
  rw [Function.update_of_ne (by decide : main_v22 ≠ main_v68), Function.update_of_ne (by decide : main_v22 ≠ main_v45), Function.update_self]

theorem outs_4 (c : Dev nD) : outs m 4 main_v45 c = left1 m c := by
  unfold outs
  rw [Function.update_of_ne (by decide : main_v45 ≠ main_v68), Function.update_self]

theorem outs_6 (c : Dev nD) : outs m 6 main_v68 c = left2 m c := by
  unfold outs
  rw [Function.update_self]

/-- Region 0 is entered at the generic chain's contents. -/
theorem X1_eq (c : Dev nD) : X1 m c = Gen.V1 m c := rfl
/-- It is left at the generic chain's contents with the output instantiated. -/
theorem X2_eq (c : Dev nD) : X2 m c = Gen.V2 m (outs m) c := by
  show Function.update (X1 m c) (Proc.devRef .tc main_v22) (left0 m c) = Function.update (Gen.V1 m c) (Proc.devRef .tc main_v22) (outs m 2 main_v22 c)
  rw [outs_2]
theorem X3_eq (c : Dev nD) : X3 m c = Gen.V3 m (outs m) c := by
  show StableHlo.after hostOps1 (X2 m c) = StableHlo.after hostOps1 (Gen.V2 m (outs m) c)
  rw [X2_eq]
theorem X4_eq (c : Dev nD) : X4 m c = Gen.V4 m (outs m) c := by
  show Function.update (X3 m c) (Proc.devRef .tc main_v45) (left1 m c) = Function.update (Gen.V3 m (outs m) c) (Proc.devRef .tc main_v45) (outs m 4 main_v45 c)
  rw [outs_4, X3_eq]
theorem X5_eq (c : Dev nD) : X5 m c = Gen.V5 m (outs m) c := by
  show StableHlo.after hostOps2 (X4 m c) = StableHlo.after hostOps2 (Gen.V4 m (outs m) c)
  rw [X4_eq]
theorem X6_eq (c : Dev nD) : X6 m c = Gen.V6 m (outs m) c := by
  show Function.update (X5 m c) (Proc.devRef .tc main_v68) (left2 m c) = Function.update (Gen.V5 m (outs m) c) (Proc.devRef .tc main_v68) (outs m 6 main_v68 c)
  rw [outs_6, X5_eq]
theorem X7_eq (c : Dev nD) : X7 m c = Gen.V7 m (outs m) c := by
  show StableHlo.after hostOps3 (X6 m c) = StableHlo.after hostOps3 (Gen.V6 m (outs m) c)
  rw [X6_eq]

/-- THE FRAME: every weakly fair execution terminates without fault and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨
      (h c _ (mem_uc main_arg0 (by decide))).trans ((congrFun (X7_eq m c) _).trans (Gen.V7_main_arg0 m (outs m) c)),
      (h c _ (mem_uc main_arg1 (by decide))).trans ((congrFun (X7_eq m c) _).trans (Gen.V7_main_arg1 m (outs m) c)),
      (h c _ (mem_uc main_arg2 (by decide))).trans ((congrFun (X7_eq m c) _).trans (Gen.V7_main_arg2 m (outs m) c)),
      (h c _ (mem_uc main_arg3 (by decide))).trans ((congrFun (X7_eq m c) _).trans (Gen.V7_main_arg3 m (outs m) c)),
      (h c _ (mem_uc main_arg4 (by decide))).trans ((congrFun (X7_eq m c) _).trans (Gen.V7_main_arg4 m (outs m) c)),
      (h c _ (mem_uc main_arg5 (by decide))).trans ((congrFun (X7_eq m c) _).trans (Gen.V7_main_arg5 m (outs m) c)),
      (h c _ (mem_uc main_arg6 (by decide))).trans ((congrFun (X7_eq m c) _).trans (Gen.V7_main_arg6 m (outs m) c)),
      (h c _ (mem_uc main_arg7 (by decide))).trans ((congrFun (X7_eq m c) _).trans (Gen.V7_main_arg7 m (outs m) c)),
      (h c _ (mem_uc main_arg8 (by decide))).trans ((congrFun (X7_eq m c) _).trans (Gen.V7_main_arg8 m (outs m) c)),
      (h c _ (mem_uc main_arg9 (by decide))).trans ((congrFun (X7_eq m c) _).trans (Gen.V7_main_arg9 m (outs m) c)),
      (h c _ (mem_uc main_arg10 (by decide))).trans ((congrFun (X7_eq m c) _).trans (Gen.V7_main_arg10 m (outs m) c)),
      (h c _ (mem_uc main_arg11 (by decide))).trans ((congrFun (X7_eq m c) _).trans (Gen.V7_main_arg11 m (outs m) c)),
      (h c _ (mem_uc main_arg12 (by decide))).trans ((congrFun (X7_eq m c) _).trans (Gen.V7_main_arg12 m (outs m) c)),
      (h c _ (mem_uc main_arg13 (by decide))).trans ((congrFun (X7_eq m c) _).trans (Gen.V7_main_arg13 m (outs m) c)),
      (h c _ (mem_uc main_arg14 (by decide))).trans ((congrFun (X7_eq m c) _).trans (Gen.V7_main_arg14 m (outs m) c)),
      (h c _ (mem_uc main_arg15 (by decide))).trans ((congrFun (X7_eq m c) _).trans (Gen.V7_main_arg15 m (outs m) c)),
      (h c _ (mem_uc main_arg16 (by decide))).trans ((congrFun (X7_eq m c) _).trans (Gen.V7_main_arg16 m (outs m) c)),
      (h c _ (mem_uc main_arg17 (by decide))).trans ((congrFun (X7_eq m c) _).trans (Gen.V7_main_arg17 m (outs m) c)),
      (h c _ (mem_uc main_arg18 (by decide))).trans ((congrFun (X7_eq m c) _).trans (Gen.V7_main_arg18 m (outs m) c)),
      (h c _ (mem_uc main_arg19 (by decide))).trans ((congrFun (X7_eq m c) _).trans (Gen.V7_main_arg19 m (outs m) c)),
      (h c _ (mem_uc main_arg20 (by decide))).trans ((congrFun (X7_eq m c) _).trans (Gen.V7_main_arg20 m (outs m) c)),
      (h c _ (mem_uc main_arg21 (by decide))).trans ((congrFun (X7_eq m c) _).trans (Gen.V7_main_arg21 m (outs m) c)),
      (h c _ (mem_uc main_arg22 (by decide))).trans ((congrFun (X7_eq m c) _).trans (Gen.V7_main_arg22 m (outs m) c)),
      (h c _ (mem_uc main_arg23 (by decide))).trans ((congrFun (X7_eq m c) _).trans (Gen.V7_main_arg23 m (outs m) c)),
      (h c _ (mem_uc main_arg24 (by decide))).trans ((congrFun (X7_eq m c) _).trans (Gen.V7_main_arg24 m (outs m) c)),
      (h c _ (mem_uc main_arg25 (by decide))).trans ((congrFun (X7_eq m c) _).trans (Gen.V7_main_arg25 m (outs m) c)),
      (h c _ (mem_uc main_arg26 (by decide))).trans ((congrFun (X7_eq m c) _).trans (Gen.V7_main_arg26 m (outs m) c)),
      (h c _ (mem_uc main_arg27 (by decide))).trans ((congrFun (X7_eq m c) _).trans (Gen.V7_main_arg27 m (outs m) c))⟩) (run m ρ)

/-- THE RESULT: and the result buffer ends at the generic chain's last contents, the outputs instantiated. -/
theorem run_result : θ_run defs (onTc (τ := τ) (main (F := F))) ⟨m, fun _ => 0, ρ⟩ (fun r => ∀ c : Dev nD,
      r.2.mem ((c.tc : Thread nD τ).loc main_v70) = Gen.V7 m (outs m) c main_v70
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨(h c _ (mem_uc main_v70 (by decide))).trans (congrFun (X7_eq m c) _),
      (h c _ (mem_uc main_arg0 (by decide))).trans ((congrFun (X7_eq m c) _).trans (Gen.V7_main_arg0 m (outs m) c)),
      (h c _ (mem_uc main_arg1 (by decide))).trans ((congrFun (X7_eq m c) _).trans (Gen.V7_main_arg1 m (outs m) c)),
      (h c _ (mem_uc main_arg2 (by decide))).trans ((congrFun (X7_eq m c) _).trans (Gen.V7_main_arg2 m (outs m) c)),
      (h c _ (mem_uc main_arg3 (by decide))).trans ((congrFun (X7_eq m c) _).trans (Gen.V7_main_arg3 m (outs m) c)),
      (h c _ (mem_uc main_arg4 (by decide))).trans ((congrFun (X7_eq m c) _).trans (Gen.V7_main_arg4 m (outs m) c)),
      (h c _ (mem_uc main_arg5 (by decide))).trans ((congrFun (X7_eq m c) _).trans (Gen.V7_main_arg5 m (outs m) c)),
      (h c _ (mem_uc main_arg6 (by decide))).trans ((congrFun (X7_eq m c) _).trans (Gen.V7_main_arg6 m (outs m) c)),
      (h c _ (mem_uc main_arg7 (by decide))).trans ((congrFun (X7_eq m c) _).trans (Gen.V7_main_arg7 m (outs m) c)),
      (h c _ (mem_uc main_arg8 (by decide))).trans ((congrFun (X7_eq m c) _).trans (Gen.V7_main_arg8 m (outs m) c)),
      (h c _ (mem_uc main_arg9 (by decide))).trans ((congrFun (X7_eq m c) _).trans (Gen.V7_main_arg9 m (outs m) c)),
      (h c _ (mem_uc main_arg10 (by decide))).trans ((congrFun (X7_eq m c) _).trans (Gen.V7_main_arg10 m (outs m) c)),
      (h c _ (mem_uc main_arg11 (by decide))).trans ((congrFun (X7_eq m c) _).trans (Gen.V7_main_arg11 m (outs m) c)),
      (h c _ (mem_uc main_arg12 (by decide))).trans ((congrFun (X7_eq m c) _).trans (Gen.V7_main_arg12 m (outs m) c)),
      (h c _ (mem_uc main_arg13 (by decide))).trans ((congrFun (X7_eq m c) _).trans (Gen.V7_main_arg13 m (outs m) c)),
      (h c _ (mem_uc main_arg14 (by decide))).trans ((congrFun (X7_eq m c) _).trans (Gen.V7_main_arg14 m (outs m) c)),
      (h c _ (mem_uc main_arg15 (by decide))).trans ((congrFun (X7_eq m c) _).trans (Gen.V7_main_arg15 m (outs m) c)),
      (h c _ (mem_uc main_arg16 (by decide))).trans ((congrFun (X7_eq m c) _).trans (Gen.V7_main_arg16 m (outs m) c)),
      (h c _ (mem_uc main_arg17 (by decide))).trans ((congrFun (X7_eq m c) _).trans (Gen.V7_main_arg17 m (outs m) c)),
      (h c _ (mem_uc main_arg18 (by decide))).trans ((congrFun (X7_eq m c) _).trans (Gen.V7_main_arg18 m (outs m) c)),
      (h c _ (mem_uc main_arg19 (by decide))).trans ((congrFun (X7_eq m c) _).trans (Gen.V7_main_arg19 m (outs m) c)),
      (h c _ (mem_uc main_arg20 (by decide))).trans ((congrFun (X7_eq m c) _).trans (Gen.V7_main_arg20 m (outs m) c)),
      (h c _ (mem_uc main_arg21 (by decide))).trans ((congrFun (X7_eq m c) _).trans (Gen.V7_main_arg21 m (outs m) c)),
      (h c _ (mem_uc main_arg22 (by decide))).trans ((congrFun (X7_eq m c) _).trans (Gen.V7_main_arg22 m (outs m) c)),
      (h c _ (mem_uc main_arg23 (by decide))).trans ((congrFun (X7_eq m c) _).trans (Gen.V7_main_arg23 m (outs m) c)),
      (h c _ (mem_uc main_arg24 (by decide))).trans ((congrFun (X7_eq m c) _).trans (Gen.V7_main_arg24 m (outs m) c)),
      (h c _ (mem_uc main_arg25 (by decide))).trans ((congrFun (X7_eq m c) _).trans (Gen.V7_main_arg25 m (outs m) c)),
      (h c _ (mem_uc main_arg26 (by decide))).trans ((congrFun (X7_eq m c) _).trans (Gen.V7_main_arg26 m (outs m) c)),
      (h c _ (mem_uc main_arg27 (by decide))).trans ((congrFun (X7_eq m c) _).trans (Gen.V7_main_arg27 m (outs m) c))⟩) (run m ρ)

end Cert.Kernel.Region

end
-- ==== Proof.IdealBody0.lean ====
/-
  Pallas region 0 of the program, seen from inside: one grid point of the row-blocked perceptron.

  The region walks the node axis in blocks of 4096 rows.  At point `t` it reads block `t` of the pooled rows
  (4096 × 256) and the whole of the eight parameter arrays (their block index is constant, so they are copied in
  once and stay), computes the four affine layers with the ramp between them on that block, and writes the
  transposed 2 × 4096 result as block `t` of the 2 × N output.  This module states what one point leaves behind —
  every input buffer unchanged, the output buffer at the body's arithmetic applied to the nine input blocks —
  proves it of the printed body by symbolic execution, and packages it as the per-point obligation of the
  block pipeline.  Everything is stated for an arbitrary contents `V` of the core's buffers at the moment the
  region is entered, and at any interpretation `F` of the float formats.
-/
import proofs.«174930_j4569845203353_2_alg».proof.Proof.Gen.KernelIdeal.Launch
import proofs.«174930_j4569845203353_2_alg».proof.Proof.Gen.KernelIdeal.Skeleton
import proofs.«174930_j4569845203353_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the point reads -/

/-- Window `w`'s block at point `t`, cut out of its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block of the entry contents at every point, whether or not the
    point fetches it: between two fetches the window's block index does not move. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- Input window 1's staging buffer holds the window's block of the entry contents at every point, whether or not the
    point fetches it: between two fetches the window's block index does not move. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- Input window 2's staging buffer holds the window's block of the entry contents at every point, whether or not the
    point fetches it: between two fetches the window's block index does not move. -/
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
/-- Input window 3's staging buffer holds the window's block of the entry contents at every point, whether or not the
    point fetches it: between two fetches the window's block index does not move. -/
theorem held0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
/-- Input window 4's staging buffer holds the window's block of the entry contents at every point, whether or not the
    point fetches it: between two fetches the window's block index does not move. -/
theorem held0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
/-- Input window 5's staging buffer holds the window's block of the entry contents at every point, whether or not the
    point fetches it: between two fetches the window's block index does not move. -/
theorem held0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
/-- Input window 6's staging buffer holds the window's block of the entry contents at every point, whether or not the
    point fetches it: between two fetches the window's block index does not move. -/
theorem held0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)
/-- Input window 7's staging buffer holds the window's block of the entry contents at every point, whether or not the
    point fetches it: between two fetches the window's block index does not move. -/
theorem held0_7_of {c : Dev nD} (dat : Dat τ (Elt F) Unit ℕ (UR sig nD τ) ℕ cfg0 c) (hA : dat.A 7 = V c (Pipeline.arrRef spec0 7))
    (hafter : ∀ t, dat.after 7 t = blk0 V c 7 t) (t : Fin cfg0.N) (d) : dat.before 7 t d = blk0 V c 7 t :=
  (dat.before_in_eq_fetched 7 rfl (fun _ => rfl) (fun _ _ _ => rfl) (fun t => by rw [hafter]; unfold Dat.blockOf blk0; rw [hA]; try rfl) t d).trans
    (by unfold Dat.fetched Dat.blockOf blk0; rw [hA]; try rfl)
/-- Input window 8's staging buffer holds the window's block of the entry contents at every point, whether or not the
    point fetches it: between two fetches the window's block index does not move. -/
theorem held0_8_of {c : Dev nD} (dat : Dat τ (Elt F) Unit ℕ (UR sig nD τ) ℕ cfg0 c) (hA : dat.A 8 = V c (Pipeline.arrRef spec0 8))
    (hafter : ∀ t, dat.after 8 t = blk0 V c 8 t) (t : Fin cfg0.N) (d) : dat.before 8 t d = blk0 V c 8 t :=
  (dat.before_in_eq_fetched 8 rfl (fun _ => rfl) (fun _ _ _ => rfl) (fun t => by rw [hafter]; unfold Dat.blockOf blk0; rw [hA]; try rfl) t d).trans
    (by unfold Dat.fetched Dat.blockOf blk0; rw [hA]; try rfl)

/-! ## What one point leaves in the output buffer -/

/-- The output buffer after the body: one store of the whole 2 × 4096 block, its value the four layers applied to the
    nine loaded blocks (each loaded whole). -/
def out0 (x0 : Vec F S4096x256 .bf16) (x1 : Vec F S256x128 .bf16) (x2 : Vec F S1x128 .f32) (x3 : Vec F S128x128 .bf16) (x4 : Vec F S1x128 .f32) (x5 : Vec F S128x128 .bf16) (x6 : Vec F S1x128 .f32) (x7 : Vec F S128x2 .bf16) (x8 : Vec F S1x2 .f32) : Vec F S2x4096 .f32 :=
  View.canon [⟨(Rect.unit (s := S2x4096) ![0, 0] S2x4096.size inb_S2x4096_S2x4096_0_0), k0_pay1 (k0_pay2 (View.ld x0 (Rect.unit (s := S4096x256) ![0, 0] S4096x256.size inb_S4096x256_S4096x256_0_0)) (View.ld x1 (Rect.unit (s := S256x128) ![0, 0] S256x128.size inb_S256x128_S256x128_0_0)) (View.ld x2 (Rect.unit (s := S1x128) ![0, 0] S1x128.size inb_S1x128_S1x128_0_0)) (View.ld x3 (Rect.unit (s := S128x128) ![0, 0] S128x128.size inb_S128x128_S128x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0)) (View.ld x7 (Rect.unit (s := S128x2) ![0, 0] S128x2.size inb_S128x2_S128x2_0_0))) (View.ld x8 (Rect.unit (s := S1x2) ![0, 0] S1x2.size inb_S1x2_S1x2_0_0))⟩]

/-- That one store covers the buffer. -/
theorem cover0 (p0 : Vec F S2x4096 .f32) (y : S2x4096.Idx) :
    ∃ pc ∈ ([⟨(Rect.unit (s := S2x4096) ![0, 0] S2x4096.size inb_S2x4096_S2x4096_0_0), p0⟩] : List (View.Piece (Elt F) S2x4096 .f32)), y ∈ pc.1.set :=
  View.cover_of_tiled [⟨(Rect.unit (s := S2x4096) ![0, 0] S2x4096.size inb_S2x4096_S2x4096_0_0), p0⟩] S2x4096.size (by rfl) y

/-! ## The body run symbolically -/

set_option maxHeartbeats 4000000 in
/-- The body on whole staging buffers — the nine inputs at contents `x0 … x8`, the output at anything — runs without
    fault to a state where the inputs are as they were and the output holds `out0 x0 … x8`. -/
theorem sound_kernel0 (c : Dev nD) (E : Set ℕ) (i : grid0.Coords) (arg1 : Memref sig .tc .vmem S4096x256 .bf16) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x2 .bf16) (harg8 : arg8.IsWhole) (arg9 : Memref sig .tc .vmem S1x2 .f32) (harg9 : arg9.IsWhole) (arg10 : Memref sig .tc .vmem S2x4096 .f32) (harg10 : arg10.IsWhole)
    (x0 : Vec F S4096x256 .bf16) (x1 : Vec F S256x128 .bf16) (x2 : Vec F S1x128 .f32) (x3 : Vec F S128x128 .bf16) (x4 : Vec F S1x128 .f32) (x5 : Vec F S128x128 .bf16) (x6 : Vec F S1x128 .f32) (x7 : Vec F S128x2 .bf16) (x8 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0 x0 x1 x2 x3 x4 x5 x6 x7 x8)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0 _)

/-! ## The block pipeline's bookkeeping for this region -/

/-- The arrays are the entry contents; after the body at point `t` each input buffer holds its block and the output
    buffer `out0` of the nine blocks; nothing is owed between points and every share is whole. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => out0 (blk0 V c 0 t) (blk0 V c 1 t) (blk0 V c 2 t) (blk0 V c 3 t) (blk0 V c 4 t) (blk0 V c 5 t) (blk0 V c 6 t) (blk0 V c 7 t) (blk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = blk0 V c 7 t := by dsimp only [dat0]
theorem after0_8 (c : Dev nD) (t : Fin cfg0.N) : (dat0 V c).after 8 t = blk0 V c 8 t := by dsimp only [dat0]
theorem after0_9 (c : Dev nD) (t : Fin cfg0.N) : (dat0 V c).after 9 t = out0 (blk0 V c 0 t) (blk0 V c 1 t) (blk0 V c 2 t) (blk0 V c 3 t) (blk0 V c 4 t) (blk0 V c 5 t) (blk0 V c 6 t) (blk0 V c 7 t) (blk0 V c 8 t) := by dsimp only [dat0]

theorem before0_0 (c : Dev nD) (t : Fin cfg0.N) (d) : (dat0 V c).before 0 t d = blk0 V c 0 t :=
  held0_0_of V (dat0 V c) (A_eq0 V c 0) (after0_0 V c) t d
theorem before0_1 (c : Dev nD) (t : Fin cfg0.N) (d) : (dat0 V c).before 1 t d = blk0 V c 1 t :=
  held0_1_of V (dat0 V c) (A_eq0 V c 1) (after0_1 V c) t d
theorem before0_2 (c : Dev nD) (t : Fin cfg0.N) (d) : (dat0 V c).before 2 t d = blk0 V c 2 t :=
  held0_2_of V (dat0 V c) (A_eq0 V c 2) (after0_2 V c) t d
theorem before0_3 (c : Dev nD) (t : Fin cfg0.N) (d) : (dat0 V c).before 3 t d = blk0 V c 3 t :=
  held0_3_of V (dat0 V c) (A_eq0 V c 3) (after0_3 V c) t d
theorem before0_4 (c : Dev nD) (t : Fin cfg0.N) (d) : (dat0 V c).before 4 t d = blk0 V c 4 t :=
  held0_4_of V (dat0 V c) (A_eq0 V c 4) (after0_4 V c) t d
theorem before0_5 (c : Dev nD) (t : Fin cfg0.N) (d) : (dat0 V c).before 5 t d = blk0 V c 5 t :=
  held0_5_of V (dat0 V c) (A_eq0 V c 5) (after0_5 V c) t d
theorem before0_6 (c : Dev nD) (t : Fin cfg0.N) (d) : (dat0 V c).before 6 t d = blk0 V c 6 t :=
  held0_6_of V (dat0 V c) (A_eq0 V c 6) (after0_6 V c) t d
theorem before0_7 (c : Dev nD) (t : Fin cfg0.N) (d) : (dat0 V c).before 7 t d = blk0 V c 7 t :=
  held0_7_of V (dat0 V c) (A_eq0 V c 7) (after0_7 V c) t d
theorem before0_8 (c : Dev nD) (t : Fin cfg0.N) (d) : (dat0 V c).before 8 t d = blk0 V c 8 t :=
  held0_8_of V (dat0 V c) (A_eq0 V c 8) (after0_8 V c) t d

/-! ## One point of the pipeline -/

/-- What the body is entered with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the input buffers hold their blocks, so the symbolic run applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (blk0 V c 0 t) (blk0 V c 1 t) (blk0 V c 2 t) (blk0 V c 3 t) (blk0 V c 4 t) (blk0 V c 5 t) (blk0 V c 6 t) (blk0 V c 7 t) (blk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's per-point obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Region

end
-- ==== Proof.IdealBody1.lean ====
/-
  Pallas region 1 of the program, seen from inside: one grid point of the row-blocked perceptron.

  The region walks the node axis in blocks of 4096 rows.  At point `t` it reads block `t` of the pooled rows
  (4096 × 384) and the whole of the eight parameter arrays (their block index is constant, so they are copied in
  once and stay), computes the four affine layers with the ramp between them on that block, and writes the
  transposed 2 × 4096 result as block `t` of the 2 × N output.  This module states what one point leaves behind —
  every input buffer unchanged, the output buffer at the body's arithmetic applied to the nine input blocks —
  proves it of the printed body by symbolic execution, and packages it as the per-point obligation of the
  block pipeline.  Everything is stated for an arbitrary contents `V` of the core's buffers at the moment the
  region is entered, and at any interpretation `F` of the float formats.
-/
import proofs.«174930_j4569845203353_2_alg».proof.Proof.Gen.KernelIdeal.Launch
import proofs.«174930_j4569845203353_2_alg».proof.Proof.Gen.KernelIdeal.Skeleton
import proofs.«174930_j4569845203353_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the point reads -/

/-- Window `w`'s block at point `t`, cut out of its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block of the entry contents at every point, whether or not the
    point fetches it: between two fetches the window's block index does not move. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- Input window 1's staging buffer holds the window's block of the entry contents at every point, whether or not the
    point fetches it: between two fetches the window's block index does not move. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- Input window 2's staging buffer holds the window's block of the entry contents at every point, whether or not the
    point fetches it: between two fetches the window's block index does not move. -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
/-- Input window 3's staging buffer holds the window's block of the entry contents at every point, whether or not the
    point fetches it: between two fetches the window's block index does not move. -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
/-- Input window 4's staging buffer holds the window's block of the entry contents at every point, whether or not the
    point fetches it: between two fetches the window's block index does not move. -/
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
/-- Input window 5's staging buffer holds the window's block of the entry contents at every point, whether or not the
    point fetches it: between two fetches the window's block index does not move. -/
theorem held1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
/-- Input window 6's staging buffer holds the window's block of the entry contents at every point, whether or not the
    point fetches it: between two fetches the window's block index does not move. -/
theorem held1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)
/-- Input window 7's staging buffer holds the window's block of the entry contents at every point, whether or not the
    point fetches it: between two fetches the window's block index does not move. -/
theorem held1_7_of {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)
/-- Input window 8's staging buffer holds the window's block of the entry contents at every point, whether or not the
    point fetches it: between two fetches the window's block index does not move. -/
theorem held1_8_of {c : Dev nD} (dat : Dat τ (Elt F) Unit ℕ (UR sig nD τ) ℕ cfg1 c) (hA : dat.A 8 = V c (Pipeline.arrRef spec1 8))
    (hafter : ∀ t, dat.after 8 t = blk1 V c 8 t) (t : Fin cfg1.N) (d) : dat.before 8 t d = blk1 V c 8 t :=
  (dat.before_in_eq_fetched 8 rfl (fun _ => rfl) (fun _ _ _ => rfl) (fun t => by rw [hafter]; unfold Dat.blockOf blk1; rw [hA]; try rfl) t d).trans
    (by unfold Dat.fetched Dat.blockOf blk1; rw [hA]; try rfl)

/-! ## What one point leaves in the output buffer -/

/-- The output buffer after the body: one store of the whole 2 × 4096 block, its value the four layers applied to the
    nine loaded blocks (each loaded whole). -/
def out1 (x0 : Vec F S4096x384 .bf16) (x1 : Vec F S384x128 .bf16) (x2 : Vec F S1x128 .f32) (x3 : Vec F S128x128 .bf16) (x4 : Vec F S1x128 .f32) (x5 : Vec F S128x128 .bf16) (x6 : Vec F S1x128 .f32) (x7 : Vec F S128x2 .bf16) (x8 : Vec F S1x2 .f32) : Vec F S2x4096 .f32 :=
  View.canon [⟨(Rect.unit (s := S2x4096) ![0, 0] S2x4096.size inb_S2x4096_S2x4096_0_0), k1_pay1 (k1_pay2 (View.ld x0 (Rect.unit (s := S4096x384) ![0, 0] S4096x384.size inb_S4096x384_S4096x384_0_0)) (View.ld x1 (Rect.unit (s := S384x128) ![0, 0] S384x128.size inb_S384x128_S384x128_0_0)) (View.ld x2 (Rect.unit (s := S1x128) ![0, 0] S1x128.size inb_S1x128_S1x128_0_0)) (View.ld x3 (Rect.unit (s := S128x128) ![0, 0] S128x128.size inb_S128x128_S128x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0)) (View.ld x7 (Rect.unit (s := S128x2) ![0, 0] S128x2.size inb_S128x2_S128x2_0_0))) (View.ld x8 (Rect.unit (s := S1x2) ![0, 0] S1x2.size inb_S1x2_S1x2_0_0))⟩]

/-- That one store covers the buffer. -/
theorem cover1 (p0 : Vec F S2x4096 .f32) (y : S2x4096.Idx) :
    ∃ pc ∈ ([⟨(Rect.unit (s := S2x4096) ![0, 0] S2x4096.size inb_S2x4096_S2x4096_0_0), p0⟩] : List (View.Piece (Elt F) S2x4096 .f32)), y ∈ pc.1.set :=
  View.cover_of_tiled [⟨(Rect.unit (s := S2x4096) ![0, 0] S2x4096.size inb_S2x4096_S2x4096_0_0), p0⟩] S2x4096.size (by rfl) y

/-! ## The body run symbolically -/

set_option maxHeartbeats 4000000 in
/-- The body on whole staging buffers — the nine inputs at contents `x0 … x8`, the output at anything — runs without
    fault to a state where the inputs are as they were and the output holds `out1 x0 … x8`. -/
theorem sound_kernel1 (c : Dev nD) (E : Set ℕ) (i : grid1.Coords) (arg1 : Memref sig .tc .vmem S4096x384 .bf16) (harg1 : arg1.IsWhole) (arg2 : Memref sig .tc .vmem S384x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x2 .bf16) (harg8 : arg8.IsWhole) (arg9 : Memref sig .tc .vmem S1x2 .f32) (harg9 : arg9.IsWhole) (arg10 : Memref sig .tc .vmem S2x4096 .f32) (harg10 : arg10.IsWhole)
    (x0 : Vec F S4096x384 .bf16) (x1 : Vec F S384x128 .bf16) (x2 : Vec F S1x128 .f32) (x3 : Vec F S128x128 .bf16) (x4 : Vec F S1x128 .f32) (x5 : Vec F S128x128 .bf16) (x6 : Vec F S1x128 .f32) (x7 : Vec F S128x2 .bf16) (x8 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1 x0 x1 x2 x3 x4 x5 x6 x7 x8)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1 _)

/-! ## The block pipeline's bookkeeping for this region -/

/-- The arrays are the entry contents; after the body at point `t` each input buffer holds its block and the output
    buffer `out1` of the nine blocks; nothing is owed between points and every share is whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => out1 (blk1 V c 0 t) (blk1 V c 1 t) (blk1 V c 2 t) (blk1 V c 3 t) (blk1 V c 4 t) (blk1 V c 5 t) (blk1 V c 6 t) (blk1 V c 7 t) (blk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = blk1 V c 8 t := by dsimp only [dat1]
theorem after1_9 (c : Dev nD) (t : Fin cfg1.N) : (dat1 V c).after 9 t = out1 (blk1 V c 0 t) (blk1 V c 1 t) (blk1 V c 2 t) (blk1 V c 3 t) (blk1 V c 4 t) (blk1 V c 5 t) (blk1 V c 6 t) (blk1 V c 7 t) (blk1 V c 8 t) := by dsimp only [dat1]

theorem before1_0 (c : Dev nD) (t : Fin cfg1.N) (d) : (dat1 V c).before 0 t d = blk1 V c 0 t :=
  held1_0_of V (dat1 V c) (A_eq1 V c 0) (after1_0 V c) t d
theorem before1_1 (c : Dev nD) (t : Fin cfg1.N) (d) : (dat1 V c).before 1 t d = blk1 V c 1 t :=
  held1_1_of V (dat1 V c) (A_eq1 V c 1) (after1_1 V c) t d
theorem before1_2 (c : Dev nD) (t : Fin cfg1.N) (d) : (dat1 V c).before 2 t d = blk1 V c 2 t :=
  held1_2_of V (dat1 V c) (A_eq1 V c 2) (after1_2 V c) t d
theorem before1_3 (c : Dev nD) (t : Fin cfg1.N) (d) : (dat1 V c).before 3 t d = blk1 V c 3 t :=
  held1_3_of V (dat1 V c) (A_eq1 V c 3) (after1_3 V c) t d
theorem before1_4 (c : Dev nD) (t : Fin cfg1.N) (d) : (dat1 V c).before 4 t d = blk1 V c 4 t :=
  held1_4_of V (dat1 V c) (A_eq1 V c 4) (after1_4 V c) t d
theorem before1_5 (c : Dev nD) (t : Fin cfg1.N) (d) : (dat1 V c).before 5 t d = blk1 V c 5 t :=
  held1_5_of V (dat1 V c) (A_eq1 V c 5) (after1_5 V c) t d
theorem before1_6 (c : Dev nD) (t : Fin cfg1.N) (d) : (dat1 V c).before 6 t d = blk1 V c 6 t :=
  held1_6_of V (dat1 V c) (A_eq1 V c 6) (after1_6 V c) t d
theorem before1_7 (c : Dev nD) (t : Fin cfg1.N) (d) : (dat1 V c).before 7 t d = blk1 V c 7 t :=
  held1_7_of V (dat1 V c) (A_eq1 V c 7) (after1_7 V c) t d
theorem before1_8 (c : Dev nD) (t : Fin cfg1.N) (d) : (dat1 V c).before 8 t d = blk1 V c 8 t :=
  held1_8_of V (dat1 V c) (A_eq1 V c 8) (after1_8 V c) t d

/-! ## One point of the pipeline -/

/-- What the body is entered with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- The body at any point: the input buffers hold their blocks, so the symbolic run applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's per-point obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Region

end
-- ==== Proof.IdealBody2.lean ====
/-
  Pallas region 2 of the program, seen from inside: one grid point of the row-blocked perceptron.

  The region walks the node axis in blocks of 4096 rows.  At point `t` it reads block `t` of the pooled rows
  (4096 × 512) and the whole of the eight parameter arrays (their block index is constant, so they are copied in
  once and stay), computes the four affine layers with the ramp between them on that block, and writes the
  transposed 2 × 4096 result as block `t` of the 2 × N output.  This module states what one point leaves behind —
  every input buffer unchanged, the output buffer at the body's arithmetic applied to the nine input blocks —
  proves it of the printed body by symbolic execution, and packages it as the per-point obligation of the
  block pipeline.  Everything is stated for an arbitrary contents `V` of the core's buffers at the moment the
  region is entered, and at any interpretation `F` of the float formats.
-/
import proofs.«174930_j4569845203353_2_alg».proof.Proof.Gen.KernelIdeal.Launch
import proofs.«174930_j4569845203353_2_alg».proof.Proof.Gen.KernelIdeal.Skeleton
import proofs.«174930_j4569845203353_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the point reads -/

/-- Window `w`'s block at point `t`, cut out of its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block of the entry contents at every point, whether or not the
    point fetches it: between two fetches the window's block index does not move. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
/-- Input window 1's staging buffer holds the window's block of the entry contents at every point, whether or not the
    point fetches it: between two fetches the window's block index does not move. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
/-- Input window 2's staging buffer holds the window's block of the entry contents at every point, whether or not the
    point fetches it: between two fetches the window's block index does not move. -/
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
/-- Input window 3's staging buffer holds the window's block of the entry contents at every point, whether or not the
    point fetches it: between two fetches the window's block index does not move. -/
theorem held2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
/-- Input window 4's staging buffer holds the window's block of the entry contents at every point, whether or not the
    point fetches it: between two fetches the window's block index does not move. -/
theorem held2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)
/-- Input window 5's staging buffer holds the window's block of the entry contents at every point, whether or not the
    point fetches it: between two fetches the window's block index does not move. -/
theorem held2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)
/-- Input window 6's staging buffer holds the window's block of the entry contents at every point, whether or not the
    point fetches it: between two fetches the window's block index does not move. -/
theorem held2_6_of {c : Dev nD} (dat : Dat τ (Elt F) Unit ℕ (UR sig nD τ) ℕ cfg2 c) (hA : dat.A 6 = V c (Pipeline.arrRef spec2 6))
    (hafter : ∀ t, dat.after 6 t = blk2 V c 6 t) (t : Fin cfg2.N) (d) : dat.before 6 t d = blk2 V c 6 t :=
  (dat.before_in_eq_fetched 6 rfl (fun _ => rfl) (fun _ _ _ => rfl) (fun t => by rw [hafter]; unfold Dat.blockOf blk2; rw [hA]; try rfl) t d).trans
    (by unfold Dat.fetched Dat.blockOf blk2; rw [hA]; try rfl)
/-- Input window 7's staging buffer holds the window's block of the entry contents at every point, whether or not the
    point fetches it: between two fetches the window's block index does not move. -/
theorem held2_7_of {c : Dev nD} (dat : Dat τ (Elt F) Unit ℕ (UR sig nD τ) ℕ cfg2 c) (hA : dat.A 7 = V c (Pipeline.arrRef spec2 7))
    (hafter : ∀ t, dat.after 7 t = blk2 V c 7 t) (t : Fin cfg2.N) (d) : dat.before 7 t d = blk2 V c 7 t :=
  (dat.before_in_eq_fetched 7 rfl (fun _ => rfl) (fun _ _ _ => rfl) (fun t => by rw [hafter]; unfold Dat.blockOf blk2; rw [hA]; try rfl) t d).trans
    (by unfold Dat.fetched Dat.blockOf blk2; rw [hA]; try rfl)
/-- Input window 8's staging buffer holds the window's block of the entry contents at every point, whether or not the
    point fetches it: between two fetches the window's block index does not move. -/
theorem held2_8_of {c : Dev nD} (dat : Dat τ (Elt F) Unit ℕ (UR sig nD τ) ℕ cfg2 c) (hA : dat.A 8 = V c (Pipeline.arrRef spec2 8))
    (hafter : ∀ t, dat.after 8 t = blk2 V c 8 t) (t : Fin cfg2.N) (d) : dat.before 8 t d = blk2 V c 8 t :=
  (dat.before_in_eq_fetched 8 rfl (fun _ => rfl) (fun _ _ _ => rfl) (fun t => by rw [hafter]; unfold Dat.blockOf blk2; rw [hA]; try rfl) t d).trans
    (by unfold Dat.fetched Dat.blockOf blk2; rw [hA]; try rfl)

/-! ## What one point leaves in the output buffer -/

/-- The output buffer after the body: one store of the whole 2 × 4096 block, its value the four layers applied to the
    nine loaded blocks (each loaded whole). -/
def out2 (x0 : Vec F S4096x512 .bf16) (x1 : Vec F S512x128 .bf16) (x2 : Vec F S1x128 .f32) (x3 : Vec F S128x128 .bf16) (x4 : Vec F S1x128 .f32) (x5 : Vec F S128x128 .bf16) (x6 : Vec F S1x128 .f32) (x7 : Vec F S128x2 .bf16) (x8 : Vec F S1x2 .f32) : Vec F S2x4096 .f32 :=
  View.canon [⟨(Rect.unit (s := S2x4096) ![0, 0] S2x4096.size inb_S2x4096_S2x4096_0_0), k2_pay1 (k2_pay2 (View.ld x0 (Rect.unit (s := S4096x512) ![0, 0] S4096x512.size inb_S4096x512_S4096x512_0_0)) (View.ld x1 (Rect.unit (s := S512x128) ![0, 0] S512x128.size inb_S512x128_S512x128_0_0)) (View.ld x2 (Rect.unit (s := S1x128) ![0, 0] S1x128.size inb_S1x128_S1x128_0_0)) (View.ld x3 (Rect.unit (s := S128x128) ![0, 0] S128x128.size inb_S128x128_S128x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0)) (View.ld x7 (Rect.unit (s := S128x2) ![0, 0] S128x2.size inb_S128x2_S128x2_0_0))) (View.ld x8 (Rect.unit (s := S1x2) ![0, 0] S1x2.size inb_S1x2_S1x2_0_0))⟩]

/-- That one store covers the buffer. -/
theorem cover2 (p0 : Vec F S2x4096 .f32) (y : S2x4096.Idx) :
    ∃ pc ∈ ([⟨(Rect.unit (s := S2x4096) ![0, 0] S2x4096.size inb_S2x4096_S2x4096_0_0), p0⟩] : List (View.Piece (Elt F) S2x4096 .f32)), y ∈ pc.1.set :=
  View.cover_of_tiled [⟨(Rect.unit (s := S2x4096) ![0, 0] S2x4096.size inb_S2x4096_S2x4096_0_0), p0⟩] S2x4096.size (by rfl) y

/-! ## The body run symbolically -/

set_option maxHeartbeats 4000000 in
/-- The body on whole staging buffers — the nine inputs at contents `x0 … x8`, the output at anything — runs without
    fault to a state where the inputs are as they were and the output holds `out2 x0 … x8`. -/
theorem sound_kernel2 (c : Dev nD) (E : Set ℕ) (i : grid2.Coords) (arg1 : Memref sig .tc .vmem S4096x512 .bf16) (harg1 : arg1.IsWhole) (arg2 : Memref sig .tc .vmem S512x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x2 .bf16) (harg8 : arg8.IsWhole) (arg9 : Memref sig .tc .vmem S1x2 .f32) (harg9 : arg9.IsWhole) (arg10 : Memref sig .tc .vmem S2x4096 .f32) (harg10 : arg10.IsWhole)
    (x0 : Vec F S4096x512 .bf16) (x1 : Vec F S512x128 .bf16) (x2 : Vec F S1x128 .f32) (x3 : Vec F S128x128 .bf16) (x4 : Vec F S1x128 .f32) (x5 : Vec F S128x128 .bf16) (x6 : Vec F S1x128 .f32) (x7 : Vec F S128x2 .bf16) (x8 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2 x0 x1 x2 x3 x4 x5 x6 x7 x8)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10) K := by
  simp only [cc2__mlp_kernel_eq_skeleton]; unfold cc2__mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2 _)

/-! ## The block pipeline's bookkeeping for this region -/

/-- The arrays are the entry contents; after the body at point `t` each input buffer holds its block and the output
    buffer `out2` of the nine blocks; nothing is owed between points and every share is whole. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => out2 (blk2 V c 0 t) (blk2 V c 1 t) (blk2 V c 2 t) (blk2 V c 3 t) (blk2 V c 4 t) (blk2 V c 5 t) (blk2 V c 6 t) (blk2 V c 7 t) (blk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = blk2 V c 7 t := by dsimp only [dat2]
theorem after2_8 (c : Dev nD) (t : Fin cfg2.N) : (dat2 V c).after 8 t = blk2 V c 8 t := by dsimp only [dat2]
theorem after2_9 (c : Dev nD) (t : Fin cfg2.N) : (dat2 V c).after 9 t = out2 (blk2 V c 0 t) (blk2 V c 1 t) (blk2 V c 2 t) (blk2 V c 3 t) (blk2 V c 4 t) (blk2 V c 5 t) (blk2 V c 6 t) (blk2 V c 7 t) (blk2 V c 8 t) := by dsimp only [dat2]

theorem before2_0 (c : Dev nD) (t : Fin cfg2.N) (d) : (dat2 V c).before 0 t d = blk2 V c 0 t :=
  held2_0_of V (dat2 V c) (A_eq2 V c 0) (after2_0 V c) t d
theorem before2_1 (c : Dev nD) (t : Fin cfg2.N) (d) : (dat2 V c).before 1 t d = blk2 V c 1 t :=
  held2_1_of V (dat2 V c) (A_eq2 V c 1) (after2_1 V c) t d
theorem before2_2 (c : Dev nD) (t : Fin cfg2.N) (d) : (dat2 V c).before 2 t d = blk2 V c 2 t :=
  held2_2_of V (dat2 V c) (A_eq2 V c 2) (after2_2 V c) t d
theorem before2_3 (c : Dev nD) (t : Fin cfg2.N) (d) : (dat2 V c).before 3 t d = blk2 V c 3 t :=
  held2_3_of V (dat2 V c) (A_eq2 V c 3) (after2_3 V c) t d
theorem before2_4 (c : Dev nD) (t : Fin cfg2.N) (d) : (dat2 V c).before 4 t d = blk2 V c 4 t :=
  held2_4_of V (dat2 V c) (A_eq2 V c 4) (after2_4 V c) t d
theorem before2_5 (c : Dev nD) (t : Fin cfg2.N) (d) : (dat2 V c).before 5 t d = blk2 V c 5 t :=
  held2_5_of V (dat2 V c) (A_eq2 V c 5) (after2_5 V c) t d
theorem before2_6 (c : Dev nD) (t : Fin cfg2.N) (d) : (dat2 V c).before 6 t d = blk2 V c 6 t :=
  held2_6_of V (dat2 V c) (A_eq2 V c 6) (after2_6 V c) t d
theorem before2_7 (c : Dev nD) (t : Fin cfg2.N) (d) : (dat2 V c).before 7 t d = blk2 V c 7 t :=
  held2_7_of V (dat2 V c) (A_eq2 V c 7) (after2_7 V c) t d
theorem before2_8 (c : Dev nD) (t : Fin cfg2.N) (d) : (dat2 V c).before 8 t d = blk2 V c 8 t :=
  held2_8_of V (dat2 V c) (A_eq2 V c 8) (after2_8 V c) t d

/-! ## One point of the pipeline -/

/-- What the body is entered with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 4000000 in
/-- The body at any point: the input buffers hold their blocks, so the symbolic run applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) (blk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's per-point obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Region

end
-- ==== Proof.IdealRun.lean ====
/-
  The whole program as a chain of seven segments — host stretch, region, host stretch, region, host stretch, region,
  host stretch — with the contents of every unscoped buffer named at each boundary.

  `X1` is what the first host stretch makes of the launch memory; a region changes exactly one buffer, its output
  array, to what its block pipeline leaves there (`left0`, `left1`, `left2`); a host stretch applies its operations.
  The run theorem says: from any launch memory every weakly fair execution terminates without fault and ends with
  every unscoped buffer at the last boundary's contents `X7`. Both the frame claim (no segment writes an argument)
  and the value of the result buffer are read off that.
-/
import proofs.«174930_j4569845203353_2_alg».proof.Proof.IdealBody0
import proofs.«174930_j4569845203353_2_alg».proof.Proof.IdealBody1
import proofs.«174930_j4569845203353_2_alg».proof.Proof.IdealBody2
import proofs.«174930_j4569845203353_2_alg».proof.Proof.Gen.KernelIdeal.Regions

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary -/

/-- A boundary's contents read at the TensorCore's references. -/
abbrev atTc (W : Dev nD → Valuation τ sig (Elt F)) : (c : Dev nD) → (b : Ref sig .tc) → Buf (Elt F) ((c : Thread nD τ).loc b) :=
  fun c b => W c b

/-- At launch. -/
abbrev X0 : Dev nD → Valuation τ sig (Elt F) := fun c => Gen.V0 m c
/-- After the first host stretch: region 0's entry. -/
abbrev X1 : Dev nD → Valuation τ sig (Elt F) := fun c => StableHlo.after hostOps0 (X0 m c)

/-- What region 0's block pipeline leaves in its output array `main_v22`: the write-backs of all points folded in. -/
def left0 (c : Dev nD) : Buf (Elt F) ((c : Thread nD τ).loc main_v22) :=
  (dat0 (atTc (X1 m)) c).arrAt 9 cfg0.N

/-- The buffers when region 0 is left: as entered, except the output array. -/
def X2 (c : Dev nD) : Valuation τ sig (Elt F) :=
  Function.update (X1 m c) (Proc.devRef .tc main_v22) (left0 m c)

/-- Windows 0 … 8 of region 0 are inputs, over arrays other than the output's. -/
theorem inputs0 : ∀ w : Fin 10, w ≠ 9 → (cfg0.win w).isOut = false ∧ Pipeline.arrRef spec0 w ≠ main_v22 := by decide

/-- Each of the region's ten arrays is left at what the pipeline's bookkeeping says: an input as entered, the output at `left0`. -/
theorem kept0 (c : Dev nD) (w : Fin cfg0.W) : (dat0 (atTc (X1 m)) c).arrAt w cfg0.N = atTc (X2 m) c (Pipeline.arrRef spec0 w) := by
  by_cases h : w = 9
  · subst h
    show left0 m c = Function.update (X1 m c) (Proc.devRef .tc main_v22) (left0 m c) (Proc.devRef .tc main_v22)
    exact (Function.update_self (Proc.devRef (τ := τ) .tc main_v22) (left0 m c) (X1 m c)).symm
  · obtain ⟨hin, hne⟩ := inputs0 w h
    refine ((dat0 (atTc (X1 m)) c).arrAt_in w hin _).trans ((A_eq0 (atTc (X1 m)) c w).trans ?_)
    show X1 m c (Proc.devRef .tc (Pipeline.arrRef spec0 w)) = Function.update (X1 m c) (Proc.devRef .tc main_v22) (left0 m c) (Proc.devRef .tc (Pipeline.arrRef spec0 w))
    exact (Function.update_of_ne (StableHlo.devRef_ne_of_ne hne) _ _).symm

/-- Every other buffer is left as entered. -/
theorem rest0 (c : Dev nD) : ∀ b, b ∉ Finset.univ.image (Pipeline.arrRef spec0) → atTc (X2 m) c b = atTc (X1 m) c b :=
  fun b hb => Function.update_of_ne (StableHlo.devRef_ne_of_ne fun e => hb (Finset.mem_image.mpr ⟨9, Finset.mem_univ _, e.symm⟩)) _ _

/-- After the second host stretch: region 1's entry. -/
abbrev X3 : Dev nD → Valuation τ sig (Elt F) := fun c => StableHlo.after hostOps1 (X2 m c)

/-- What region 1's block pipeline leaves in its output array `main_v45`: the write-backs of all points folded in. -/
def left1 (c : Dev nD) : Buf (Elt F) ((c : Thread nD τ).loc main_v45) :=
  (dat1 (atTc (X3 m)) c).arrAt 9 cfg1.N

/-- The buffers when region 1 is left: as entered, except the output array. -/
def X4 (c : Dev nD) : Valuation τ sig (Elt F) :=
  Function.update (X3 m c) (Proc.devRef .tc main_v45) (left1 m c)

/-- Windows 0 … 8 of region 1 are inputs, over arrays other than the output's. -/
theorem inputs1 : ∀ w : Fin 10, w ≠ 9 → (cfg1.win w).isOut = false ∧ Pipeline.arrRef spec1 w ≠ main_v45 := by decide

/-- Each of the region's ten arrays is left at what the pipeline's bookkeeping says: an input as entered, the output at `left1`. -/
theorem kept1 (c : Dev nD) (w : Fin cfg1.W) : (dat1 (atTc (X3 m)) c).arrAt w cfg1.N = atTc (X4 m) c (Pipeline.arrRef spec1 w) := by
  by_cases h : w = 9
  · subst h
    show left1 m c = Function.update (X3 m c) (Proc.devRef .tc main_v45) (left1 m c) (Proc.devRef .tc main_v45)
    exact (Function.update_self (Proc.devRef (τ := τ) .tc main_v45) (left1 m c) (X3 m c)).symm
  · obtain ⟨hin, hne⟩ := inputs1 w h
    refine ((dat1 (atTc (X3 m)) c).arrAt_in w hin _).trans ((A_eq1 (atTc (X3 m)) c w).trans ?_)
    show X3 m c (Proc.devRef .tc (Pipeline.arrRef spec1 w)) = Function.update (X3 m c) (Proc.devRef .tc main_v45) (left1 m c) (Proc.devRef .tc (Pipeline.arrRef spec1 w))
    exact (Function.update_of_ne (StableHlo.devRef_ne_of_ne hne) _ _).symm

/-- Every other buffer is left as entered. -/
theorem rest1 (c : Dev nD) : ∀ b, b ∉ Finset.univ.image (Pipeline.arrRef spec1) → atTc (X4 m) c b = atTc (X3 m) c b :=
  fun b hb => Function.update_of_ne (StableHlo.devRef_ne_of_ne fun e => hb (Finset.mem_image.mpr ⟨9, Finset.mem_univ _, e.symm⟩)) _ _

/-- After the third host stretch: region 2's entry. -/
abbrev X5 : Dev nD → Valuation τ sig (Elt F) := fun c => StableHlo.after hostOps2 (X4 m c)

/-- What region 2's block pipeline leaves in its output array `main_v68`: the write-backs of all points folded in. -/
def left2 (c : Dev nD) : Buf (Elt F) ((c : Thread nD τ).loc main_v68) :=
  (dat2 (atTc (X5 m)) c).arrAt 9 cfg2.N

/-- The buffers when region 2 is left: as entered, except the output array. -/
def X6 (c : Dev nD) : Valuation τ sig (Elt F) :=
  Function.update (X5 m c) (Proc.devRef .tc main_v68) (left2 m c)

/-- Windows 0 … 8 of region 2 are inputs, over arrays other than the output's. -/
theorem inputs2 : ∀ w : Fin 10, w ≠ 9 → (cfg2.win w).isOut = false ∧ Pipeline.arrRef spec2 w ≠ main_v68 := by decide

/-- Each of the region's ten arrays is left at what the pipeline's bookkeeping says: an input as entered, the output at `left2`. -/
theorem kept2 (c : Dev nD) (w : Fin cfg2.W) : (dat2 (atTc (X5 m)) c).arrAt w cfg2.N = atTc (X6 m) c (Pipeline.arrRef spec2 w) := by
  by_cases h : w = 9
  · subst h
    show left2 m c = Function.update (X5 m c) (Proc.devRef .tc main_v68) (left2 m c) (Proc.devRef .tc main_v68)
    exact (Function.update_self (Proc.devRef (τ := τ) .tc main_v68) (left2 m c) (X5 m c)).symm
  · obtain ⟨hin, hne⟩ := inputs2 w h
    refine ((dat2 (atTc (X5 m)) c).arrAt_in w hin _).trans ((A_eq2 (atTc (X5 m)) c w).trans ?_)
    show X5 m c (Proc.devRef .tc (Pipeline.arrRef spec2 w)) = Function.update (X5 m c) (Proc.devRef .tc main_v68) (left2 m c) (Proc.devRef .tc (Pipeline.arrRef spec2 w))
    exact (Function.update_of_ne (StableHlo.devRef_ne_of_ne hne) _ _).symm

/-- Every other buffer is left as entered. -/
theorem rest2 (c : Dev nD) : ∀ b, b ∉ Finset.univ.image (Pipeline.arrRef spec2) → atTc (X6 m) c b = atTc (X5 m) c b :=
  fun b hb => Function.update_of_ne (StableHlo.devRef_ne_of_ne fun e => hb (Finset.mem_image.mpr ⟨9, Finset.mem_univ _, e.symm⟩)) _ _

/-- After the last host stretch: the end. -/
abbrev X7 : Dev nD → Valuation τ sig (Elt F) := fun c => StableHlo.after hostOps3 (X6 m c)

/-! ## The bookkeeping of the three pipelines, and what rides along -/

/-- Each pipeline's bookkeeping at its own region's entry contents. -/
def pdats : (p : Fin 3) → (c : Dev nD) → Dat τ (Elt F) Unit ℕ (UR sig nD τ) ℕ (Pipeline.pin (pcfgs (F := F)) adm p) c
  | ⟨0, _⟩ => fun c => dat0 (atTc (X1 m)) c
  | ⟨1, _⟩ => fun c => dat1 (atTc (X3 m)) c
  | ⟨2, _⟩ => fun c => dat2 (atTc (X5 m)) c
abbrev 𝒱₀ : Variants := Variants.none
/-- No core waits on another: no level is assigned. -/
abbrev L : GSem nD τ sig → Finset Unit := fun _ => ∅
abbrev lv : GSem nD τ sig → Unit → ℕ := fun _ _ => 0
/-- Beside the buffers every segment carries the core's generator register, at some state, and the fact that the core
    owes nothing. -/
abbrev R (c : Dev nD) : sProp 𝕄 := iprop((∃ r, prngReg c r) ∗ ∃ W, owes (c : Thread nD τ) (0 : CellTallies nD τ sig Unit) W)
/-- A host stretch as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those a boundary's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tₙ (c : Dev nD) : sProp 𝕄 := iprop(StableHlo.held (c : Thread nD τ) (Pipeline.ucRefs τ sig) (X7 m c) ∗ ∃ r, prngReg c r)

/-! ## The regions as segments -/

-- the library's entry and exit lemmas are stated over the pinned configuration, which unifies with the printed one only
-- when plain definitions in a metavariable's type may be unfolded
set_option backward.isDefEq.respectTransparency.types false in
/-- Region 0 as a segment of the program: entered with every unscoped buffer at `X1`, left with them at `X2`.
    On entry the ten arrays of the region are split off the unscoped buffers; on exit they are put back, the nine
    inputs unchanged and the output at what the block pipeline wrote. The generator register rides through the
    region's invariant; nothing is owed; the body has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (X1 m)) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (atTc (X1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (X1 m) c) (atTc (X2 m) c) ((pdats m 0 c).arrAt · cfg0.N) (kept0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration, which unifies with the printed one only
-- when plain definitions in a metavariable's type may be unfolded
set_option backward.isDefEq.respectTransparency.types false in
/-- Region 1 as a segment of the program: entered with every unscoped buffer at `X3`, left with them at `X4`.
    On entry the ten arrays of the region are split off the unscoped buffers; on exit they are put back, the nine
    inputs unchanged and the output at what the block pipeline wrote. The generator register rides through the
    region's invariant; nothing is owed; the body has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (X3 m)) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (atTc (X3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X3 m) c) (atTc (X4 m) c) ((pdats m 1 c).arrAt · cfg1.N) (kept1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration, which unifies with the printed one only
-- when plain definitions in a metavariable's type may be unfolded
set_option backward.isDefEq.respectTransparency.types false in
/-- Region 2 as a segment of the program: entered with every unscoped buffer at `X5`, left with them at `X6`.
    On entry the ten arrays of the region are split off the unscoped buffers; on exit they are put back, the nine
    inputs unchanged and the output at what the block pipeline wrote. The generator register rides through the
    region's invariant; nothing is owed; the body has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (X5 m)) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (atTc (X5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (X5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (X5 m) c) (atTc (X6 m) c) ((pdats m 2 c).arrAt · cfg2.N) (kept2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segs : List (Pipeline.Seg (pcfgs (F := F)) adm (pdats m) () defs₀ 𝒱₀ L lv) :=
  [ .host (hseg hostOps0 hostOps0_sub hostOps0_fresh (X0 m)),
    .region (reg0 m),
    .host (hseg hostOps1 hostOps1_sub hostOps1_fresh (X2 m)),
    .region (reg1 m),
    .host (hseg hostOps2 hostOps2_sub hostOps2_fresh (X4 m)),
    .region (reg2 m),
    .host (hseg hostOps3 hostOps3_sub hostOps3_fresh (X6 m)) ]

/-- The program IS the run of those segments. -/
theorem main_run (c : Dev nD) : main (F := F) c = Pipeline.Seg.run (segs m) := (main_chain c).trans (by chain_rfl)

set_option backward.isDefEq.respectTransparency.types false in
/-- THE RUN. From any launch memory with zero counters every weakly fair execution of the program terminates, nothing
    faulting, and in the final memory every unscoped buffer of every core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = X7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X7 m c b)
    (hfin := fun c s' => by
      iintro ⟨⟨Hh, -⟩, HSI⟩
      unfold StableHlo.held
      imodintro
      iapply (pointsTo_read_all (Pipeline.ucRefs τ sig) (fun b => (((c : Thread nD τ)).1, b)) (X7 m c) s')
      isplitl [Hh] <;> iassumption)
    (hQ := fun s h c => h c)

end Cert.KernelIdeal.Region

end
-- ==== Proof.IdealEnds.lean ====
/-
  The ends of the run read off.

  The chain of boundary contents of the run is the program's generic chain of boundary contents with the three
  unknown region outputs instantiated at what the three block pipelines leave.  No host stretch writes an argument
  array and each region changes only its own output array, so each of the 28 argument arrays ends as launched: the
  frame claim.  The result buffer ends at the last boundary's contents at that buffer.
-/
import proofs.«174930_j4569845203353_2_alg».proof.Proof.IdealRun

set_option maxRecDepth 16384

noncomputable section

namespace Cert.KernelIdeal.Region

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- What the regions leave, as the family the generic boundary chain is written over: region 0's output array at
    `left0`, region 1's at `left1`, region 2's at `left2` (any other reference: its launch contents, never read). -/
def outs : Gen.Outs (F := F) := fun _ r c =>
  Function.update (Function.update (Function.update (fun r' : Ref sig .tc => m ((c : Thread nD τ).loc r'))
    main_v22 (left0 m c)) main_v45 (left1 m c)) main_v68 (left2 m c) r

theorem outs_2 (c : Dev nD) : outs m 2 main_v22 c = left0 m c := by
  unfold outs
  rw [Function.update_of_ne (by decide : main_v22 ≠ main_v68), Function.update_of_ne (by decide : main_v22 ≠ main_v45), Function.update_self]

theorem outs_4 (c : Dev nD) : outs m 4 main_v45 c = left1 m c := by
  unfold outs
  rw [Function.update_of_ne (by decide : main_v45 ≠ main_v68), Function.update_self]

theorem outs_6 (c : Dev nD) : outs m 6 main_v68 c = left2 m c := by
  unfold outs
  rw [Function.update_self]

/-- Region 0 is entered at the generic chain's contents. -/
theorem X1_eq (c : Dev nD) : X1 m c = Gen.V1 m c := rfl
/-- It is left at the generic chain's contents with the output instantiated. -/
theorem X2_eq (c : Dev nD) : X2 m c = Gen.V2 m (outs m) c := by
  show Function.update (X1 m c) (Proc.devRef .tc main_v22) (left0 m c) = Function.update (Gen.V1 m c) (Proc.devRef .tc main_v22) (outs m 2 main_v22 c)
  rw [outs_2]
theorem X3_eq (c : Dev nD) : X3 m c = Gen.V3 m (outs m) c := by
  show StableHlo.after hostOps1 (X2 m c) = StableHlo.after hostOps1 (Gen.V2 m (outs m) c)
  rw [X2_eq]
theorem X4_eq (c : Dev nD) : X4 m c = Gen.V4 m (outs m) c := by
  show Function.update (X3 m c) (Proc.devRef .tc main_v45) (left1 m c) = Function.update (Gen.V3 m (outs m) c) (Proc.devRef .tc main_v45) (outs m 4 main_v45 c)
  rw [outs_4, X3_eq]
theorem X5_eq (c : Dev nD) : X5 m c = Gen.V5 m (outs m) c := by
  show StableHlo.after hostOps2 (X4 m c) = StableHlo.after hostOps2 (Gen.V4 m (outs m) c)
  rw [X4_eq]
theorem X6_eq (c : Dev nD) : X6 m c = Gen.V6 m (outs m) c := by
  show Function.update (X5 m c) (Proc.devRef .tc main_v68) (left2 m c) = Function.update (Gen.V5 m (outs m) c) (Proc.devRef .tc main_v68) (outs m 6 main_v68 c)
  rw [outs_6, X5_eq]
theorem X7_eq (c : Dev nD) : X7 m c = Gen.V7 m (outs m) c := by
  show StableHlo.after hostOps3 (X6 m c) = StableHlo.after hostOps3 (Gen.V6 m (outs m) c)
  rw [X6_eq]

/-- THE FRAME: every weakly fair execution terminates without fault and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨
      (h c _ (mem_uc main_arg0 (by decide))).trans ((congrFun (X7_eq m c) _).trans (Gen.V7_main_arg0 m (outs m) c)),
      (h c _ (mem_uc main_arg1 (by decide))).trans ((congrFun (X7_eq m c) _).trans (Gen.V7_main_arg1 m (outs m) c)),
      (h c _ (mem_uc main_arg2 (by decide))).trans ((congrFun (X7_eq m c) _).trans (Gen.V7_main_arg2 m (outs m) c)),
      (h c _ (mem_uc main_arg3 (by decide))).trans ((congrFun (X7_eq m c) _).trans (Gen.V7_main_arg3 m (outs m) c)),
      (h c _ (mem_uc main_arg4 (by decide))).trans ((congrFun (X7_eq m c) _).trans (Gen.V7_main_arg4 m (outs m) c)),
      (h c _ (mem_uc main_arg5 (by decide))).trans ((congrFun (X7_eq m c) _).trans (Gen.V7_main_arg5 m (outs m) c)),
      (h c _ (mem_uc main_arg6 (by decide))).trans ((congrFun (X7_eq m c) _).trans (Gen.V7_main_arg6 m (outs m) c)),
      (h c _ (mem_uc main_arg7 (by decide))).trans ((congrFun (X7_eq m c) _).trans (Gen.V7_main_arg7 m (outs m) c)),
      (h c _ (mem_uc main_arg8 (by decide))).trans ((congrFun (X7_eq m c) _).trans (Gen.V7_main_arg8 m (outs m) c)),
      (h c _ (mem_uc main_arg9 (by decide))).trans ((congrFun (X7_eq m c) _).trans (Gen.V7_main_arg9 m (outs m) c)),
      (h c _ (mem_uc main_arg10 (by decide))).trans ((congrFun (X7_eq m c) _).trans (Gen.V7_main_arg10 m (outs m) c)),
      (h c _ (mem_uc main_arg11 (by decide))).trans ((congrFun (X7_eq m c) _).trans (Gen.V7_main_arg11 m (outs m) c)),
      (h c _ (mem_uc main_arg12 (by decide))).trans ((congrFun (X7_eq m c) _).trans (Gen.V7_main_arg12 m (outs m) c)),
      (h c _ (mem_uc main_arg13 (by decide))).trans ((congrFun (X7_eq m c) _).trans (Gen.V7_main_arg13 m (outs m) c)),
      (h c _ (mem_uc main_arg14 (by decide))).trans ((congrFun (X7_eq m c) _).trans (Gen.V7_main_arg14 m (outs m) c)),
      (h c _ (mem_uc main_arg15 (by decide))).trans ((congrFun (X7_eq m c) _).trans (Gen.V7_main_arg15 m (outs m) c)),
      (h c _ (mem_uc main_arg16 (by decide))).trans ((congrFun (X7_eq m c) _).trans (Gen.V7_main_arg16 m (outs m) c)),
      (h c _ (mem_uc main_arg17 (by decide))).trans ((congrFun (X7_eq m c) _).trans (Gen.V7_main_arg17 m (outs m) c)),
      (h c _ (mem_uc main_arg18 (by decide))).trans ((congrFun (X7_eq m c) _).trans (Gen.V7_main_arg18 m (outs m) c)),
      (h c _ (mem_uc main_arg19 (by decide))).trans ((congrFun (X7_eq m c) _).trans (Gen.V7_main_arg19 m (outs m) c)),
      (h c _ (mem_uc main_arg20 (by decide))).trans ((congrFun (X7_eq m c) _).trans (Gen.V7_main_arg20 m (outs m) c)),
      (h c _ (mem_uc main_arg21 (by decide))).trans ((congrFun (X7_eq m c) _).trans (Gen.V7_main_arg21 m (outs m) c)),
      (h c _ (mem_uc main_arg22 (by decide))).trans ((congrFun (X7_eq m c) _).trans (Gen.V7_main_arg22 m (outs m) c)),
      (h c _ (mem_uc main_arg23 (by decide))).trans ((congrFun (X7_eq m c) _).trans (Gen.V7_main_arg23 m (outs m) c)),
      (h c _ (mem_uc main_arg24 (by decide))).trans ((congrFun (X7_eq m c) _).trans (Gen.V7_main_arg24 m (outs m) c)),
      (h c _ (mem_uc main_arg25 (by decide))).trans ((congrFun (X7_eq m c) _).trans (Gen.V7_main_arg25 m (outs m) c)),
      (h c _ (mem_uc main_arg26 (by decide))).trans ((congrFun (X7_eq m c) _).trans (Gen.V7_main_arg26 m (outs m) c)),
      (h c _ (mem_uc main_arg27 (by decide))).trans ((congrFun (X7_eq m c) _).trans (Gen.V7_main_arg27 m (outs m) c))⟩) (run m ρ)

/-- THE RESULT: and the result buffer ends at the generic chain's last contents, the outputs instantiated. -/
theorem run_result : θ_run defs (onTc (τ := τ) (main (F := F))) ⟨m, fun _ => 0, ρ⟩ (fun r => ∀ c : Dev nD,
      r.2.mem ((c.tc : Thread nD τ).loc main_v70) = Gen.V7 m (outs m) c main_v70
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨(h c _ (mem_uc main_v70 (by decide))).trans (congrFun (X7_eq m c) _),
      (h c _ (mem_uc main_arg0 (by decide))).trans ((congrFun (X7_eq m c) _).trans (Gen.V7_main_arg0 m (outs m) c)),
      (h c _ (mem_uc main_arg1 (by decide))).trans ((congrFun (X7_eq m c) _).trans (Gen.V7_main_arg1 m (outs m) c)),
      (h c _ (mem_uc main_arg2 (by decide))).trans ((congrFun (X7_eq m c) _).trans (Gen.V7_main_arg2 m (outs m) c)),
      (h c _ (mem_uc main_arg3 (by decide))).trans ((congrFun (X7_eq m c) _).trans (Gen.V7_main_arg3 m (outs m) c)),
      (h c _ (mem_uc main_arg4 (by decide))).trans ((congrFun (X7_eq m c) _).trans (Gen.V7_main_arg4 m (outs m) c)),
      (h c _ (mem_uc main_arg5 (by decide))).trans ((congrFun (X7_eq m c) _).trans (Gen.V7_main_arg5 m (outs m) c)),
      (h c _ (mem_uc main_arg6 (by decide))).trans ((congrFun (X7_eq m c) _).trans (Gen.V7_main_arg6 m (outs m) c)),
      (h c _ (mem_uc main_arg7 (by decide))).trans ((congrFun (X7_eq m c) _).trans (Gen.V7_main_arg7 m (outs m) c)),
      (h c _ (mem_uc main_arg8 (by decide))).trans ((congrFun (X7_eq m c) _).trans (Gen.V7_main_arg8 m (outs m) c)),
      (h c _ (mem_uc main_arg9 (by decide))).trans ((congrFun (X7_eq m c) _).trans (Gen.V7_main_arg9 m (outs m) c)),
      (h c _ (mem_uc main_arg10 (by decide))).trans ((congrFun (X7_eq m c) _).trans (Gen.V7_main_arg10 m (outs m) c)),
      (h c _ (mem_uc main_arg11 (by decide))).trans ((congrFun (X7_eq m c) _).trans (Gen.V7_main_arg11 m (outs m) c)),
      (h c _ (mem_uc main_arg12 (by decide))).trans ((congrFun (X7_eq m c) _).trans (Gen.V7_main_arg12 m (outs m) c)),
      (h c _ (mem_uc main_arg13 (by decide))).trans ((congrFun (X7_eq m c) _).trans (Gen.V7_main_arg13 m (outs m) c)),
      (h c _ (mem_uc main_arg14 (by decide))).trans ((congrFun (X7_eq m c) _).trans (Gen.V7_main_arg14 m (outs m) c)),
      (h c _ (mem_uc main_arg15 (by decide))).trans ((congrFun (X7_eq m c) _).trans (Gen.V7_main_arg15 m (outs m) c)),
      (h c _ (mem_uc main_arg16 (by decide))).trans ((congrFun (X7_eq m c) _).trans (Gen.V7_main_arg16 m (outs m) c)),
      (h c _ (mem_uc main_arg17 (by decide))).trans ((congrFun (X7_eq m c) _).trans (Gen.V7_main_arg17 m (outs m) c)),
      (h c _ (mem_uc main_arg18 (by decide))).trans ((congrFun (X7_eq m c) _).trans (Gen.V7_main_arg18 m (outs m) c)),
      (h c _ (mem_uc main_arg19 (by decide))).trans ((congrFun (X7_eq m c) _).trans (Gen.V7_main_arg19 m (outs m) c)),
      (h c _ (mem_uc main_arg20 (by decide))).trans ((congrFun (X7_eq m c) _).trans (Gen.V7_main_arg20 m (outs m) c)),
      (h c _ (mem_uc main_arg21 (by decide))).trans ((congrFun (X7_eq m c) _).trans (Gen.V7_main_arg21 m (outs m) c)),
      (h c _ (mem_uc main_arg22 (by decide))).trans ((congrFun (X7_eq m c) _).trans (Gen.V7_main_arg22 m (outs m) c)),
      (h c _ (mem_uc main_arg23 (by decide))).trans ((congrFun (X7_eq m c) _).trans (Gen.V7_main_arg23 m (outs m) c)),
      (h c _ (mem_uc main_arg24 (by decide))).trans ((congrFun (X7_eq m c) _).trans (Gen.V7_main_arg24 m (outs m) c)),
      (h c _ (mem_uc main_arg25 (by decide))).trans ((congrFun (X7_eq m c) _).trans (Gen.V7_main_arg25 m (outs m) c)),
      (h c _ (mem_uc main_arg26 (by decide))).trans ((congrFun (X7_eq m c) _).trans (Gen.V7_main_arg26 m (outs m) c)),
      (h c _ (mem_uc main_arg27 (by decide))).trans ((congrFun (X7_eq m c) _).trans (Gen.V7_main_arg27 m (outs m) c))⟩) (run m ρ)

end Cert.KernelIdeal.Region

end
-- ==== Proof.Spec.lean ====
/-
  The function both programs compute, on the extended reals, in plain coordinates.

  For each level `L ∈ {2, 3, 4}` a node `r` carries `L` gathered feature vectors of width 128, `g r p`, and the same
  vectors in reversed order, `g' r p`.  The pooled row of width `K = L · 128` is their sum laid out position-major:
  entry `k` is `g r (k / 128) (k % 128) + g' r (k / 128) (k % 128)`.  The pooled row goes through three hidden layers
  `y ↦ max (y · W + b) 0` of width 128 and an affine read-out of width 2.  The three levels' results are stacked along
  the node axis: rows `0 … 131071` are level 2's, rows `131072 … 393215` level 3's, rows `393216 … 786431` level 4's.

  No law of the extended reals is used anywhere: every sum here is taken in the same order, over the same index
  type, on both sides, so nothing depends on the inputs being finite.
-/
import Idealize.ShloMosaic.PureOps.Ideal

noncomputable section

namespace Cert.Spec

/-- An affine layer applied to a row: entry `j` of `x · W + b` is `(∑ k, x k * W k j) + b j`. -/
def affine {K N : ℕ} (x : Fin K → EReal) (W : Fin K → Fin N → EReal) (b : Fin N → EReal) (j : Fin N) : EReal :=
  (∑ k : Fin K, x k * W k j) + b j

/-- An affine layer followed by the ramp `y ↦ max y 0`. -/
def hidden {K N : ℕ} (x : Fin K → EReal) (W : Fin K → Fin N → EReal) (b : Fin N → EReal) (j : Fin N) : EReal :=
  max (affine x W b j) 0

/-- Three hidden layers of width 128 and an affine read-out of width 2, applied to a row of width `K`. -/
def mlp {K : ℕ} (x : Fin K → EReal) (W0 : Fin K → Fin 128 → EReal) (b0 : Fin 128 → EReal)
    (W1 : Fin 128 → Fin 128 → EReal) (b1 : Fin 128 → EReal) (W2 : Fin 128 → Fin 128 → EReal) (b2 : Fin 128 → EReal)
    (Wo : Fin 128 → Fin 2 → EReal) (bo : Fin 2 → EReal) : Fin 2 → EReal :=
  affine (hidden (hidden (hidden x W0 b0) W1 b1) W2 b2) Wo bo

/-- The pooled row of one node: the `L` gathered vectors plus the same vectors in reversed order, position-major. -/
def pooled (L K : ℕ) (hK : K = L * 128) (g g' : Fin L → Fin 128 → EReal) (k : Fin K) : EReal :=
  g ⟨k.val / 128, by have := k.isLt; omega⟩ ⟨k.val % 128, by omega⟩
    + g' ⟨k.val / 128, by have := k.isLt; omega⟩ ⟨k.val % 128, by omega⟩

/-- One level's result at node `r`, output `o`. -/
def level (L K : ℕ) (hK : K = L * 128) {N : ℕ} (g g' : Fin N → Fin L → Fin 128 → EReal)
    (W0 : Fin K → Fin 128 → EReal) (b0 : Fin 128 → EReal)
    (W1 : Fin 128 → Fin 128 → EReal) (b1 : Fin 128 → EReal) (W2 : Fin 128 → Fin 128 → EReal) (b2 : Fin 128 → EReal)
    (Wo : Fin 128 → Fin 2 → EReal) (bo : Fin 2 → EReal) (r : Fin N) (o : Fin 2) : EReal :=
  mlp (pooled L K hK (g r) (g' r)) W0 b0 W1 b1 W2 b2 Wo bo o

/-- The three levels stacked along the node axis. -/
def stacked (t2 : Fin 131072 → Fin 2 → EReal) (t3 : Fin 262144 → Fin 2 → EReal) (t4 : Fin 393216 → Fin 2 → EReal)
    (i : Fin 786432) (o : Fin 2) : EReal :=
  if h2 : i.val < 131072 then t2 ⟨i.val, h2⟩ o
  else if h3 : i.val < 393216 then t3 ⟨i.val - 131072, by omega⟩ o
  else t4 ⟨i.val - 393216, by have := i.isLt; omega⟩ o

end Cert.Spec

end
-- ==== Proof.Payload.lean ====
/-
  The arithmetic of one row block, read at one entry.

  Each of the three kernels takes a block of 4096 pooled rows (width 256, 384 or 512), multiplies it by the first
  weight matrix into a zero accumulator, adds the bias row to every row, takes the maximum with zero, and repeats this
  twice at width 128; a last product with the 128 x 2 read-out matrix plus its bias row gives a 4096 x 2 block, which is
  stored transposed.  On the extended reals every change of format is the identity and a product into the zero matrix
  is the plain sum over the contracted coordinate, so entry `(o, r)` of the stored block is the three hidden layers and
  the affine read-out applied to row `r`, output `o`: the same sums, over the same index types, in the same order.
-/
import proofs.«174930_j4569845203353_2_alg».proof.Proof.Gen.KernelIdeal.Skeleton
import proofs.«174930_j4569845203353_2_alg».proof.Proof.Spec
import Idealize.ShloMosaic.Lib.ValueLayout
import Idealize.ShloMosaic.PureOps.Ideal.Laws

noncomputable section

namespace Cert.Payload

open Idealize.ShloMosaic Idealize.ShloMosaic.ValueIdx Cert.KernelIdeal

/-! ## One layer over a block of rows, read at an entry -/

section Generic
variable {m k n : ℕ}

/-- A matrix product that contracts the left operand's columns against the right operand's rows, accumulated into
    the zero matrix, read at entry `(a, b)`: the sum over the contracted coordinate `c` of `A (a, c) * B (c, b)`,
    in the order of `Fin k`. -/
theorem matmul_zero_ix2 {φ₁ φ₂ : FTy} (D : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hD : D = ⟨[1], [0], [0], [1], [], [], w⟩) (prec : Option ContractPrecision)
    (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b)
      = ∑ c : Fin k, A (ix2 a c) * B (ix2 c b) := by
  subst hD
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have el : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have er : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [el, er]

/-- The product plus a bias row copied to every row, read at entry `(a, j)`, is the affine layer applied to row `a`. -/
theorem affine_ix2 {φ₁ φ₂ : FTy} (D : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hD : D = ⟨[1], [0], [0], [1], [], [], w⟩) (prec : Option ContractPrecision)
    (A : FVec Ideal ⟨2, ![m, k]⟩ φ₁) (B : FVec Ideal ⟨2, ![k, n]⟩ φ₂) (bias : FVec Ideal ⟨2, ![1, n]⟩ .f32)
    (hb : (⟨2, ![1, n]⟩ : Shape).Broadcasts ⟨2, ![m, n]⟩) (a : Fin m) (j : Fin n) :
    addf (matmul D prec A B (constant (F := Ideal) ⟨2, ![m, n]⟩ .f32 0x00000000#32))
        (broadcastTo ⟨2, ![m, n]⟩ bias hb) (ix2 a j)
      = Cert.Spec.affine (fun c => A (ix2 a c)) (fun c j => B (ix2 c j)) (fun j => bias (ix2 (0 : Fin 1) j)) j := by
  refine (addf_apply _ _ _).trans ?_
  unfold Cert.Spec.affine
  rw [matmul_zero_ix2 D w hD prec A B a j, broadcastTo_1b_ab_apply bias hb a j]

/-- An affine layer followed by the ramp against the zero splat, then read in the narrower format (the identity on
    the extended reals): entry `(a, j)` is the hidden layer applied to row `a`. -/
theorem hidden_ix2 {φ₁ φ₂ : FTy} (D : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hD : D = ⟨[1], [0], [0], [1], [], [], w⟩) (prec : Option ContractPrecision)
    (A : FVec Ideal ⟨2, ![m, k]⟩ φ₁) (B : FVec Ideal ⟨2, ![k, n]⟩ φ₂) (bias : FVec Ideal ⟨2, ![1, n]⟩ .f32)
    (hb : (⟨2, ![1, n]⟩ : Shape).Broadcasts ⟨2, ![m, n]⟩) (hlt : FTy.bf16.bits < FTy.f32.bits) (a : Fin m) (j : Fin n) :
    (truncf .bf16 (maximumf (addf (matmul D prec A B (constant (F := Ideal) ⟨2, ![m, n]⟩ .f32 0x00000000#32))
        (broadcastTo ⟨2, ![m, n]⟩ bias hb)) (broadcast ⟨2, ![m, n]⟩ (Scalar.ofBits (F := Ideal) .f32 0x00000000#32))) hlt
        : FVec Ideal ⟨2, ![m, n]⟩ .bf16) (ix2 a j)
      = Cert.Spec.hidden (fun c => A (ix2 a c)) (fun c j => B (ix2 c j)) (fun j => bias (ix2 (0 : Fin 1) j)) j := by
  unfold Cert.Spec.hidden
  rw [← affine_ix2 D w hD prec A B bias hb a j]
  show max _ (Ideal.ofBits .f32 0x00000000#32) = _
  rw [Ideal.ofBits_zero_f32]

end Generic

/-! ## The three kernels' stored blocks -/

/-- Block `0`'s stored entry `(o, r)`: the transposed read-out, i.e. the three hidden layers and the affine read-out
    applied to row `r` of the block's pooled rows (width 256), output `o`. -/
theorem pay0 (v0 : Vec Ideal S4096x256 .bf16) (v2 : Vec Ideal S256x128 .bf16) (v5 : Vec Ideal S1x128 .f32)
    (v12 : Vec Ideal S128x128 .bf16) (v15 : Vec Ideal S1x128 .f32) (v22 : Vec Ideal S128x128 .bf16)
    (v25 : Vec Ideal S1x128 .f32) (v32 : Vec Ideal S128x2 .bf16) (v35 : Vec Ideal S1x2 .f32) (o : Fin 2) (r : Fin 4096) :
    Cert.KernelIdeal.Gen.k0_pay1 (F := Ideal)
        (Cert.KernelIdeal.Gen.k0_pay2 (F := Ideal) v0 v2 v5 v12 v15 v22 v25 v32) v35 (ValueIdx.ix2 o r)
      = Cert.Spec.mlp (fun k => v0 (ValueIdx.ix2 r k)) (fun k j => v2 (ValueIdx.ix2 k j))
          (fun j => v5 (ValueIdx.ix2 0 j)) (fun k j => v12 (ValueIdx.ix2 k j)) (fun j => v15 (ValueIdx.ix2 0 j))
          (fun k j => v22 (ValueIdx.ix2 k j)) (fun j => v25 (ValueIdx.ix2 0 j)) (fun k j => v32 (ValueIdx.ix2 k j))
          (fun j => v35 (ValueIdx.ix2 0 j)) o := by
  unfold Cert.KernelIdeal.Gen.k0_pay1 Cert.KernelIdeal.Gen.k0_pay2
  simp only [shapeCast_self]
  refine (transpose_ix2_apply _ _ o r).trans ?_
  refine (affine_ix2 dot_S4096x128_S128x2_S4096x2_1_0_0_1_n_n _ rfl none _ v32 v35 _ r o).trans ?_
  unfold Cert.Spec.mlp
  refine congrArg (fun x => Cert.Spec.affine x _ _ o) (funext fun c3 => ?_)
  refine (hidden_ix2 dot_S4096x128_S128x128_S4096x128_1_0_0_1_n_n _ rfl none _ v22 v25 _ _ r c3).trans ?_
  refine congrArg (fun x => Cert.Spec.hidden x _ _ c3) (funext fun c2 => ?_)
  refine (hidden_ix2 dot_S4096x128_S128x128_S4096x128_1_0_0_1_n_n _ rfl none _ v12 v15 _ _ r c2).trans ?_
  refine congrArg (fun x => Cert.Spec.hidden x _ _ c2) (funext fun c1 => ?_)
  exact hidden_ix2 dot_S4096x256_S256x128_S4096x128_1_0_0_1_n_n _ rfl none v0 v2 v5 _ _ r c1

/-- Block `1`'s stored entry `(o, r)`: the transposed read-out, i.e. the three hidden layers and the affine read-out
    applied to row `r` of the block's pooled rows (width 384), output `o`. -/
theorem pay1 (v0 : Vec Ideal S4096x384 .bf16) (v2 : Vec Ideal S384x128 .bf16) (v5 : Vec Ideal S1x128 .f32)
    (v12 : Vec Ideal S128x128 .bf16) (v15 : Vec Ideal S1x128 .f32) (v22 : Vec Ideal S128x128 .bf16)
    (v25 : Vec Ideal S1x128 .f32) (v32 : Vec Ideal S128x2 .bf16) (v35 : Vec Ideal S1x2 .f32) (o : Fin 2) (r : Fin 4096) :
    Cert.KernelIdeal.Gen.k1_pay1 (F := Ideal)
        (Cert.KernelIdeal.Gen.k1_pay2 (F := Ideal) v0 v2 v5 v12 v15 v22 v25 v32) v35 (ValueIdx.ix2 o r)
      = Cert.Spec.mlp (fun k => v0 (ValueIdx.ix2 r k)) (fun k j => v2 (ValueIdx.ix2 k j))
          (fun j => v5 (ValueIdx.ix2 0 j)) (fun k j => v12 (ValueIdx.ix2 k j)) (fun j => v15 (ValueIdx.ix2 0 j))
          (fun k j => v22 (ValueIdx.ix2 k j)) (fun j => v25 (ValueIdx.ix2 0 j)) (fun k j => v32 (ValueIdx.ix2 k j))
          (fun j => v35 (ValueIdx.ix2 0 j)) o := by
  unfold Cert.KernelIdeal.Gen.k1_pay1 Cert.KernelIdeal.Gen.k1_pay2
  simp only [shapeCast_self]
  refine (transpose_ix2_apply _ _ o r).trans ?_
  refine (affine_ix2 dot_S4096x128_S128x2_S4096x2_1_0_0_1_n_n _ rfl none _ v32 v35 _ r o).trans ?_
  unfold Cert.Spec.mlp
  refine congrArg (fun x => Cert.Spec.affine x _ _ o) (funext fun c3 => ?_)
  refine (hidden_ix2 dot_S4096x128_S128x128_S4096x128_1_0_0_1_n_n _ rfl none _ v22 v25 _ _ r c3).trans ?_
  refine congrArg (fun x => Cert.Spec.hidden x _ _ c3) (funext fun c2 => ?_)
  refine (hidden_ix2 dot_S4096x128_S128x128_S4096x128_1_0_0_1_n_n _ rfl none _ v12 v15 _ _ r c2).trans ?_
  refine congrArg (fun x => Cert.Spec.hidden x _ _ c2) (funext fun c1 => ?_)
  exact hidden_ix2 dot_S4096x384_S384x128_S4096x128_1_0_0_1_n_n _ rfl none v0 v2 v5 _ _ r c1

/-- Block `2`'s stored entry `(o, r)`: the transposed read-out, i.e. the three hidden layers and the affine read-out
    applied to row `r` of the block's pooled rows (width 512), output `o`. -/
theorem pay2 (v0 : Vec Ideal S4096x512 .bf16) (v2 : Vec Ideal S512x128 .bf16) (v5 : Vec Ideal S1x128 .f32)
    (v12 : Vec Ideal S128x128 .bf16) (v15 : Vec Ideal S1x128 .f32) (v22 : Vec Ideal S128x128 .bf16)
    (v25 : Vec Ideal S1x128 .f32) (v32 : Vec Ideal S128x2 .bf16) (v35 : Vec Ideal S1x2 .f32) (o : Fin 2) (r : Fin 4096) :
    Cert.KernelIdeal.Gen.k2_pay1 (F := Ideal)
        (Cert.KernelIdeal.Gen.k2_pay2 (F := Ideal) v0 v2 v5 v12 v15 v22 v25 v32) v35 (ValueIdx.ix2 o r)
      = Cert.Spec.mlp (fun k => v0 (ValueIdx.ix2 r k)) (fun k j => v2 (ValueIdx.ix2 k j))
          (fun j => v5 (ValueIdx.ix2 0 j)) (fun k j => v12 (ValueIdx.ix2 k j)) (fun j => v15 (ValueIdx.ix2 0 j))
          (fun k j => v22 (ValueIdx.ix2 k j)) (fun j => v25 (ValueIdx.ix2 0 j)) (fun k j => v32 (ValueIdx.ix2 k j))
          (fun j => v35 (ValueIdx.ix2 0 j)) o := by
  unfold Cert.KernelIdeal.Gen.k2_pay1 Cert.KernelIdeal.Gen.k2_pay2
  simp only [shapeCast_self]
  refine (transpose_ix2_apply _ _ o r).trans ?_
  refine (affine_ix2 dot_S4096x128_S128x2_S4096x2_1_0_0_1_n_n _ rfl none _ v32 v35 _ r o).trans ?_
  unfold Cert.Spec.mlp
  refine congrArg (fun x => Cert.Spec.affine x _ _ o) (funext fun c3 => ?_)
  refine (hidden_ix2 dot_S4096x128_S128x128_S4096x128_1_0_0_1_n_n _ rfl none _ v22 v25 _ _ r c3).trans ?_
  refine congrArg (fun x => Cert.Spec.hidden x _ _ c3) (funext fun c2 => ?_)
  refine (hidden_ix2 dot_S4096x128_S128x128_S4096x128_1_0_0_1_n_n _ rfl none _ v12 v15 _ _ r c2).trans ?_
  refine congrArg (fun x => Cert.Spec.hidden x _ _ c2) (funext fun c1 => ?_)
  exact hidden_ix2 dot_S4096x512_S512x128_S4096x128_1_0_0_1_n_n _ rfl none v0 v2 v5 _ _ r c1

end Cert.Payload

end
-- ==== Proof.IdealArray0.lean ====
/-
  Pallas region 0, from its blocks to its result array.

  Point `t` of the region reads rows `4096 t … 4096 t + 4095` of the pooled-row array (width 256) and the whole of the
  eight parameter arrays, and writes columns `4096 t … 4096 t + 4095` of the 2 × 131072 result array: entry `(o, r)` of
  the block it writes is the perceptron of row `4096 t + r`, output `o`.  So every block written is the restriction of
  ONE function of the nine arrays, and the 32 blocks tile the result array (column `n` lies in the block of point
  `n / 4096`): after the region the array holds that function — entry `(o, n)` is the perceptron of pooled row `n`,
  output `o`.
-/
import proofs.«174930_j4569845203353_2_alg».proof.Proof.IdealBody0
import proofs.«174930_j4569845203353_2_alg».proof.Proof.Payload
import proofs.«174930_j4569845203353_2_alg».proof.Proof.Spec
import Idealize.ShloMosaic.Lib.Pipeline.Value
import Idealize.ShloMosaic.Lib.ValueIdx

noncomputable section

namespace Cert.KernelIdeal.Region

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem arr_hz0 : (![0, 0] : Fin 2 → Nat) = fun _ => 0 := funext fun a => by fin_cases a <;> rfl

/-- The result array as one function of the nine arrays the region reads: entry `(o, n)` is the perceptron of row `n`
    of the pooled rows, output `o`. -/
def arrG0 (a0 : S131072x256.Idx → EReal) (a1 : S256x128.Idx → EReal) (a2 : S1x128.Idx → EReal) (a3 : S128x128.Idx → EReal) (a4 : S1x128.Idx → EReal) (a5 : S128x128.Idx → EReal) (a6 : S1x128.Idx → EReal) (a7 : S128x2.Idx → EReal) (a8 : S1x2.Idx → EReal) : S2x131072.Idx → EReal :=
  fun j => Cert.Spec.mlp (fun k => a0 (ix2 (⟨(j 1).val, idx2_lt1 j⟩ : Fin 131072) k)) (fun k j' => a1 (ix2 k j'))
    (fun j' => a2 (ix2 (0 : Fin 1) j')) (fun k j' => a3 (ix2 k j')) (fun j' => a4 (ix2 (0 : Fin 1) j'))
    (fun k j' => a5 (ix2 k j')) (fun j' => a6 (ix2 (0 : Fin 1) j')) (fun k j' => a7 (ix2 k j'))
    (fun j' => a8 (ix2 (0 : Fin 1) j')) (⟨(j 0).val, idx2_lt0 j⟩ : Fin 2)

/-- The printed index maps, decided over the grid: the pooled rows' block index is `(t, 0)`, the result's `(0, t)`, the
    eight parameter arrays' `(0, 0)`. -/
theorem arr_idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = t.val :=
  (by decide +kernel : ∀ t : Fin grid0.N, _)

/-- Window 0's block at point `t` is rows `4096 t …` of the pooled-row array. -/
theorem blk0_0_rows (c : Dev nD) (t : Fin cfg0.N) (r : Fin 4096) (k : Fin 256) (hr : t.val * 4096 + r.val < 131072) :
    (blk0 V c 0 t : Vec Ideal S4096x256 .bf16) (ix2 r k)
      = (V c (Pipeline.arrRef spec0 0) : S131072x256.Idx → EReal) (ix2 (⟨t.val * 4096 + r.val, hr⟩ : Fin 131072) k) := by
  have e0 : win0_0.index t (0 : Fin 2) = t.val := (arr_idx_facts0 t).1
  have e1 : win0_0.index t (1 : Fin 2) = 0 := (arr_idx_facts0 t).2.1
  unfold blk0
  rw [View.read_apply]
  show (V c (Pipeline.arrRef spec0 0) : S131072x256.Idx → EReal) _ = _
  refine congrArg (V c (Pipeline.arrRef spec0 0) : S131072x256.Idx → EReal) (funext fun a => Fin.ext ?_)
  match a with
  | ⟨0, _⟩ => show win0_0.index t (0 : Fin 2) * 4096 + 1 * r.val = t.val * 4096 + r.val; rw [e0]; omega
  | ⟨1, _⟩ => show win0_0.index t (1 : Fin 2) * 256 + 1 * k.val = k.val; rw [e1]; omega

/-- Window 1's block index is constant `(0, 0)` and its block is the whole array: every point reads the array itself. -/
theorem blk0_1_whole (c : Dev nD) (t : Fin cfg0.N) :
    (blk0 V c 1 t : Vec Ideal S256x128 .bf16) = (V c (Pipeline.arrRef spec0 1) : S256x128.Idx → EReal) := by
  have e0 : win0_1.index t (0 : Fin 2) = 0 := (arr_idx_facts0 t).2.2.1
  have e1 : win0_1.index t (1 : Fin 2) = 0 := (arr_idx_facts0 t).2.2.2.1
  funext x
  unfold blk0
  rw [View.read_apply]
  show (V c (Pipeline.arrRef spec0 1) : S256x128.Idx → EReal) _ = _
  refine congrArg (V c (Pipeline.arrRef spec0 1) : S256x128.Idx → EReal) (funext fun a => Fin.ext ?_)
  match a with
  | ⟨0, _⟩ => show win0_1.index t (0 : Fin 2) * 256 + 1 * (x 0).val = (x 0).val; rw [e0]; omega
  | ⟨1, _⟩ => show win0_1.index t (1 : Fin 2) * 128 + 1 * (x 1).val = (x 1).val; rw [e1]; omega

/-- Window 2's block index is constant `(0, 0)` and its block is the whole array: every point reads the array itself. -/
theorem blk0_2_whole (c : Dev nD) (t : Fin cfg0.N) :
    (blk0 V c 2 t : Vec Ideal S1x128 .f32) = (V c (Pipeline.arrRef spec0 2) : S1x128.Idx → EReal) := by
  have e0 : win0_2.index t (0 : Fin 2) = 0 := (arr_idx_facts0 t).2.2.2.2.1
  have e1 : win0_2.index t (1 : Fin 2) = 0 := (arr_idx_facts0 t).2.2.2.2.2.1
  funext x
  unfold blk0
  rw [View.read_apply]
  show (V c (Pipeline.arrRef spec0 2) : S1x128.Idx → EReal) _ = _
  refine congrArg (V c (Pipeline.arrRef spec0 2) : S1x128.Idx → EReal) (funext fun a => Fin.ext ?_)
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- Window 3's block index is constant `(0, 0)` and its block is the whole array: every point reads the array itself. -/
theorem blk0_3_whole (c : Dev nD) (t : Fin cfg0.N) :
    (blk0 V c 3 t : Vec Ideal S128x128 .bf16) = (V c (Pipeline.arrRef spec0 3) : S128x128.Idx → EReal) := by
  have e0 : win0_3.index t (0 : Fin 2) = 0 := (arr_idx_facts0 t).2.2.2.2.2.2.1
  have e1 : win0_3.index t (1 : Fin 2) = 0 := (arr_idx_facts0 t).2.2.2.2.2.2.2.1
  funext x
  unfold blk0
  rw [View.read_apply]
  show (V c (Pipeline.arrRef spec0 3) : S128x128.Idx → EReal) _ = _
  refine congrArg (V c (Pipeline.arrRef spec0 3) : S128x128.Idx → EReal) (funext fun a => Fin.ext ?_)
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- Window 4's block index is constant `(0, 0)` and its block is the whole array: every point reads the array itself. -/
theorem blk0_4_whole (c : Dev nD) (t : Fin cfg0.N) :
    (blk0 V c 4 t : Vec Ideal S1x128 .f32) = (V c (Pipeline.arrRef spec0 4) : S1x128.Idx → EReal) := by
  have e0 : win0_4.index t (0 : Fin 2) = 0 := (arr_idx_facts0 t).2.2.2.2.2.2.2.2.1
  have e1 : win0_4.index t (1 : Fin 2) = 0 := (arr_idx_facts0 t).2.2.2.2.2.2.2.2.2.1
  funext x
  unfold blk0
  rw [View.read_apply]
  show (V c (Pipeline.arrRef spec0 4) : S1x128.Idx → EReal) _ = _
  refine congrArg (V c (Pipeline.arrRef spec0 4) : S1x128.Idx → EReal) (funext fun a => Fin.ext ?_)
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-- Window 5's block index is constant `(0, 0)` and its block is the whole array: every point reads the array itself. -/
theorem blk0_5_whole (c : Dev nD) (t : Fin cfg0.N) :
    (blk0 V c 5 t : Vec Ideal S128x128 .bf16) = (V c (Pipeline.arrRef spec0 5) : S128x128.Idx → EReal) := by
  have e0 : win0_5.index t (0 : Fin 2) = 0 := (arr_idx_facts0 t).2.2.2.2.2.2.2.2.2.2.1
  have e1 : win0_5.index t (1 : Fin 2) = 0 := (arr_idx_facts0 t).2.2.2.2.2.2.2.2.2.2.2.1
  funext x
  unfold blk0
  rw [View.read_apply]
  show (V c (Pipeline.arrRef spec0 5) : S128x128.Idx → EReal) _ = _
  refine congrArg (V c (Pipeline.arrRef spec0 5) : S128x128.Idx → EReal) (funext fun a => Fin.ext ?_)
  match a with
  | ⟨0, _⟩ => show win0_5.index t (0 : Fin 2) * 128 + 1 * (x 0).val = (x 0).val; rw [e0]; omega
  | ⟨1, _⟩ => show win0_5.index t (1 : Fin 2) * 128 + 1 * (x 1).val = (x 1).val; rw [e1]; omega

/-- Window 6's block index is constant `(0, 0)` and its block is the whole array: every point reads the array itself. -/
theorem blk0_6_whole (c : Dev nD) (t : Fin cfg0.N) :
    (blk0 V c 6 t : Vec Ideal S1x128 .f32) = (V c (Pipeline.arrRef spec0 6) : S1x128.Idx → EReal) := by
  have e0 : win0_6.index t (0 : Fin 2) = 0 := (arr_idx_facts0 t).2.2.2.2.2.2.2.2.2.2.2.2.1
  have e1 : win0_6.index t (1 : Fin 2) = 0 := (arr_idx_facts0 t).2.2.2.2.2.2.2.2.2.2.2.2.2.1
  funext x
  unfold blk0
  rw [View.read_apply]
  show (V c (Pipeline.arrRef spec0 6) : S1x128.Idx → EReal) _ = _
  refine congrArg (V c (Pipeline.arrRef spec0 6) : S1x128.Idx → EReal) (funext fun a => Fin.ext ?_)
  match a with
  | ⟨0, _⟩ => show win0_6.index t (0 : Fin 2) * 1 + 1 * (x 0).val = (x 0).val; rw [e0]; omega
  | ⟨1, _⟩ => show win0_6.index t (1 : Fin 2) * 128 + 1 * (x 1).val = (x 1).val; rw [e1]; omega

/-- Window 7's block index is constant `(0, 0)` and its block is the whole array: every point reads the array itself. -/
theorem blk0_7_whole (c : Dev nD) (t : Fin cfg0.N) :
    (blk0 V c 7 t : Vec Ideal S128x2 .bf16) = (V c (Pipeline.arrRef spec0 7) : S128x2.Idx → EReal) := by
  have e0 : win0_7.index t (0 : Fin 2) = 0 := (arr_idx_facts0 t).2.2.2.2.2.2.2.2.2.2.2.2.2.2.1
  have e1 : win0_7.index t (1 : Fin 2) = 0 := (arr_idx_facts0 t).2.2.2.2.2.2.2.2.2.2.2.2.2.2.2.1
  funext x
  unfold blk0
  rw [View.read_apply]
  show (V c (Pipeline.arrRef spec0 7) : S128x2.Idx → EReal) _ = _
  refine congrArg (V c (Pipeline.arrRef spec0 7) : S128x2.Idx → EReal) (funext fun a => Fin.ext ?_)
  match a with
  | ⟨0, _⟩ => show win0_7.index t (0 : Fin 2) * 128 + 1 * (x 0).val = (x 0).val; rw [e0]; omega
  | ⟨1, _⟩ => show win0_7.index t (1 : Fin 2) * 2 + 1 * (x 1).val = (x 1).val; rw [e1]; omega

/-- Window 8's block index is constant `(0, 0)` and its block is the whole array: every point reads the array itself. -/
theorem blk0_8_whole (c : Dev nD) (t : Fin cfg0.N) :
    (blk0 V c 8 t : Vec Ideal S1x2 .f32) = (V c (Pipeline.arrRef spec0 8) : S1x2.Idx → EReal) := by
  have e0 : win0_8.index t (0 : Fin 2) = 0 := (arr_idx_facts0 t).2.2.2.2.2.2.2.2.2.2.2.2.2.2.2.2.1
  have e1 : win0_8.index t (1 : Fin 2) = 0 := (arr_idx_facts0 t).2.2.2.2.2.2.2.2.2.2.2.2.2.2.2.2.2.1
  funext x
  unfold blk0
  rw [View.read_apply]
  show (V c (Pipeline.arrRef spec0 8) : S1x2.Idx → EReal) _ = _
  refine congrArg (V c (Pipeline.arrRef spec0 8) : S1x2.Idx → EReal) (funext fun a => Fin.ext ?_)
  match a with
  | ⟨0, _⟩ => show win0_8.index t (0 : Fin 2) * 1 + 1 * (x 0).val = (x 0).val; rw [e0]; omega
  | ⟨1, _⟩ => show win0_8.index t (1 : Fin 2) * 2 + 1 * (x 1).val = (x 1).val; rw [e1]; omega

/-- One entry of the block a point writes.  If the point's pooled-row block is rows `4096 T …` of the pooled-row array
    and its other eight blocks are the parameter arrays themselves, then entry `y` of the body's result is the result
    array's function at the index `i` with the same row coordinate and column `4096 T + y 1`. -/
theorem arr_point0 (x0 : Vec Ideal S4096x256 .bf16) (x1 : Vec Ideal S256x128 .bf16) (x2 : Vec Ideal S1x128 .f32) (x3 : Vec Ideal S128x128 .bf16) (x4 : Vec Ideal S1x128 .f32) (x5 : Vec Ideal S128x128 .bf16) (x6 : Vec Ideal S1x128 .f32) (x7 : Vec Ideal S128x2 .bf16) (x8 : Vec Ideal S1x2 .f32)
    (a0 : S131072x256.Idx → EReal) (a1 : S256x128.Idx → EReal) (a2 : S1x128.Idx → EReal) (a3 : S128x128.Idx → EReal) (a4 : S1x128.Idx → EReal) (a5 : S128x128.Idx → EReal) (a6 : S1x128.Idx → EReal) (a7 : S128x2.Idx → EReal) (a8 : S1x2.Idx → EReal) (T : ℕ)
    (h0 : ∀ (r : Fin 4096) (k : Fin 256) (hr : T * 4096 + r.val < 131072), x0 (ix2 r k) = a0 (ix2 (⟨T * 4096 + r.val, hr⟩ : Fin 131072) k))
    (h1 : x1 = a1) (h2 : x2 = a2) (h3 : x3 = a3) (h4 : x4 = a4) (h5 : x5 = a5) (h6 : x6 = a6) (h7 : x7 = a7) (h8 : x8 = a8)
    (y : S2x4096.Idx) (i : S2x131072.Idx) (hi0 : (i 0).val = (y 0).val) (hi1 : (i 1).val = T * 4096 + (y 1).val) :
    k0_pay1 (F := Ideal) (k0_pay2 (F := Ideal) x0 x1 x2 x3 x4 x5 x6 x7) x8 y = arrG0 a0 a1 a2 a3 a4 a5 a6 a7 a8 i := by
  subst h1 h2 h3 h4 h5 h6 h7 h8
  obtain ⟨o, r, rfl⟩ : ∃ (o : Fin 2) (r : Fin 4096), y = ix2 o r := ⟨y 0, y 1, eq_ix2 y⟩
  rw [Cert.Payload.pay0]
  unfold arrG0
  have hr : T * 4096 + r.val < 131072 := by have h := idx2_lt1 i; rw [hi1] at h; exact h
  have e1 : (⟨(i 1).val, idx2_lt1 i⟩ : Fin 131072) = ⟨T * 4096 + r.val, hr⟩ := Fin.ext hi1
  have e0 : (⟨(i 0).val, idx2_lt0 i⟩ : Fin 2) = o := Fin.ext hi0
  have hf : (fun k => x0 (ix2 r k)) = fun k => a0 (ix2 (⟨(i 1).val, idx2_lt1 i⟩ : Fin 131072) k) :=
    funext fun k => (h0 r k hr).trans (congrArg (fun q => a0 (ix2 q k)) e1.symm)
  exact congrArg₂ (fun f q => Cert.Spec.mlp f _ _ _ _ _ _ _ _ q) hf e0.symm

set_option maxHeartbeats 2000000 in
/-- What point `t` writes back is block `t` of the result array's function of the nine arrays as the region finds them. -/
theorem arr_flushed0_eq (c : Dev nD) (t : Fin cfg0.N) :
    (dat0 (F := Ideal) V c).flushed 9 t
      = ((cfg0.win 9).blk t).view.read (Elt Ideal) (arrG0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8))) := by
  show (cfg0.win 9).cut (grid0.coords t) ((dat0 V c).after 9 t) = _
  rw [after0_9]
  unfold out0
  rw [View.canon_unit_zero arr_hz0]
  simp only [View.ld_unit_zero (S := S4096x256) arr_hz0, View.ld_unit_zero (S := S256x128) arr_hz0, View.ld_unit_zero (S := S1x128) arr_hz0, View.ld_unit_zero (S := S128x128) arr_hz0, View.ld_unit_zero (S := S128x2) arr_hz0, View.ld_unit_zero (S := S1x2) arr_hz0]
  have e90 : win0_9.index t (0 : Fin 2) = 0 := (arr_idx_facts0 t).2.2.2.2.2.2.2.2.2.2.2.2.2.2.2.2.2.2.1
  have e91 : win0_9.index t (1 : Fin 2) = t.val := (arr_idx_facts0 t).2.2.2.2.2.2.2.2.2.2.2.2.2.2.2.2.2.2.2
  funext y
  show k0_pay1 (F := Ideal) (k0_pay2 (F := Ideal) (blk0 V c 0 t) (blk0 V c 1 t) (blk0 V c 2 t) (blk0 V c 3 t) (blk0 V c 4 t) (blk0 V c 5 t) (blk0 V c 6 t) (blk0 V c 7 t)) (blk0 V c 8 t) ((cfg0.win 9).xinj (grid0.coords t) y)
    = arrG0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (((cfg0.win 9).blk t).view.emb y)
  refine arr_point0 _ _ _ _ _ _ _ _ _ _ _ _ _ _ _ _ _ _ t.val (fun r k hr => blk0_0_rows V c t r k hr)
    (blk0_1_whole V c t) (blk0_2_whole V c t) (blk0_3_whole V c t) (blk0_4_whole V c t) (blk0_5_whole V c t) (blk0_6_whole V c t) (blk0_7_whole V c t) (blk0_8_whole V c t) _ _ ?_ ?_
  · show win0_9.index t (0 : Fin 2) * 2 + 1 * (y 0).val = (y 0).val; rw [e90]; omega
  · show win0_9.index t (1 : Fin 2) * 4096 + 1 * (y 1).val = t.val * 4096 + (y 1).val; rw [e91]; omega

/-- An index of the result array is in point `t`'s block iff each coordinate is in the block's range on its axis. -/
theorem arr_mem_blk0 (t : Fin cfg0.N) (i : S2x131072.Idx) :
    i ∈ ((cfg0.win 9).blk t).view.set ↔ ∀ a : Fin 2, win0_9.index t a * S2x4096.size a ≤ (i a).val ∧ (i a).val < win0_9.index t a * S2x4096.size a + S2x4096.size a := by
  show i ∈ ((View.whole main_v22).slice (win0_9.rect t)).set ↔ _
  rw [View.set_slice_whole, Rect.mem_set_unit]
  exact Iff.rfl

/-- Every index of the result array is in some point's block: column `n` is in the block of point `n / 4096`. -/
theorem arr_covered0 (i : S2x131072.Idx) :
    ∃ t : Fin cfg0.N, (cfg0.win 9).flush t = true ∧ i ∈ ((cfg0.win 9).blk t).view.set := by
  have hi0 : (i 0).val < 2 := idx2_lt0 i
  have hi1 : (i 1).val < 131072 := idx2_lt1 i
  obtain ⟨t, ht⟩ : ∃ t : Fin cfg0.N, t.val = (i 1).val / 4096 :=
    ⟨⟨(i 1).val / 4096, by rw [show cfg0.N = 32 from N_0]; omega⟩, rfl⟩
  have e90 : win0_9.index t (0 : Fin 2) = 0 := (arr_idx_facts0 t).2.2.2.2.2.2.2.2.2.2.2.2.2.2.2.2.2.2.1
  have e91 : win0_9.index t (1 : Fin 2) = t.val := (arr_idx_facts0 t).2.2.2.2.2.2.2.2.2.2.2.2.2.2.2.2.2.2.2
  refine ⟨t, flush0_9 t, ?_⟩
  rw [arr_mem_blk0]
  intro a
  match a with
  | ⟨0, _⟩ => show win0_9.index t (0 : Fin 2) * 2 ≤ (i 0).val ∧ (i 0).val < win0_9.index t (0 : Fin 2) * 2 + 2; rw [e90]; omega
  | ⟨1, _⟩ => show win0_9.index t (1 : Fin 2) * 4096 ≤ (i 1).val ∧ (i 1).val < win0_9.index t (1 : Fin 2) * 4096 + 4096; rw [e91, ht]; omega

/-- The result array after the region: entry `(o, n)` is the perceptron of row `n` of the pooled rows, output `o`, with
    the eight parameter arrays as the region finds them. -/
theorem array0 (c : Dev nD) :
    (dat0 (F := Ideal) V c).arrAt 9 cfg0.N = arrG0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) :=
  (dat0 V c).arrAt_eq_of_cover 9 _ (fun t _ => arr_flushed0_eq V c t) arr_covered0

end Cert.KernelIdeal.Region

end
-- ==== Proof.IdealArray1.lean ====
/-
  Pallas region 1, from its blocks to its result array.

  Point `t` of the region reads rows `4096 t … 4096 t + 4095` of the pooled-row array (width 384) and the whole of the
  eight parameter arrays, and writes columns `4096 t … 4096 t + 4095` of the 2 × 262144 result array: entry `(o, r)` of
  the block it writes is the perceptron of row `4096 t + r`, output `o`.  So every block written is the restriction of
  ONE function of the nine arrays, and the 64 blocks tile the result array (column `n` lies in the block of point
  `n / 4096`): after the region the array holds that function — entry `(o, n)` is the perceptron of pooled row `n`,
  output `o`.
-/
import proofs.«174930_j4569845203353_2_alg».proof.Proof.IdealBody1
import proofs.«174930_j4569845203353_2_alg».proof.Proof.Payload
import proofs.«174930_j4569845203353_2_alg».proof.Proof.Spec
import Idealize.ShloMosaic.Lib.Pipeline.Value
import Idealize.ShloMosaic.Lib.ValueIdx

noncomputable section

namespace Cert.KernelIdeal.Region

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem arr_hz1 : (![0, 0] : Fin 2 → Nat) = fun _ => 0 := funext fun a => by fin_cases a <;> rfl

/-- The result array as one function of the nine arrays the region reads: entry `(o, n)` is the perceptron of row `n`
    of the pooled rows, output `o`. -/
def arrG1 (a0 : S262144x384.Idx → EReal) (a1 : S384x128.Idx → EReal) (a2 : S1x128.Idx → EReal) (a3 : S128x128.Idx → EReal) (a4 : S1x128.Idx → EReal) (a5 : S128x128.Idx → EReal) (a6 : S1x128.Idx → EReal) (a7 : S128x2.Idx → EReal) (a8 : S1x2.Idx → EReal) : S2x262144.Idx → EReal :=
  fun j => Cert.Spec.mlp (fun k => a0 (ix2 (⟨(j 1).val, idx2_lt1 j⟩ : Fin 262144) k)) (fun k j' => a1 (ix2 k j'))
    (fun j' => a2 (ix2 (0 : Fin 1) j')) (fun k j' => a3 (ix2 k j')) (fun j' => a4 (ix2 (0 : Fin 1) j'))
    (fun k j' => a5 (ix2 k j')) (fun j' => a6 (ix2 (0 : Fin 1) j')) (fun k j' => a7 (ix2 k j'))
    (fun j' => a8 (ix2 (0 : Fin 1) j')) (⟨(j 0).val, idx2_lt0 j⟩ : Fin 2)

/-- The printed index maps, decided over the grid: the pooled rows' block index is `(t, 0)`, the result's `(0, t)`, the
    eight parameter arrays' `(0, 0)`. -/
theorem arr_idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = t.val :=
  (by decide +kernel : ∀ t : Fin grid1.N, _)

/-- Window 0's block at point `t` is rows `4096 t …` of the pooled-row array. -/
theorem blk1_0_rows (c : Dev nD) (t : Fin cfg1.N) (r : Fin 4096) (k : Fin 384) (hr : t.val * 4096 + r.val < 262144) :
    (blk1 V c 0 t : Vec Ideal S4096x384 .bf16) (ix2 r k)
      = (V c (Pipeline.arrRef spec1 0) : S262144x384.Idx → EReal) (ix2 (⟨t.val * 4096 + r.val, hr⟩ : Fin 262144) k) := by
  have e0 : win1_0.index t (0 : Fin 2) = t.val := (arr_idx_facts1 t).1
  have e1 : win1_0.index t (1 : Fin 2) = 0 := (arr_idx_facts1 t).2.1
  unfold blk1
  rw [View.read_apply]
  show (V c (Pipeline.arrRef spec1 0) : S262144x384.Idx → EReal) _ = _
  refine congrArg (V c (Pipeline.arrRef spec1 0) : S262144x384.Idx → EReal) (funext fun a => Fin.ext ?_)
  match a with
  | ⟨0, _⟩ => show win1_0.index t (0 : Fin 2) * 4096 + 1 * r.val = t.val * 4096 + r.val; rw [e0]; omega
  | ⟨1, _⟩ => show win1_0.index t (1 : Fin 2) * 384 + 1 * k.val = k.val; rw [e1]; omega

/-- Window 1's block index is constant `(0, 0)` and its block is the whole array: every point reads the array itself. -/
theorem blk1_1_whole (c : Dev nD) (t : Fin cfg1.N) :
    (blk1 V c 1 t : Vec Ideal S384x128 .bf16) = (V c (Pipeline.arrRef spec1 1) : S384x128.Idx → EReal) := by
  have e0 : win1_1.index t (0 : Fin 2) = 0 := (arr_idx_facts1 t).2.2.1
  have e1 : win1_1.index t (1 : Fin 2) = 0 := (arr_idx_facts1 t).2.2.2.1
  funext x
  unfold blk1
  rw [View.read_apply]
  show (V c (Pipeline.arrRef spec1 1) : S384x128.Idx → EReal) _ = _
  refine congrArg (V c (Pipeline.arrRef spec1 1) : S384x128.Idx → EReal) (funext fun a => Fin.ext ?_)
  match a with
  | ⟨0, _⟩ => show win1_1.index t (0 : Fin 2) * 384 + 1 * (x 0).val = (x 0).val; rw [e0]; omega
  | ⟨1, _⟩ => show win1_1.index t (1 : Fin 2) * 128 + 1 * (x 1).val = (x 1).val; rw [e1]; omega

/-- Window 2's block index is constant `(0, 0)` and its block is the whole array: every point reads the array itself. -/
theorem blk1_2_whole (c : Dev nD) (t : Fin cfg1.N) :
    (blk1 V c 2 t : Vec Ideal S1x128 .f32) = (V c (Pipeline.arrRef spec1 2) : S1x128.Idx → EReal) := by
  have e0 : win1_2.index t (0 : Fin 2) = 0 := (arr_idx_facts1 t).2.2.2.2.1
  have e1 : win1_2.index t (1 : Fin 2) = 0 := (arr_idx_facts1 t).2.2.2.2.2.1
  funext x
  unfold blk1
  rw [View.read_apply]
  show (V c (Pipeline.arrRef spec1 2) : S1x128.Idx → EReal) _ = _
  refine congrArg (V c (Pipeline.arrRef spec1 2) : S1x128.Idx → EReal) (funext fun a => Fin.ext ?_)
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-- Window 3's block index is constant `(0, 0)` and its block is the whole array: every point reads the array itself. -/
theorem blk1_3_whole (c : Dev nD) (t : Fin cfg1.N) :
    (blk1 V c 3 t : Vec Ideal S128x128 .bf16) = (V c (Pipeline.arrRef spec1 3) : S128x128.Idx → EReal) := by
  have e0 : win1_3.index t (0 : Fin 2) = 0 := (arr_idx_facts1 t).2.2.2.2.2.2.1
  have e1 : win1_3.index t (1 : Fin 2) = 0 := (arr_idx_facts1 t).2.2.2.2.2.2.2.1
  funext x
  unfold blk1
  rw [View.read_apply]
  show (V c (Pipeline.arrRef spec1 3) : S128x128.Idx → EReal) _ = _
  refine congrArg (V c (Pipeline.arrRef spec1 3) : S128x128.Idx → EReal) (funext fun a => Fin.ext ?_)
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- Window 4's block index is constant `(0, 0)` and its block is the whole array: every point reads the array itself. -/
theorem blk1_4_whole (c : Dev nD) (t : Fin cfg1.N) :
    (blk1 V c 4 t : Vec Ideal S1x128 .f32) = (V c (Pipeline.arrRef spec1 4) : S1x128.Idx → EReal) := by
  have e0 : win1_4.index t (0 : Fin 2) = 0 := (arr_idx_facts1 t).2.2.2.2.2.2.2.2.1
  have e1 : win1_4.index t (1 : Fin 2) = 0 := (arr_idx_facts1 t).2.2.2.2.2.2.2.2.2.1
  funext x
  unfold blk1
  rw [View.read_apply]
  show (V c (Pipeline.arrRef spec1 4) : S1x128.Idx → EReal) _ = _
  refine congrArg (V c (Pipeline.arrRef spec1 4) : S1x128.Idx → EReal) (funext fun a => Fin.ext ?_)
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- Window 5's block index is constant `(0, 0)` and its block is the whole array: every point reads the array itself. -/
theorem blk1_5_whole (c : Dev nD) (t : Fin cfg1.N) :
    (blk1 V c 5 t : Vec Ideal S128x128 .bf16) = (V c (Pipeline.arrRef spec1 5) : S128x128.Idx → EReal) := by
  have e0 : win1_5.index t (0 : Fin 2) = 0 := (arr_idx_facts1 t).2.2.2.2.2.2.2.2.2.2.1
  have e1 : win1_5.index t (1 : Fin 2) = 0 := (arr_idx_facts1 t).2.2.2.2.2.2.2.2.2.2.2.1
  funext x
  unfold blk1
  rw [View.read_apply]
  show (V c (Pipeline.arrRef spec1 5) : S128x128.Idx → EReal) _ = _
  refine congrArg (V c (Pipeline.arrRef spec1 5) : S128x128.Idx → EReal) (funext fun a => Fin.ext ?_)
  match a with
  | ⟨0, _⟩ => show win1_5.index t (0 : Fin 2) * 128 + 1 * (x 0).val = (x 0).val; rw [e0]; omega
  | ⟨1, _⟩ => show win1_5.index t (1 : Fin 2) * 128 + 1 * (x 1).val = (x 1).val; rw [e1]; omega

/-- Window 6's block index is constant `(0, 0)` and its block is the whole array: every point reads the array itself. -/
theorem blk1_6_whole (c : Dev nD) (t : Fin cfg1.N) :
    (blk1 V c 6 t : Vec Ideal S1x128 .f32) = (V c (Pipeline.arrRef spec1 6) : S1x128.Idx → EReal) := by
  have e0 : win1_6.index t (0 : Fin 2) = 0 := (arr_idx_facts1 t).2.2.2.2.2.2.2.2.2.2.2.2.1
  have e1 : win1_6.index t (1 : Fin 2) = 0 := (arr_idx_facts1 t).2.2.2.2.2.2.2.2.2.2.2.2.2.1
  funext x
  unfold blk1
  rw [View.read_apply]
  show (V c (Pipeline.arrRef spec1 6) : S1x128.Idx → EReal) _ = _
  refine congrArg (V c (Pipeline.arrRef spec1 6) : S1x128.Idx → EReal) (funext fun a => Fin.ext ?_)
  match a with
  | ⟨0, _⟩ => show win1_6.index t (0 : Fin 2) * 1 + 1 * (x 0).val = (x 0).val; rw [e0]; omega
  | ⟨1, _⟩ => show win1_6.index t (1 : Fin 2) * 128 + 1 * (x 1).val = (x 1).val; rw [e1]; omega

/-- Window 7's block index is constant `(0, 0)` and its block is the whole array: every point reads the array itself. -/
theorem blk1_7_whole (c : Dev nD) (t : Fin cfg1.N) :
    (blk1 V c 7 t : Vec Ideal S128x2 .bf16) = (V c (Pipeline.arrRef spec1 7) : S128x2.Idx → EReal) := by
  have e0 : win1_7.index t (0 : Fin 2) = 0 := (arr_idx_facts1 t).2.2.2.2.2.2.2.2.2.2.2.2.2.2.1
  have e1 : win1_7.index t (1 : Fin 2) = 0 := (arr_idx_facts1 t).2.2.2.2.2.2.2.2.2.2.2.2.2.2.2.1
  funext x
  unfold blk1
  rw [View.read_apply]
  show (V c (Pipeline.arrRef spec1 7) : S128x2.Idx → EReal) _ = _
  refine congrArg (V c (Pipeline.arrRef spec1 7) : S128x2.Idx → EReal) (funext fun a => Fin.ext ?_)
  match a with
  | ⟨0, _⟩ => show win1_7.index t (0 : Fin 2) * 128 + 1 * (x 0).val = (x 0).val; rw [e0]; omega
  | ⟨1, _⟩ => show win1_7.index t (1 : Fin 2) * 2 + 1 * (x 1).val = (x 1).val; rw [e1]; omega

/-- Window 8's block index is constant `(0, 0)` and its block is the whole array: every point reads the array itself. -/
theorem blk1_8_whole (c : Dev nD) (t : Fin cfg1.N) :
    (blk1 V c 8 t : Vec Ideal S1x2 .f32) = (V c (Pipeline.arrRef spec1 8) : S1x2.Idx → EReal) := by
  have e0 : win1_8.index t (0 : Fin 2) = 0 := (arr_idx_facts1 t).2.2.2.2.2.2.2.2.2.2.2.2.2.2.2.2.1
  have e1 : win1_8.index t (1 : Fin 2) = 0 := (arr_idx_facts1 t).2.2.2.2.2.2.2.2.2.2.2.2.2.2.2.2.2.1
  funext x
  unfold blk1
  rw [View.read_apply]
  show (V c (Pipeline.arrRef spec1 8) : S1x2.Idx → EReal) _ = _
  refine congrArg (V c (Pipeline.arrRef spec1 8) : S1x2.Idx → EReal) (funext fun a => Fin.ext ?_)
  match a with
  | ⟨0, _⟩ => show win1_8.index t (0 : Fin 2) * 1 + 1 * (x 0).val = (x 0).val; rw [e0]; omega
  | ⟨1, _⟩ => show win1_8.index t (1 : Fin 2) * 2 + 1 * (x 1).val = (x 1).val; rw [e1]; omega

/-- One entry of the block a point writes.  If the point's pooled-row block is rows `4096 T …` of the pooled-row array
    and its other eight blocks are the parameter arrays themselves, then entry `y` of the body's result is the result
    array's function at the index `i` with the same row coordinate and column `4096 T + y 1`. -/
theorem arr_point1 (x0 : Vec Ideal S4096x384 .bf16) (x1 : Vec Ideal S384x128 .bf16) (x2 : Vec Ideal S1x128 .f32) (x3 : Vec Ideal S128x128 .bf16) (x4 : Vec Ideal S1x128 .f32) (x5 : Vec Ideal S128x128 .bf16) (x6 : Vec Ideal S1x128 .f32) (x7 : Vec Ideal S128x2 .bf16) (x8 : Vec Ideal S1x2 .f32)
    (a0 : S262144x384.Idx → EReal) (a1 : S384x128.Idx → EReal) (a2 : S1x128.Idx → EReal) (a3 : S128x128.Idx → EReal) (a4 : S1x128.Idx → EReal) (a5 : S128x128.Idx → EReal) (a6 : S1x128.Idx → EReal) (a7 : S128x2.Idx → EReal) (a8 : S1x2.Idx → EReal) (T : ℕ)
    (h0 : ∀ (r : Fin 4096) (k : Fin 384) (hr : T * 4096 + r.val < 262144), x0 (ix2 r k) = a0 (ix2 (⟨T * 4096 + r.val, hr⟩ : Fin 262144) k))
    (h1 : x1 = a1) (h2 : x2 = a2) (h3 : x3 = a3) (h4 : x4 = a4) (h5 : x5 = a5) (h6 : x6 = a6) (h7 : x7 = a7) (h8 : x8 = a8)
    (y : S2x4096.Idx) (i : S2x262144.Idx) (hi0 : (i 0).val = (y 0).val) (hi1 : (i 1).val = T * 4096 + (y 1).val) :
    k1_pay1 (F := Ideal) (k1_pay2 (F := Ideal) x0 x1 x2 x3 x4 x5 x6 x7) x8 y = arrG1 a0 a1 a2 a3 a4 a5 a6 a7 a8 i := by
  subst h1 h2 h3 h4 h5 h6 h7 h8
  obtain ⟨o, r, rfl⟩ : ∃ (o : Fin 2) (r : Fin 4096), y = ix2 o r := ⟨y 0, y 1, eq_ix2 y⟩
  rw [Cert.Payload.pay1]
  unfold arrG1
  have hr : T * 4096 + r.val < 262144 := by have h := idx2_lt1 i; rw [hi1] at h; exact h
  have e1 : (⟨(i 1).val, idx2_lt1 i⟩ : Fin 262144) = ⟨T * 4096 + r.val, hr⟩ := Fin.ext hi1
  have e0 : (⟨(i 0).val, idx2_lt0 i⟩ : Fin 2) = o := Fin.ext hi0
  have hf : (fun k => x0 (ix2 r k)) = fun k => a0 (ix2 (⟨(i 1).val, idx2_lt1 i⟩ : Fin 262144) k) :=
    funext fun k => (h0 r k hr).trans (congrArg (fun q => a0 (ix2 q k)) e1.symm)
  exact congrArg₂ (fun f q => Cert.Spec.mlp f _ _ _ _ _ _ _ _ q) hf e0.symm

set_option maxHeartbeats 2000000 in
/-- What point `t` writes back is block `t` of the result array's function of the nine arrays as the region finds them. -/
theorem arr_flushed1_eq (c : Dev nD) (t : Fin cfg1.N) :
    (dat1 (F := Ideal) V c).flushed 9 t
      = ((cfg1.win 9).blk t).view.read (Elt Ideal) (arrG1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8))) := by
  show (cfg1.win 9).cut (grid1.coords t) ((dat1 V c).after 9 t) = _
  rw [after1_9]
  unfold out1
  rw [View.canon_unit_zero arr_hz1]
  simp only [View.ld_unit_zero (S := S4096x384) arr_hz1, View.ld_unit_zero (S := S384x128) arr_hz1, View.ld_unit_zero (S := S1x128) arr_hz1, View.ld_unit_zero (S := S128x128) arr_hz1, View.ld_unit_zero (S := S128x2) arr_hz1, View.ld_unit_zero (S := S1x2) arr_hz1]
  have e90 : win1_9.index t (0 : Fin 2) = 0 := (arr_idx_facts1 t).2.2.2.2.2.2.2.2.2.2.2.2.2.2.2.2.2.2.1
  have e91 : win1_9.index t (1 : Fin 2) = t.val := (arr_idx_facts1 t).2.2.2.2.2.2.2.2.2.2.2.2.2.2.2.2.2.2.2
  funext y
  show k1_pay1 (F := Ideal) (k1_pay2 (F := Ideal) (blk1 V c 0 t) (blk1 V c 1 t) (blk1 V c 2 t) (blk1 V c 3 t) (blk1 V c 4 t) (blk1 V c 5 t) (blk1 V c 6 t) (blk1 V c 7 t)) (blk1 V c 8 t) ((cfg1.win 9).xinj (grid1.coords t) y)
    = arrG1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (((cfg1.win 9).blk t).view.emb y)
  refine arr_point1 _ _ _ _ _ _ _ _ _ _ _ _ _ _ _ _ _ _ t.val (fun r k hr => blk1_0_rows V c t r k hr)
    (blk1_1_whole V c t) (blk1_2_whole V c t) (blk1_3_whole V c t) (blk1_4_whole V c t) (blk1_5_whole V c t) (blk1_6_whole V c t) (blk1_7_whole V c t) (blk1_8_whole V c t) _ _ ?_ ?_
  · show win1_9.index t (0 : Fin 2) * 2 + 1 * (y 0).val = (y 0).val; rw [e90]; omega
  · show win1_9.index t (1 : Fin 2) * 4096 + 1 * (y 1).val = t.val * 4096 + (y 1).val; rw [e91]; omega

/-- An index of the result array is in point `t`'s block iff each coordinate is in the block's range on its axis. -/
theorem arr_mem_blk1 (t : Fin cfg1.N) (i : S2x262144.Idx) :
    i ∈ ((cfg1.win 9).blk t).view.set ↔ ∀ a : Fin 2, win1_9.index t a * S2x4096.size a ≤ (i a).val ∧ (i a).val < win1_9.index t a * S2x4096.size a + S2x4096.size a := by
  show i ∈ ((View.whole main_v45).slice (win1_9.rect t)).set ↔ _
  rw [View.set_slice_whole, Rect.mem_set_unit]
  exact Iff.rfl

/-- Every index of the result array is in some point's block: column `n` is in the block of point `n / 4096`. -/
theorem arr_covered1 (i : S2x262144.Idx) :
    ∃ t : Fin cfg1.N, (cfg1.win 9).flush t = true ∧ i ∈ ((cfg1.win 9).blk t).view.set := by
  have hi0 : (i 0).val < 2 := idx2_lt0 i
  have hi1 : (i 1).val < 262144 := idx2_lt1 i
  obtain ⟨t, ht⟩ : ∃ t : Fin cfg1.N, t.val = (i 1).val / 4096 :=
    ⟨⟨(i 1).val / 4096, by rw [show cfg1.N = 64 from N_1]; omega⟩, rfl⟩
  have e90 : win1_9.index t (0 : Fin 2) = 0 := (arr_idx_facts1 t).2.2.2.2.2.2.2.2.2.2.2.2.2.2.2.2.2.2.1
  have e91 : win1_9.index t (1 : Fin 2) = t.val := (arr_idx_facts1 t).2.2.2.2.2.2.2.2.2.2.2.2.2.2.2.2.2.2.2
  refine ⟨t, flush1_9 t, ?_⟩
  rw [arr_mem_blk1]
  intro a
  match a with
  | ⟨0, _⟩ => show win1_9.index t (0 : Fin 2) * 2 ≤ (i 0).val ∧ (i 0).val < win1_9.index t (0 : Fin 2) * 2 + 2; rw [e90]; omega
  | ⟨1, _⟩ => show win1_9.index t (1 : Fin 2) * 4096 ≤ (i 1).val ∧ (i 1).val < win1_9.index t (1 : Fin 2) * 4096 + 4096; rw [e91, ht]; omega

/-- The result array after the region: entry `(o, n)` is the perceptron of row `n` of the pooled rows, output `o`, with
    the eight parameter arrays as the region finds them. -/
theorem array1 (c : Dev nD) :
    (dat1 (F := Ideal) V c).arrAt 9 cfg1.N = arrG1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) :=
  (dat1 V c).arrAt_eq_of_cover 9 _ (fun t _ => arr_flushed1_eq V c t) arr_covered1

end Cert.KernelIdeal.Region

end
-- ==== Proof.IdealArray2.lean ====
/-
  Pallas region 2, from its blocks to its result array.

  Point `t` of the region reads rows `4096 t … 4096 t + 4095` of the pooled-row array (width 512) and the whole of the
  eight parameter arrays, and writes columns `4096 t … 4096 t + 4095` of the 2 × 393216 result array: entry `(o, r)` of
  the block it writes is the perceptron of row `4096 t + r`, output `o`.  So every block written is the restriction of
  ONE function of the nine arrays, and the 96 blocks tile the result array (column `n` lies in the block of point
  `n / 4096`): after the region the array holds that function — entry `(o, n)` is the perceptron of pooled row `n`,
  output `o`.
-/
import proofs.«174930_j4569845203353_2_alg».proof.Proof.IdealBody2
import proofs.«174930_j4569845203353_2_alg».proof.Proof.Payload
import proofs.«174930_j4569845203353_2_alg».proof.Proof.Spec
import Idealize.ShloMosaic.Lib.Pipeline.Value
import Idealize.ShloMosaic.Lib.ValueIdx

noncomputable section

namespace Cert.KernelIdeal.Region

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem arr_hz2 : (![0, 0] : Fin 2 → Nat) = fun _ => 0 := funext fun a => by fin_cases a <;> rfl

/-- The result array as one function of the nine arrays the region reads: entry `(o, n)` is the perceptron of row `n`
    of the pooled rows, output `o`. -/
def arrG2 (a0 : S393216x512.Idx → EReal) (a1 : S512x128.Idx → EReal) (a2 : S1x128.Idx → EReal) (a3 : S128x128.Idx → EReal) (a4 : S1x128.Idx → EReal) (a5 : S128x128.Idx → EReal) (a6 : S1x128.Idx → EReal) (a7 : S128x2.Idx → EReal) (a8 : S1x2.Idx → EReal) : S2x393216.Idx → EReal :=
  fun j => Cert.Spec.mlp (fun k => a0 (ix2 (⟨(j 1).val, idx2_lt1 j⟩ : Fin 393216) k)) (fun k j' => a1 (ix2 k j'))
    (fun j' => a2 (ix2 (0 : Fin 1) j')) (fun k j' => a3 (ix2 k j')) (fun j' => a4 (ix2 (0 : Fin 1) j'))
    (fun k j' => a5 (ix2 k j')) (fun j' => a6 (ix2 (0 : Fin 1) j')) (fun k j' => a7 (ix2 k j'))
    (fun j' => a8 (ix2 (0 : Fin 1) j')) (⟨(j 0).val, idx2_lt0 j⟩ : Fin 2)

/-- The printed index maps, decided over the grid: the pooled rows' block index is `(t, 0)`, the result's `(0, t)`, the
    eight parameter arrays' `(0, 0)`. -/
theorem arr_idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = t.val :=
  (by decide +kernel : ∀ t : Fin grid2.N, _)

/-- Window 0's block at point `t` is rows `4096 t …` of the pooled-row array. -/
theorem blk2_0_rows (c : Dev nD) (t : Fin cfg2.N) (r : Fin 4096) (k : Fin 512) (hr : t.val * 4096 + r.val < 393216) :
    (blk2 V c 0 t : Vec Ideal S4096x512 .bf16) (ix2 r k)
      = (V c (Pipeline.arrRef spec2 0) : S393216x512.Idx → EReal) (ix2 (⟨t.val * 4096 + r.val, hr⟩ : Fin 393216) k) := by
  have e0 : win2_0.index t (0 : Fin 2) = t.val := (arr_idx_facts2 t).1
  have e1 : win2_0.index t (1 : Fin 2) = 0 := (arr_idx_facts2 t).2.1
  unfold blk2
  rw [View.read_apply]
  show (V c (Pipeline.arrRef spec2 0) : S393216x512.Idx → EReal) _ = _
  refine congrArg (V c (Pipeline.arrRef spec2 0) : S393216x512.Idx → EReal) (funext fun a => Fin.ext ?_)
  match a with
  | ⟨0, _⟩ => show win2_0.index t (0 : Fin 2) * 4096 + 1 * r.val = t.val * 4096 + r.val; rw [e0]; omega
  | ⟨1, _⟩ => show win2_0.index t (1 : Fin 2) * 512 + 1 * k.val = k.val; rw [e1]; omega

/-- Window 1's block index is constant `(0, 0)` and its block is the whole array: every point reads the array itself. -/
theorem blk2_1_whole (c : Dev nD) (t : Fin cfg2.N) :
    (blk2 V c 1 t : Vec Ideal S512x128 .bf16) = (V c (Pipeline.arrRef spec2 1) : S512x128.Idx → EReal) := by
  have e0 : win2_1.index t (0 : Fin 2) = 0 := (arr_idx_facts2 t).2.2.1
  have e1 : win2_1.index t (1 : Fin 2) = 0 := (arr_idx_facts2 t).2.2.2.1
  funext x
  unfold blk2
  rw [View.read_apply]
  show (V c (Pipeline.arrRef spec2 1) : S512x128.Idx → EReal) _ = _
  refine congrArg (V c (Pipeline.arrRef spec2 1) : S512x128.Idx → EReal) (funext fun a => Fin.ext ?_)
  match a with
  | ⟨0, _⟩ => show win2_1.index t (0 : Fin 2) * 512 + 1 * (x 0).val = (x 0).val; rw [e0]; omega
  | ⟨1, _⟩ => show win2_1.index t (1 : Fin 2) * 128 + 1 * (x 1).val = (x 1).val; rw [e1]; omega

/-- Window 2's block index is constant `(0, 0)` and its block is the whole array: every point reads the array itself. -/
theorem blk2_2_whole (c : Dev nD) (t : Fin cfg2.N) :
    (blk2 V c 2 t : Vec Ideal S1x128 .f32) = (V c (Pipeline.arrRef spec2 2) : S1x128.Idx → EReal) := by
  have e0 : win2_2.index t (0 : Fin 2) = 0 := (arr_idx_facts2 t).2.2.2.2.1
  have e1 : win2_2.index t (1 : Fin 2) = 0 := (arr_idx_facts2 t).2.2.2.2.2.1
  funext x
  unfold blk2
  rw [View.read_apply]
  show (V c (Pipeline.arrRef spec2 2) : S1x128.Idx → EReal) _ = _
  refine congrArg (V c (Pipeline.arrRef spec2 2) : S1x128.Idx → EReal) (funext fun a => Fin.ext ?_)
  match a with
  | ⟨0, _⟩ => show win2_2.index t (0 : Fin 2) * 1 + 1 * (x 0).val = (x 0).val; rw [e0]; omega
  | ⟨1, _⟩ => show win2_2.index t (1 : Fin 2) * 128 + 1 * (x 1).val = (x 1).val; rw [e1]; omega

/-- Window 3's block index is constant `(0, 0)` and its block is the whole array: every point reads the array itself. -/
theorem blk2_3_whole (c : Dev nD) (t : Fin cfg2.N) :
    (blk2 V c 3 t : Vec Ideal S128x128 .bf16) = (V c (Pipeline.arrRef spec2 3) : S128x128.Idx → EReal) := by
  have e0 : win2_3.index t (0 : Fin 2) = 0 := (arr_idx_facts2 t).2.2.2.2.2.2.1
  have e1 : win2_3.index t (1 : Fin 2) = 0 := (arr_idx_facts2 t).2.2.2.2.2.2.2.1
  funext x
  unfold blk2
  rw [View.read_apply]
  show (V c (Pipeline.arrRef spec2 3) : S128x128.Idx → EReal) _ = _
  refine congrArg (V c (Pipeline.arrRef spec2 3) : S128x128.Idx → EReal) (funext fun a => Fin.ext ?_)
  match a with
  | ⟨0, _⟩ => show win2_3.index t (0 : Fin 2) * 128 + 1 * (x 0).val = (x 0).val; rw [e0]; omega
  | ⟨1, _⟩ => show win2_3.index t (1 : Fin 2) * 128 + 1 * (x 1).val = (x 1).val; rw [e1]; omega

/-- Window 4's block index is constant `(0, 0)` and its block is the whole array: every point reads the array itself. -/
theorem blk2_4_whole (c : Dev nD) (t : Fin cfg2.N) :
    (blk2 V c 4 t : Vec Ideal S1x128 .f32) = (V c (Pipeline.arrRef spec2 4) : S1x128.Idx → EReal) := by
  have e0 : win2_4.index t (0 : Fin 2) = 0 := (arr_idx_facts2 t).2.2.2.2.2.2.2.2.1
  have e1 : win2_4.index t (1 : Fin 2) = 0 := (arr_idx_facts2 t).2.2.2.2.2.2.2.2.2.1
  funext x
  unfold blk2
  rw [View.read_apply]
  show (V c (Pipeline.arrRef spec2 4) : S1x128.Idx → EReal) _ = _
  refine congrArg (V c (Pipeline.arrRef spec2 4) : S1x128.Idx → EReal) (funext fun a => Fin.ext ?_)
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-- Window 5's block index is constant `(0, 0)` and its block is the whole array: every point reads the array itself. -/
theorem blk2_5_whole (c : Dev nD) (t : Fin cfg2.N) :
    (blk2 V c 5 t : Vec Ideal S128x128 .bf16) = (V c (Pipeline.arrRef spec2 5) : S128x128.Idx → EReal) := by
  have e0 : win2_5.index t (0 : Fin 2) = 0 := (arr_idx_facts2 t).2.2.2.2.2.2.2.2.2.2.1
  have e1 : win2_5.index t (1 : Fin 2) = 0 := (arr_idx_facts2 t).2.2.2.2.2.2.2.2.2.2.2.1
  funext x
  unfold blk2
  rw [View.read_apply]
  show (V c (Pipeline.arrRef spec2 5) : S128x128.Idx → EReal) _ = _
  refine congrArg (V c (Pipeline.arrRef spec2 5) : S128x128.Idx → EReal) (funext fun a => Fin.ext ?_)
  match a with
  | ⟨0, _⟩ => show win2_5.index t (0 : Fin 2) * 128 + 1 * (x 0).val = (x 0).val; rw [e0]; omega
  | ⟨1, _⟩ => show win2_5.index t (1 : Fin 2) * 128 + 1 * (x 1).val = (x 1).val; rw [e1]; omega

/-- Window 6's block index is constant `(0, 0)` and its block is the whole array: every point reads the array itself. -/
theorem blk2_6_whole (c : Dev nD) (t : Fin cfg2.N) :
    (blk2 V c 6 t : Vec Ideal S1x128 .f32) = (V c (Pipeline.arrRef spec2 6) : S1x128.Idx → EReal) := by
  have e0 : win2_6.index t (0 : Fin 2) = 0 := (arr_idx_facts2 t).2.2.2.2.2.2.2.2.2.2.2.2.1
  have e1 : win2_6.index t (1 : Fin 2) = 0 := (arr_idx_facts2 t).2.2.2.2.2.2.2.2.2.2.2.2.2.1
  funext x
  unfold blk2
  rw [View.read_apply]
  show (V c (Pipeline.arrRef spec2 6) : S1x128.Idx → EReal) _ = _
  refine congrArg (V c (Pipeline.arrRef spec2 6) : S1x128.Idx → EReal) (funext fun a => Fin.ext ?_)
  match a with
  | ⟨0, _⟩ => show win2_6.index t (0 : Fin 2) * 1 + 1 * (x 0).val = (x 0).val; rw [e0]; omega
  | ⟨1, _⟩ => show win2_6.index t (1 : Fin 2) * 128 + 1 * (x 1).val = (x 1).val; rw [e1]; omega

/-- Window 7's block index is constant `(0, 0)` and its block is the whole array: every point reads the array itself. -/
theorem blk2_7_whole (c : Dev nD) (t : Fin cfg2.N) :
    (blk2 V c 7 t : Vec Ideal S128x2 .bf16) = (V c (Pipeline.arrRef spec2 7) : S128x2.Idx → EReal) := by
  have e0 : win2_7.index t (0 : Fin 2) = 0 := (arr_idx_facts2 t).2.2.2.2.2.2.2.2.2.2.2.2.2.2.1
  have e1 : win2_7.index t (1 : Fin 2) = 0 := (arr_idx_facts2 t).2.2.2.2.2.2.2.2.2.2.2.2.2.2.2.1
  funext x
  unfold blk2
  rw [View.read_apply]
  show (V c (Pipeline.arrRef spec2 7) : S128x2.Idx → EReal) _ = _
  refine congrArg (V c (Pipeline.arrRef spec2 7) : S128x2.Idx → EReal) (funext fun a => Fin.ext ?_)
  match a with
  | ⟨0, _⟩ => show win2_7.index t (0 : Fin 2) * 128 + 1 * (x 0).val = (x 0).val; rw [e0]; omega
  | ⟨1, _⟩ => show win2_7.index t (1 : Fin 2) * 2 + 1 * (x 1).val = (x 1).val; rw [e1]; omega

/-- Window 8's block index is constant `(0, 0)` and its block is the whole array: every point reads the array itself. -/
theorem blk2_8_whole (c : Dev nD) (t : Fin cfg2.N) :
    (blk2 V c 8 t : Vec Ideal S1x2 .f32) = (V c (Pipeline.arrRef spec2 8) : S1x2.Idx → EReal) := by
  have e0 : win2_8.index t (0 : Fin 2) = 0 := (arr_idx_facts2 t).2.2.2.2.2.2.2.2.2.2.2.2.2.2.2.2.1
  have e1 : win2_8.index t (1 : Fin 2) = 0 := (arr_idx_facts2 t).2.2.2.2.2.2.2.2.2.2.2.2.2.2.2.2.2.1
  funext x
  unfold blk2
  rw [View.read_apply]
  show (V c (Pipeline.arrRef spec2 8) : S1x2.Idx → EReal) _ = _
  refine congrArg (V c (Pipeline.arrRef spec2 8) : S1x2.Idx → EReal) (funext fun a => Fin.ext ?_)
  match a with
  | ⟨0, _⟩ => show win2_8.index t (0 : Fin 2) * 1 + 1 * (x 0).val = (x 0).val; rw [e0]; omega
  | ⟨1, _⟩ => show win2_8.index t (1 : Fin 2) * 2 + 1 * (x 1).val = (x 1).val; rw [e1]; omega

/-- One entry of the block a point writes.  If the point's pooled-row block is rows `4096 T …` of the pooled-row array
    and its other eight blocks are the parameter arrays themselves, then entry `y` of the body's result is the result
    array's function at the index `i` with the same row coordinate and column `4096 T + y 1`. -/
theorem arr_point2 (x0 : Vec Ideal S4096x512 .bf16) (x1 : Vec Ideal S512x128 .bf16) (x2 : Vec Ideal S1x128 .f32) (x3 : Vec Ideal S128x128 .bf16) (x4 : Vec Ideal S1x128 .f32) (x5 : Vec Ideal S128x128 .bf16) (x6 : Vec Ideal S1x128 .f32) (x7 : Vec Ideal S128x2 .bf16) (x8 : Vec Ideal S1x2 .f32)
    (a0 : S393216x512.Idx → EReal) (a1 : S512x128.Idx → EReal) (a2 : S1x128.Idx → EReal) (a3 : S128x128.Idx → EReal) (a4 : S1x128.Idx → EReal) (a5 : S128x128.Idx → EReal) (a6 : S1x128.Idx → EReal) (a7 : S128x2.Idx → EReal) (a8 : S1x2.Idx → EReal) (T : ℕ)
    (h0 : ∀ (r : Fin 4096) (k : Fin 512) (hr : T * 4096 + r.val < 393216), x0 (ix2 r k) = a0 (ix2 (⟨T * 4096 + r.val, hr⟩ : Fin 393216) k))
    (h1 : x1 = a1) (h2 : x2 = a2) (h3 : x3 = a3) (h4 : x4 = a4) (h5 : x5 = a5) (h6 : x6 = a6) (h7 : x7 = a7) (h8 : x8 = a8)
    (y : S2x4096.Idx) (i : S2x393216.Idx) (hi0 : (i 0).val = (y 0).val) (hi1 : (i 1).val = T * 4096 + (y 1).val) :
    k2_pay1 (F := Ideal) (k2_pay2 (F := Ideal) x0 x1 x2 x3 x4 x5 x6 x7) x8 y = arrG2 a0 a1 a2 a3 a4 a5 a6 a7 a8 i := by
  subst h1 h2 h3 h4 h5 h6 h7 h8
  obtain ⟨o, r, rfl⟩ : ∃ (o : Fin 2) (r : Fin 4096), y = ix2 o r := ⟨y 0, y 1, eq_ix2 y⟩
  rw [Cert.Payload.pay2]
  unfold arrG2
  have hr : T * 4096 + r.val < 393216 := by have h := idx2_lt1 i; rw [hi1] at h; exact h
  have e1 : (⟨(i 1).val, idx2_lt1 i⟩ : Fin 393216) = ⟨T * 4096 + r.val, hr⟩ := Fin.ext hi1
  have e0 : (⟨(i 0).val, idx2_lt0 i⟩ : Fin 2) = o := Fin.ext hi0
  have hf : (fun k => x0 (ix2 r k)) = fun k => a0 (ix2 (⟨(i 1).val, idx2_lt1 i⟩ : Fin 393216) k) :=
    funext fun k => (h0 r k hr).trans (congrArg (fun q => a0 (ix2 q k)) e1.symm)
  exact congrArg₂ (fun f q => Cert.Spec.mlp f _ _ _ _ _ _ _ _ q) hf e0.symm

set_option maxHeartbeats 2000000 in
/-- What point `t` writes back is block `t` of the result array's function of the nine arrays as the region finds them. -/
theorem arr_flushed2_eq (c : Dev nD) (t : Fin cfg2.N) :
    (dat2 (F := Ideal) V c).flushed 9 t
      = ((cfg2.win 9).blk t).view.read (Elt Ideal) (arrG2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))) := by
  show (cfg2.win 9).cut (grid2.coords t) ((dat2 V c).after 9 t) = _
  rw [after2_9]
  unfold out2
  rw [View.canon_unit_zero arr_hz2]
  simp only [View.ld_unit_zero (S := S4096x512) arr_hz2, View.ld_unit_zero (S := S512x128) arr_hz2, View.ld_unit_zero (S := S1x128) arr_hz2, View.ld_unit_zero (S := S128x128) arr_hz2, View.ld_unit_zero (S := S128x2) arr_hz2, View.ld_unit_zero (S := S1x2) arr_hz2]
  have e90 : win2_9.index t (0 : Fin 2) = 0 := (arr_idx_facts2 t).2.2.2.2.2.2.2.2.2.2.2.2.2.2.2.2.2.2.1
  have e91 : win2_9.index t (1 : Fin 2) = t.val := (arr_idx_facts2 t).2.2.2.2.2.2.2.2.2.2.2.2.2.2.2.2.2.2.2
  funext y
  show k2_pay1 (F := Ideal) (k2_pay2 (F := Ideal) (blk2 V c 0 t) (blk2 V c 1 t) (blk2 V c 2 t) (blk2 V c 3 t) (blk2 V c 4 t) (blk2 V c 5 t) (blk2 V c 6 t) (blk2 V c 7 t)) (blk2 V c 8 t) ((cfg2.win 9).xinj (grid2.coords t) y)
    = arrG2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (((cfg2.win 9).blk t).view.emb y)
  refine arr_point2 _ _ _ _ _ _ _ _ _ _ _ _ _ _ _ _ _ _ t.val (fun r k hr => blk2_0_rows V c t r k hr)
    (blk2_1_whole V c t) (blk2_2_whole V c t) (blk2_3_whole V c t) (blk2_4_whole V c t) (blk2_5_whole V c t) (blk2_6_whole V c t) (blk2_7_whole V c t) (blk2_8_whole V c t) _ _ ?_ ?_
  · show win2_9.index t (0 : Fin 2) * 2 + 1 * (y 0).val = (y 0).val; rw [e90]; omega
  · show win2_9.index t (1 : Fin 2) * 4096 + 1 * (y 1).val = t.val * 4096 + (y 1).val; rw [e91]; omega

/-- An index of the result array is in point `t`'s block iff each coordinate is in the block's range on its axis. -/
theorem arr_mem_blk2 (t : Fin cfg2.N) (i : S2x393216.Idx) :
    i ∈ ((cfg2.win 9).blk t).view.set ↔ ∀ a : Fin 2, win2_9.index t a * S2x4096.size a ≤ (i a).val ∧ (i a).val < win2_9.index t a * S2x4096.size a + S2x4096.size a := by
  show i ∈ ((View.whole main_v68).slice (win2_9.rect t)).set ↔ _
  rw [View.set_slice_whole, Rect.mem_set_unit]
  exact Iff.rfl

/-- Every index of the result array is in some point's block: column `n` is in the block of point `n / 4096`. -/
theorem arr_covered2 (i : S2x393216.Idx) :
    ∃ t : Fin cfg2.N, (cfg2.win 9).flush t = true ∧ i ∈ ((cfg2.win 9).blk t).view.set := by
  have hi0 : (i 0).val < 2 := idx2_lt0 i
  have hi1 : (i 1).val < 393216 := idx2_lt1 i
  obtain ⟨t, ht⟩ : ∃ t : Fin cfg2.N, t.val = (i 1).val / 4096 :=
    ⟨⟨(i 1).val / 4096, by rw [show cfg2.N = 96 from N_2]; omega⟩, rfl⟩
  have e90 : win2_9.index t (0 : Fin 2) = 0 := (arr_idx_facts2 t).2.2.2.2.2.2.2.2.2.2.2.2.2.2.2.2.2.2.1
  have e91 : win2_9.index t (1 : Fin 2) = t.val := (arr_idx_facts2 t).2.2.2.2.2.2.2.2.2.2.2.2.2.2.2.2.2.2.2
  refine ⟨t, flush2_9 t, ?_⟩
  rw [arr_mem_blk2]
  intro a
  match a with
  | ⟨0, _⟩ => show win2_9.index t (0 : Fin 2) * 2 ≤ (i 0).val ∧ (i 0).val < win2_9.index t (0 : Fin 2) * 2 + 2; rw [e90]; omega
  | ⟨1, _⟩ => show win2_9.index t (1 : Fin 2) * 4096 ≤ (i 1).val ∧ (i 1).val < win2_9.index t (1 : Fin 2) * 4096 + 4096; rw [e91, ht]; omega

/-- The result array after the region: entry `(o, n)` is the perceptron of row `n` of the pooled rows, output `o`, with
    the eight parameter arrays as the region finds them. -/
theorem array2 (c : Dev nD) :
    (dat2 (F := Ideal) V c).arrAt 9 cfg2.N = arrG2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) :=
  (dat2 V c).arrAt_eq_of_cover 9 _ (fun t _ => arr_flushed2_eq V c t) arr_covered2

end Cert.KernelIdeal.Region

end
-- ==== Proof.HostGlue0.lean ====
/-
  Layout facts the host stretches need, over arbitrary arrays of the literal shapes.

  * Three arrays of two columns laid one after another along the row axis: row `i` of the result is row `i` of the
    first piece while `i < 131072`, row `i - 131072` of the second while `i < 393216`, row `i - 393216` of the third
    otherwise.
  * A stack `[N, L, 128]` flattened row-major to `[N, L·128]`: entry `(r, k)` is entry `(r, k / 128, k % 128)` of the
    stack; applied to a pointwise sum of two stacks this is the pooled row of the specification.
  * A vector reshaped to a single row keeps its entries.
-/
import Idealize.ShloMosaic.Lib.ValueLayout
import proofs.«174930_j4569845203353_2_alg».proof.Proof.Spec

noncomputable section

namespace Cert.HostGlue

open Idealize.ShloMosaic Idealize.ShloMosaic.ValueIdx

/-- Three two-column arrays concatenated along the rows, read at row `i`, column `o`: the specification's stacking. -/
theorem concat3_apply (x2 : (⟨2, ![131072, 2]⟩ : Shape).Idx → EReal) (x3 : (⟨2, ![262144, 2]⟩ : Shape).Idx → EReal)
    (x4 : (⟨2, ![393216, 2]⟩ : Shape).Idx → EReal)
    (h : Shape.Concatenates [(⟨2, ![131072, 2]⟩ : Shape), ⟨2, ![262144, 2]⟩, ⟨2, ![393216, 2]⟩] ⟨2, ![786432, 2]⟩ 0)
    (i : Fin 786432) (o : Fin 2) :
    concatenate (⟨2, ![786432, 2]⟩ : Shape) 0
        [⟨(⟨2, ![131072, 2]⟩ : Shape), x2⟩, ⟨(⟨2, ![262144, 2]⟩ : Shape), x3⟩, ⟨(⟨2, ![393216, 2]⟩ : Shape), x4⟩] h (ix2 i o)
      = Cert.Spec.stacked (fun r o => x2 (ix2 r o)) (fun r o => x3 (ix2 r o)) (fun r o => x4 (ix2 r o)) i o := by
  unfold Cert.Spec.stacked
  split
  · next h2 =>
    refine concatenate_apply_piece (t := ⟨2, ![786432, 2]⟩) (0 : Fin 2) [⟨(⟨2, ![131072, 2]⟩ : Shape), x2⟩, ⟨(⟨2, ![262144, 2]⟩ : Shape), x3⟩, ⟨(⟨2, ![393216, 2]⟩ : Shape), x4⟩] h (ix2 i o) 0 (Nat.zero_lt_succ _) _ x2 rfl rfl 0 rfl (ix2 ⟨i.val, h2⟩ o) ?_ ?_
    · intro b hb
      match b with
      | ⟨0, _⟩ => exact absurd rfl hb
      | ⟨1, _⟩ => rfl
    · show 0 + i.val = i.val
      omega
  · next h2 =>
    split
    · next h3 =>
      refine concatenate_apply_piece (t := ⟨2, ![786432, 2]⟩) (0 : Fin 2) [⟨(⟨2, ![131072, 2]⟩ : Shape), x2⟩, ⟨(⟨2, ![262144, 2]⟩ : Shape), x3⟩, ⟨(⟨2, ![393216, 2]⟩ : Shape), x4⟩] h (ix2 i o) 1 (Nat.succ_lt_succ (Nat.zero_lt_succ _)) _ x3 rfl rfl 131072 rfl
        (ix2 ⟨i.val - 131072, by omega⟩ o) ?_ ?_
      · intro b hb
        match b with
        | ⟨0, _⟩ => exact absurd rfl hb
        | ⟨1, _⟩ => rfl
      · show 131072 + (i.val - 131072) = i.val
        omega
    · next h3 =>
      refine concatenate_apply_piece (t := ⟨2, ![786432, 2]⟩) (0 : Fin 2) [⟨(⟨2, ![131072, 2]⟩ : Shape), x2⟩, ⟨(⟨2, ![262144, 2]⟩ : Shape), x3⟩, ⟨(⟨2, ![393216, 2]⟩ : Shape), x4⟩] h (ix2 i o) 2 (Nat.succ_lt_succ (Nat.succ_lt_succ (Nat.zero_lt_succ _))) _ x4 rfl rfl 393216 (by simp)
        (ix2 ⟨i.val - 393216, by have := i.isLt; omega⟩ o) ?_ ?_
      · intro b hb
        match b with
        | ⟨0, _⟩ => exact absurd rfl hb
        | ⟨1, _⟩ => rfl
      · show 393216 + (i.val - 393216) = i.val
        omega

/-- A stack `[N, L, 128]` that is the pointwise sum of two stacks, flattened row-major to `[N, K]` with `K = L · 128`:
    entry `(r, k)` is the specification's pooled row of the two stacks' rows `r`, at `k`. -/
theorem pooled_read (N L K : ℕ) (hK : K = L * 128) (g g' : (⟨3, ![N, L, 128]⟩ : Shape).Idx → EReal)
    (h : (⟨3, ![N, L, 128]⟩ : Shape).ShapeCasts ⟨2, ![N, K]⟩) (r : Fin N) (k : Fin K) :
    shapeCast (⟨2, ![N, K]⟩ : Shape) (addf (F := Ideal) (φ := .f32) g g') h (ix2 r k)
      = Cert.Spec.pooled L K hK (fun p c => g (ix3 r p c)) (fun p c => g' (ix3 r p c)) k := by
  have hk := k.isLt
  have hq : k.val / 128 < L := by omega
  have hm : k.val % 128 < 128 := by omega
  rw [shapeCast_apply _ h (ix2 r k) (ix3 r ⟨k.val / 128, hq⟩ ⟨k.val % 128, hm⟩) (by
    rw [Shape.rowMajor_val_three, Shape.rowMajor_val_two]
    show (r.val * L + k.val / 128) * 128 + k.val % 128 = r.val * K + k.val
    subst hK
    rw [Nat.add_mul, Nat.mul_assoc, Nat.add_assoc, Nat.div_add_mod'])]
  rfl

/-- A vector `[a]` reshaped to one row `[1, a]`: entry `(0, j)` of the row is entry `j` of the vector. -/
theorem row_read {a : ℕ} (x : (⟨1, ![a]⟩ : Shape).Idx → EReal) (h : (⟨1, ![a]⟩ : Shape).ShapeCasts ⟨2, ![1, a]⟩)
    (u : Fin 1) (j : Fin a) : shapeCast (⟨2, ![1, a]⟩ : Shape) x h (ix2 u j) = x (ix1 j) :=
  shapeCast_a_1a_apply x h u j

end Cert.HostGlue

end
-- ==== Proof.HostGlue.lean ====
/-
  The end of the program: what the last host stretch leaves in the result array.

  Each level's kernel leaves its result transposed, `[2, N]`.  The host transposes each back to `[N, 2]` — level 2's
  right after its kernel, level 3's right after its kernel, level 4's in the last stretch — and lays the three one after
  another along the node axis.  The first two transposed arrays are written once and no later step touches them, so they
  reach the last stretch unchanged.  Read at row `i`, column `o`, the result is the specification's stacking of the three
  kernels' outputs read at `(o, r)`.
-/
import proofs.«174930_j4569845203353_2_alg».proof.Proof.Gen.KernelIdeal.Regions
import proofs.«174930_j4569845203353_2_alg».proof.Proof.HostGlue0

noncomputable section

namespace Cert.HostGlue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (outs : Outs (F := Ideal)) (c : Dev nD)

/-- Level 2's result transposed back, as the second stretch writes it. -/
theorem V3_main_v23 : (V3 m outs c main_v23 : S131072x2.Idx → EReal)
    = transpose S131072x2 [1, 0] (outs 2 main_v22 c : S2x131072.Idx → EReal) transposes_S2x131072_S131072x2_1_0 := by
  dsimp only [V3, hostOps1]
  after_results
  simp only [V2, Function.update_self]

/-- Level 3's result transposed back, as the third stretch writes it. -/
theorem V5_main_v46 : (V5 m outs c main_v46 : S262144x2.Idx → EReal)
    = transpose S262144x2 [1, 0] (outs 4 main_v45 c : S2x262144.Idx → EReal) transposes_S2x262144_S262144x2_1_0 := by
  dsimp only [V5, hostOps2]
  after_results
  simp only [V4, Function.update_self]

/-- The result array after the last stretch: the three kernels' outputs, each transposed back, laid along the rows. -/
theorem V7_main_v70_eq : (V7 m outs c main_v70 : S786432x2.Idx → EReal)
    = concatenate S786432x2 0
        [⟨S131072x2, transpose S131072x2 [1, 0] (outs 2 main_v22 c : S2x131072.Idx → EReal) transposes_S2x131072_S131072x2_1_0⟩,
         ⟨S262144x2, transpose S262144x2 [1, 0] (outs 4 main_v45 c : S2x262144.Idx → EReal) transposes_S2x262144_S262144x2_1_0⟩,
         ⟨S393216x2, transpose S393216x2 [1, 0] (outs 6 main_v68 c : S2x393216.Idx → EReal) transposes_S2x393216_S393216x2_1_0⟩]
        concatenates_S131072x2_S262144x2_S393216x2_S786432x2_d0 := by
  have e23 : V6 m outs c main_v23 = V3 m outs c main_v23 :=
    (V6_of m outs c main_v23 (by decide)).trans <| (V5_of m outs c main_v23 (by decide)).trans (V4_of m outs c main_v23 (by decide))
  have e46 : V6 m outs c main_v46 = V5 m outs c main_v46 := V6_of m outs c main_v46 (by decide)
  have e68 : V6 m outs c main_v68 = outs 6 main_v68 c := by simp only [V6, Function.update_self]
  dsimp only [V7, hostOps3]
  simp only [StableHlo.after_cons, StableHlo.after_nil]
  rw [StableHlo.nary_result]
  show concatenate S786432x2 0
      [⟨S131072x2, (StableHlo.unary main_v68 main_v69 _ _ _).result (V6 m outs c) (Proc.devRef .tc main_v23)⟩,
       ⟨S262144x2, (StableHlo.unary main_v68 main_v69 _ _ _).result (V6 m outs c) (Proc.devRef .tc main_v46)⟩,
       ⟨S393216x2, (StableHlo.unary main_v68 main_v69 _ _ _).result (V6 m outs c) (Proc.devRef .tc main_v69)⟩] _ = _
  rw [StableHlo.unary_result_ne]; rotate_left; decide
  rw [StableHlo.unary_result_ne]; rotate_left; decide
  rw [StableHlo.unary_result, e23, e46, e68, V3_main_v23, V5_main_v46]

/-- THE END AT AN INDEX: row `i`, column `o` of the result array is the specification's stacking of the three kernels'
    outputs, each read at `(o, r)`. -/
theorem V7_main_v70 (i : Fin 786432) (o : Fin 2) :
    (V7 m outs c main_v70 : S786432x2.Idx → EReal) (ix2 i o)
      = Cert.Spec.stacked (fun r o => (outs 2 main_v22 c : S2x131072.Idx → EReal) (ix2 o r))
          (fun r o => (outs 4 main_v45 c : S2x262144.Idx → EReal) (ix2 o r))
          (fun r o => (outs 6 main_v68 c : S2x393216.Idx → EReal) (ix2 o r)) i o := by
  have e2 : ∀ (r : Fin 131072) (o : Fin 2),
      transpose S131072x2 [1, 0] (outs 2 main_v22 c : S2x131072.Idx → EReal) transposes_S2x131072_S131072x2_1_0 (ix2 r o)
        = (outs 2 main_v22 c : S2x131072.Idx → EReal) (ix2 o r) := fun r o => transpose_ix2_apply _ _ r o
  have e3 : ∀ (r : Fin 262144) (o : Fin 2),
      transpose S262144x2 [1, 0] (outs 4 main_v45 c : S2x262144.Idx → EReal) transposes_S2x262144_S262144x2_1_0 (ix2 r o)
        = (outs 4 main_v45 c : S2x262144.Idx → EReal) (ix2 o r) := fun r o => transpose_ix2_apply _ _ r o
  have e4 : ∀ (r : Fin 393216) (o : Fin 2),
      transpose S393216x2 [1, 0] (outs 6 main_v68 c : S2x393216.Idx → EReal) transposes_S2x393216_S393216x2_1_0 (ix2 r o)
        = (outs 6 main_v68 c : S2x393216.Idx → EReal) (ix2 o r) := fun r o => transpose_ix2_apply _ _ r o
  rw [V7_main_v70_eq, concat3_apply]
  simp only [e2, e3, e4]

end Cert.HostGlue

end
-- ==== Proof.RefValueA.lean ====
/-
  The reference program's result is the shared specification.

  Level by level (L = 2, 3, 4) the reference gathers L rows of the feature table per node, reverses the gathered
  tensor along the position axis, flattens both to rows of width L · 128, adds them, and sends the sum through three
  layers "times a matrix, plus a bias, maximum with zero" and an affine read-out of width 2.  On the extended reals a
  matrix product is the plain sum over the contracted axis, so each stage read at an index is, term for term, the
  corresponding stage of the specification: no law of addition or multiplication is used.  The gather and the
  reversal are never opened: they enter only as the two tensors `gathL` and `revL` defined here from the feature
  table and the index table, exactly the operations the reference applies (a negative table entry is first moved up
  by the number of rows, then the entry gets a trailing unit axis, then the rows are gathered).
-/
import proofs.«174930_j4569845203353_2_alg».proof.Proof.Spec
import proofs.«174930_j4569845203353_2_alg».proof.Proof.Gen.ReferenceIdeal.Run
import proofs.«174930_j4569845203353_2_alg».proof.Proof.Gen.ReferenceIdeal.Read

noncomputable section

namespace Cert.RefValue

open Cert.ReferenceIdeal Cert.ReferenceIdeal.Gen Cert.ReferenceIdeal.Read Idealize.ShloMosaic Idealize.ShloMosaic.StableHlo
  Idealize.ShloMosaic.ValueIdx

/-! ## The gathered tensors

For each level: the index table with every negative entry moved up by 131072 (the number of rows of the feature
table), given a trailing unit axis, and the rows of the feature table gathered at it; and that tensor reversed along
its position axis. -/

/-- Level 2: two rows of the feature table per node. -/
def gath2 (h : FVec Ideal S131072x128 .f32) (idx : IVec S131072x2 32) : FVec Ideal S131072x2x128 .f32 :=
  Host.gather gather_S131072x128_S131072x2x1_S131072x2x128_2_0_n_n_0_2_1128 h
    (broadcastInDim S131072x2x1 ![0, 1] bcast_S131072x2_S131072x2x1_0_1
      (select (cmpi .slt idx (broadcastInDim S131072x2 ![] bcast_S_S131072x2 (constantI S_ 32 0#32)))
        (addi idx (broadcastInDim S131072x2 ![] bcast_S_S131072x2 (constantI S_ 32 131072#32))) idx))

/-- Level 2's gathered rows in reversed order of position. -/
def rev2 (h : FVec Ideal S131072x128 .f32) (idx : IVec S131072x2 32) : FVec Ideal S131072x2x128 .f32 :=
  Host.reverse [1] (gath2 h idx)

/-- Level 3: three rows of the feature table per node. -/
def gath3 (h : FVec Ideal S131072x128 .f32) (idx : IVec S262144x3 32) : FVec Ideal S262144x3x128 .f32 :=
  Host.gather gather_S131072x128_S262144x3x1_S262144x3x128_2_0_n_n_0_2_1128 h
    (broadcastInDim S262144x3x1 ![0, 1] bcast_S262144x3_S262144x3x1_0_1
      (select (cmpi .slt idx (broadcastInDim S262144x3 ![] bcast_S_S262144x3 (constantI S_ 32 0#32)))
        (addi idx (broadcastInDim S262144x3 ![] bcast_S_S262144x3 (constantI S_ 32 131072#32))) idx))

/-- Level 3's gathered rows in reversed order of position. -/
def rev3 (h : FVec Ideal S131072x128 .f32) (idx : IVec S262144x3 32) : FVec Ideal S262144x3x128 .f32 :=
  Host.reverse [1] (gath3 h idx)

/-- Level 4: four rows of the feature table per node. -/
def gath4 (h : FVec Ideal S131072x128 .f32) (idx : IVec S393216x4 32) : FVec Ideal S393216x4x128 .f32 :=
  Host.gather gather_S131072x128_S393216x4x1_S393216x4x128_2_0_n_n_0_2_1128 h
    (broadcastInDim S393216x4x1 ![0, 1] bcast_S393216x4_S393216x4x1_0_1
      (select (cmpi .slt idx (broadcastInDim S393216x4 ![] bcast_S_S393216x4 (constantI S_ 32 0#32)))
        (addi idx (broadcastInDim S393216x4 ![] bcast_S_S393216x4 (constantI S_ 32 131072#32))) idx))

/-- Level 4's gathered rows in reversed order of position. -/
def rev4 (h : FVec Ideal S131072x128 .f32) (idx : IVec S393216x4 32) : FVec Ideal S393216x4x128 .f32 :=
  Host.reverse [1] (gath4 h idx)

/-- The reference's gather stage of level 2 is `gath2`: the same operations, spelt out. -/
theorem gath2_eq (h : FVec Ideal S131072x128 .f32) (idx : IVec S131072x2 32) :
    val_main_v6 (F := Ideal) h idx = gath2 h idx := rfl
/-- The reference's reverse stage of level 2 is `rev2`. -/
theorem rev2_eq (h : FVec Ideal S131072x128 .f32) (idx : IVec S131072x2 32) :
    val_main_v8 (F := Ideal) h idx = rev2 h idx := rfl
theorem gath3_eq (h : FVec Ideal S131072x128 .f32) (idx : IVec S262144x3 32) :
    val_main_v36 (F := Ideal) h idx = gath3 h idx := rfl
theorem rev3_eq (h : FVec Ideal S131072x128 .f32) (idx : IVec S262144x3 32) :
    val_main_v38 (F := Ideal) h idx = rev3 h idx := rfl
theorem gath4_eq (h : FVec Ideal S131072x128 .f32) (idx : IVec S393216x4 32) :
    val_main_v66 (F := Ideal) h idx = gath4 h idx := rfl
theorem rev4_eq (h : FVec Ideal S131072x128 .f32) (idx : IVec S393216x4 32) :
    val_main_v68 (F := Ideal) h idx = rev4 h idx := rfl

/-! ## Level 2, stage by stage -/

section Level2

variable (x0 : FVec Ideal S131072x128 .f32) (x1 : IVec S131072x2 32)
  (x4 : FVec Ideal S256x128 .f32) (x5 : FVec Ideal S128 .f32) (x6 : FVec Ideal S128x128 .f32) (x7 : FVec Ideal S128 .f32)
  (x8 : FVec Ideal S128x128 .f32) (x9 : FVec Ideal S128 .f32) (x10 : FVec Ideal S128x2 .f32) (x11 : FVec Ideal S2 .f32)

/-- The pooled row: entry `k` of node `r`'s flattened sum is the gathered entry at position `k / 128`, lane
    `k % 128`, plus the reversed tensor's entry there — a row of width 256 is two positions of 128 lanes, laid out
    position-major. -/
theorem pooled2 (r : Fin 131072) (k : Fin 256) :
    val_main_v10 (F := Ideal) x0 x1 (ix2 r k)
      = Spec.pooled 2 256 rfl (fun p c => gath2 x0 x1 (ix3 r p c)) (fun p c => rev2 x0 x1 (ix3 r p c)) k := by
  have hk := k.isLt
  have e7 : idx_main_v7 (ix2 r k) = ix3 r ⟨k.val / 128, by omega⟩ ⟨k.val % 128, by omega⟩ :=
    funext fun a => Fin.ext (by
      match a with
      | ⟨0, _⟩ => show (r.val * 256 + k.val) / 256 = r.val; omega
      | ⟨1, _⟩ => show (r.val * 256 + k.val) / 128 % 2 = k.val / 128; omega
      | ⟨2, _⟩ => show (r.val * 256 + k.val) % 128 = k.val % 128; omega)
  have e9 : idx_main_v9 (ix2 r k) = ix3 r ⟨k.val / 128, by omega⟩ ⟨k.val % 128, by omega⟩ :=
    funext fun a => Fin.ext (by
      match a with
      | ⟨0, _⟩ => show (r.val * 256 + k.val) / 256 = r.val; omega
      | ⟨1, _⟩ => show (r.val * 256 + k.val) / 128 % 2 = k.val / 128; omega
      | ⟨2, _⟩ => show (r.val * 256 + k.val) % 128 = k.val % 128; omega)
  rw [val_main_v10_apply, val_main_v7_apply, val_main_v9_apply, e7, e9]
  rfl

/-- The first hidden layer at node `r`, unit `j`: the sum over the 256 pooled entries against column `j` of the
    first matrix, plus the bias, maximum with zero. -/
theorem hidden2a (r : Fin 131072) (j : Fin 128) :
    val_main_v15 (F := Ideal) x0 x1 x4 x5 (ix2 r j)
      = Spec.hidden (Spec.pooled 2 256 rfl (fun p c => gath2 x0 x1 (ix3 r p c)) (fun p c => rev2 x0 x1 (ix3 r p c)))
          (fun k j => x4 (ix2 k j)) (fun j => x5 (ix1 j)) j := by
  have el : ∀ k : Fin 256, lidx_main_v11 (ix2 r j) k = ix2 r k := fun k =>
    funext fun a => Fin.ext (by match a with | ⟨0, _⟩ => rfl | ⟨1, _⟩ => rfl)
  have er : ∀ k : Fin 256, ridx_main_v11 (ix2 r j) k = ix2 k j := fun k =>
    funext fun a => Fin.ext (by match a with | ⟨0, _⟩ => rfl | ⟨1, _⟩ => rfl)
  have eb : idx_main_v12 (idx_main_v13 (ix2 r j)) = ix1 j :=
    funext fun a => Fin.ext (by match a with | ⟨0, _⟩ => rfl)
  rw [val_main_v15_apply, val_main_v14_apply, val_main_v11_apply, val_main_v13_apply, val_main_v12_apply,
    val_main_call0_v0_apply, val_main_call0_cst_apply, eb, Ideal.ofBits_def, Ideal.ofBits_zero_f32]
  have hs : (∑ k : Fin 256, val_main_v10 (F := Ideal) x0 x1 (lidx_main_v11 (ix2 r j) k) * x4 (ridx_main_v11 (ix2 r j) k))
      = ∑ k : Fin 256, Spec.pooled 2 256 rfl (fun p c => gath2 x0 x1 (ix3 r p c)) (fun p c => rev2 x0 x1 (ix3 r p c)) k
          * x4 (ix2 k j) :=
    Finset.sum_congr rfl fun k _ => by rw [el k, er k, pooled2]
  rw [hs]
  rfl

/-- The second hidden layer at node `r`, unit `j`. -/
theorem hidden2b (r : Fin 131072) (j : Fin 128) :
    val_main_v20 (F := Ideal) x0 x1 x4 x5 x6 x7 (ix2 r j)
      = Spec.hidden (Spec.hidden (Spec.pooled 2 256 rfl (fun p c => gath2 x0 x1 (ix3 r p c)) (fun p c => rev2 x0 x1 (ix3 r p c)))
          (fun k j => x4 (ix2 k j)) (fun j => x5 (ix1 j))) (fun k j => x6 (ix2 k j)) (fun j => x7 (ix1 j)) j := by
  have el : ∀ k : Fin 128, lidx_main_v16 (ix2 r j) k = ix2 r k := fun k =>
    funext fun a => Fin.ext (by match a with | ⟨0, _⟩ => rfl | ⟨1, _⟩ => rfl)
  have er : ∀ k : Fin 128, ridx_main_v16 (ix2 r j) k = ix2 k j := fun k =>
    funext fun a => Fin.ext (by match a with | ⟨0, _⟩ => rfl | ⟨1, _⟩ => rfl)
  have eb : idx_main_v17 (idx_main_v18 (ix2 r j)) = ix1 j :=
    funext fun a => Fin.ext (by match a with | ⟨0, _⟩ => rfl)
  rw [val_main_v20_apply, val_main_v19_apply, val_main_v16_apply, val_main_v18_apply, val_main_v17_apply,
    val_main_call1_v0_apply, val_main_call1_cst_apply, eb, Ideal.ofBits_def, Ideal.ofBits_zero_f32]
  have hs : (∑ k : Fin 128, val_main_v15 (F := Ideal) x0 x1 x4 x5 (lidx_main_v16 (ix2 r j) k) * x6 (ridx_main_v16 (ix2 r j) k))
      = ∑ k : Fin 128, Spec.hidden (Spec.pooled 2 256 rfl (fun p c => gath2 x0 x1 (ix3 r p c)) (fun p c => rev2 x0 x1 (ix3 r p c)))
          (fun k j => x4 (ix2 k j)) (fun j => x5 (ix1 j)) k * x6 (ix2 k j) :=
    Finset.sum_congr rfl fun k _ => by rw [el k, er k, hidden2a]
  rw [hs]
  rfl

/-- The third hidden layer at node `r`, unit `j`. -/
theorem hidden2c (r : Fin 131072) (j : Fin 128) :
    val_main_v25 (F := Ideal) x0 x1 x4 x5 x6 x7 x8 x9 (ix2 r j)
      = Spec.hidden (Spec.hidden (Spec.hidden (Spec.pooled 2 256 rfl (fun p c => gath2 x0 x1 (ix3 r p c)) (fun p c => rev2 x0 x1 (ix3 r p c)))
          (fun k j => x4 (ix2 k j)) (fun j => x5 (ix1 j))) (fun k j => x6 (ix2 k j)) (fun j => x7 (ix1 j)))
          (fun k j => x8 (ix2 k j)) (fun j => x9 (ix1 j)) j := by
  have el : ∀ k : Fin 128, lidx_main_v21 (ix2 r j) k = ix2 r k := fun k =>
    funext fun a => Fin.ext (by match a with | ⟨0, _⟩ => rfl | ⟨1, _⟩ => rfl)
  have er : ∀ k : Fin 128, ridx_main_v21 (ix2 r j) k = ix2 k j := fun k =>
    funext fun a => Fin.ext (by match a with | ⟨0, _⟩ => rfl | ⟨1, _⟩ => rfl)
  have eb : idx_main_v22 (idx_main_v23 (ix2 r j)) = ix1 j :=
    funext fun a => Fin.ext (by match a with | ⟨0, _⟩ => rfl)
  rw [val_main_v25_apply, val_main_v24_apply, val_main_v21_apply, val_main_v23_apply, val_main_v22_apply,
    val_main_call2_v0_apply, val_main_call2_cst_apply, eb, Ideal.ofBits_def, Ideal.ofBits_zero_f32]
  have hs : (∑ k : Fin 128, val_main_v20 (F := Ideal) x0 x1 x4 x5 x6 x7 (lidx_main_v21 (ix2 r j) k) * x8 (ridx_main_v21 (ix2 r j) k))
      = ∑ k : Fin 128, Spec.hidden (Spec.hidden (Spec.pooled 2 256 rfl (fun p c => gath2 x0 x1 (ix3 r p c)) (fun p c => rev2 x0 x1 (ix3 r p c)))
          (fun k j => x4 (ix2 k j)) (fun j => x5 (ix1 j))) (fun k j => x6 (ix2 k j)) (fun j => x7 (ix1 j)) k * x8 (ix2 k j) :=
    Finset.sum_congr rfl fun k _ => by rw [el k, er k, hidden2b]
  rw [hs]
  rfl

/-- Level 2's result at node `r`, output `o`, is the specification's: the read-out of the third hidden layer. -/
theorem level2 (r : Fin 131072) (o : Fin 2) :
    val_main_v29 (F := Ideal) x0 x1 x4 x5 x6 x7 x8 x9 x10 x11 (ix2 r o)
      = Spec.level 2 256 rfl (fun r p c => gath2 x0 x1 (ix3 r p c)) (fun r p c => rev2 x0 x1 (ix3 r p c))
          (fun k j => x4 (ix2 k j)) (fun j => x5 (ix1 j)) (fun k j => x6 (ix2 k j)) (fun j => x7 (ix1 j))
          (fun k j => x8 (ix2 k j)) (fun j => x9 (ix1 j)) (fun k j => x10 (ix2 k j)) (fun j => x11 (ix1 j)) r o := by
  have el : ∀ k : Fin 128, lidx_main_v26 (ix2 r o) k = ix2 r k := fun k =>
    funext fun a => Fin.ext (by match a with | ⟨0, _⟩ => rfl | ⟨1, _⟩ => rfl)
  have er : ∀ k : Fin 128, ridx_main_v26 (ix2 r o) k = ix2 k o := fun k =>
    funext fun a => Fin.ext (by match a with | ⟨0, _⟩ => rfl | ⟨1, _⟩ => rfl)
  have eb : idx_main_v27 (idx_main_v28 (ix2 r o)) = ix1 o :=
    funext fun a => Fin.ext (by match a with | ⟨0, _⟩ => rfl)
  rw [val_main_v29_apply, val_main_v26_apply, val_main_v28_apply, val_main_v27_apply, eb]
  have hs : (∑ k : Fin 128, val_main_v25 (F := Ideal) x0 x1 x4 x5 x6 x7 x8 x9 (lidx_main_v26 (ix2 r o) k) * x10 (ridx_main_v26 (ix2 r o) k))
      = ∑ k : Fin 128, Spec.hidden (Spec.hidden (Spec.hidden (Spec.pooled 2 256 rfl (fun p c => gath2 x0 x1 (ix3 r p c)) (fun p c => rev2 x0 x1 (ix3 r p c)))
          (fun k j => x4 (ix2 k j)) (fun j => x5 (ix1 j))) (fun k j => x6 (ix2 k j)) (fun j => x7 (ix1 j)))
          (fun k j => x8 (ix2 k j)) (fun j => x9 (ix1 j)) k * x10 (ix2 k o) :=
    Finset.sum_congr rfl fun k _ => by rw [el k, er k, hidden2c]
  rw [hs]
  rfl

end Level2

end Cert.RefValue

end
-- ==== Proof.HostGlue1.lean ====
/-
  What level 2's kernel finds in its input arrays: the first host stretch, read at an index.

  The stretch rounds the feature table to the narrow format, normalises the index table (a negative entry has the
  table's row count added), gathers two rows per node, reverses the gathered stack along the position axis, widens
  both, adds them, flattens `[N, 2, 128]` to `[N, 256]` and rounds again; it rounds the four weight matrices and
  reshapes the four bias vectors to one row.  On the extended reals every change of format is the identity, so the
  gathered stack is the one the reference gathers from the unrounded table, the operand is the specification's pooled
  row, each weight array is the argument itself, and each bias row is the argument vector.
-/
import proofs.«174930_j4569845203353_2_alg».proof.Proof.Gen.KernelIdeal.Regions
import proofs.«174930_j4569845203353_2_alg».proof.Proof.HostGlue0
import proofs.«174930_j4569845203353_2_alg».proof.Proof.RefValueA

noncomputable section

namespace Cert.HostGlue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (outs : Outs (F := Ideal)) (c : Dev nD)

/-- The operand array of level 2's kernel: the gathered stack plus its reverse, flattened. -/
theorem V1_main_v13_eq : (V1 m c main_v13 : S131072x256.Idx → EReal)
    = shapeCast S131072x256 (addf (F := Idealize.ShloMosaic.Ideal) (φ := .f32)
        (Cert.RefValue.gath2 (V0 m c main_arg0) (V0 m c main_arg1))
        (Cert.RefValue.rev2 (V0 m c main_arg0) (V0 m c main_arg1)))
        shapeCasts_S131072x2x128_S131072x256 := by
  dsimp only [V1, hostOps0]
  after_results_simp
  rfl

/-- The operand of level 2's kernel at node `r`, entry `k`: the specification's pooled row. -/
theorem V1_main_v13 (r : Fin 131072) (k : Fin 256) :
    (V1 m c main_v13 : S131072x256.Idx → EReal) (ix2 r k)
      = Cert.Spec.pooled 2 256 rfl
          (fun p c' => Cert.RefValue.gath2 (V0 m c main_arg0) (V0 m c main_arg1) (ix3 r p c'))
          (fun p c' => Cert.RefValue.rev2 (V0 m c main_arg0) (V0 m c main_arg1) (ix3 r p c')) k := by
  rw [V1_main_v13_eq]
  exact pooled_read 131072 2 256 rfl _ _ _ r k

/-- The first weight matrix as the kernel finds it is the argument. -/
theorem V1_main_v14 : (V1 m c main_v14 : S256x128.Idx → EReal) = (V0 m c main_arg4 : S256x128.Idx → EReal) := by
  dsimp only [V1, hostOps0]
  after_results
  rfl
/-- The second weight matrix as the kernel finds it is the argument. -/
theorem V1_main_v15 : (V1 m c main_v15 : S128x128.Idx → EReal) = (V0 m c main_arg6 : S128x128.Idx → EReal) := by
  dsimp only [V1, hostOps0]
  after_results
  rfl
/-- The third weight matrix as the kernel finds it is the argument. -/
theorem V1_main_v16 : (V1 m c main_v16 : S128x128.Idx → EReal) = (V0 m c main_arg8 : S128x128.Idx → EReal) := by
  dsimp only [V1, hostOps0]
  after_results
  rfl
/-- The read-out matrix as the kernel finds it is the argument. -/
theorem V1_main_v17 : (V1 m c main_v17 : S128x2.Idx → EReal) = (V0 m c main_arg10 : S128x2.Idx → EReal) := by
  dsimp only [V1, hostOps0]
  after_results
  rfl

/-- The first bias as the kernel finds it, one row: entry `(0, j)` is entry `j` of the argument. -/
theorem V1_main_v18 (u : Fin 1) (j : Fin 128) :
    (V1 m c main_v18 : S1x128.Idx → EReal) (ix2 u j) = (V0 m c main_arg5 : S128.Idx → EReal) (ix1 j) := by
  dsimp only [V1, hostOps0]
  after_results
  exact row_read _ _ u j
/-- The second bias as the kernel finds it. -/
theorem V1_main_v19 (u : Fin 1) (j : Fin 128) :
    (V1 m c main_v19 : S1x128.Idx → EReal) (ix2 u j) = (V0 m c main_arg7 : S128.Idx → EReal) (ix1 j) := by
  dsimp only [V1, hostOps0]
  after_results
  exact row_read _ _ u j
/-- The third bias as the kernel finds it. -/
theorem V1_main_v20 (u : Fin 1) (j : Fin 128) :
    (V1 m c main_v20 : S1x128.Idx → EReal) (ix2 u j) = (V0 m c main_arg9 : S128.Idx → EReal) (ix1 j) := by
  dsimp only [V1, hostOps0]
  after_results
  exact row_read _ _ u j
/-- The read-out bias as the kernel finds it. -/
theorem V1_main_v21 (u : Fin 1) (j : Fin 2) :
    (V1 m c main_v21 : S1x2.Idx → EReal) (ix2 u j) = (V0 m c main_arg11 : S2.Idx → EReal) (ix1 j) := by
  dsimp only [V1, hostOps0]
  after_results
  exact row_read _ _ u j

/-- The feature table in the narrow format, which the later stretches gather from, is the argument. -/
theorem V1_main_v0 : (V1 m c main_v0 : S131072x128.Idx → EReal) = (V0 m c main_arg0 : S131072x128.Idx → EReal) := by
  dsimp only [V1, hostOps0]
  after_results
  rfl

end Cert.HostGlue

end
-- ==== Proof.HostGlue2.lean ====
/-
  What level 3's kernel finds in its input arrays: the second host stretch, read at an index.

  The stretch transposes the previous kernel's result (read elsewhere), normalises level 3's index table, gathers
  three rows per node from the feature table in the narrow format the first stretch wrote, reverses the gathered stack
  along the position axis, widens both, adds them, flattens `[N, 3, 128]` to `[N, 384]` and rounds; it rounds the
  four weight matrices and reshapes the four bias vectors to one row.  Nothing between the launch and this stretch
  writes the arguments or the narrow feature table, and on the extended reals every change of format is the identity:
  the operand is the specification's pooled row of the stack the reference gathers, each weight array is the argument,
  each bias row the argument vector.  None of this depends on what the earlier kernels left.
-/
import proofs.«174930_j4569845203353_2_alg».proof.Proof.Gen.KernelIdeal.Regions
import proofs.«174930_j4569845203353_2_alg».proof.Proof.HostGlue0
import proofs.«174930_j4569845203353_2_alg».proof.Proof.RefValueA
import proofs.«174930_j4569845203353_2_alg».proof.Proof.HostGlue1

noncomputable section

namespace Cert.HostGlue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (outs : Outs (F := Ideal)) (c : Dev nD)

/-- An array that nothing before this stretch writes holds its launch contents when the stretch starts. -/
theorem V2_launch (r : Ref sig .tc) (h1 : r ∉ ([main_v22] : List (Ref sig .tc))) (h0 : r ∉ hostOps0_W) :
    V2 m outs c r = V0 m c r :=
  (V2_of m outs c r h1).trans (V1_of m c r h0)

/-- The feature table in the narrow format reaches this stretch as the first stretch wrote it: the argument. -/
theorem V2_main_v0 : (V2 m outs c main_v0 : S131072x128.Idx → EReal) = (V0 m c main_arg0 : S131072x128.Idx → EReal) :=
  (V2_of m outs c main_v0 (by decide)).trans (V1_main_v0 m c)

/-- The operand array of level 3's kernel: the gathered stack plus its reverse, flattened. -/
theorem V3_main_v36_eq : (V3 m outs c main_v36 : S262144x384.Idx → EReal)
    = shapeCast S262144x384 (addf (F := Idealize.ShloMosaic.Ideal) (φ := .f32)
        (Cert.RefValue.gath3 (V0 m c main_arg0) (V0 m c main_arg2))
        (Cert.RefValue.rev3 (V0 m c main_arg0) (V0 m c main_arg2)))
        shapeCasts_S262144x3x128_S262144x384 := by
  dsimp only [V3, hostOps1]
  after_results_simp
  rw [V2_main_v0, V2_launch m outs c main_arg2 (by decide) (by decide)]
  rfl

/-- The operand of level 3's kernel at node `r`, entry `k`: the specification's pooled row. -/
theorem V3_main_v36 (r : Fin 262144) (k : Fin 384) :
    (V3 m outs c main_v36 : S262144x384.Idx → EReal) (ix2 r k)
      = Cert.Spec.pooled 3 384 rfl
          (fun p c' => Cert.RefValue.gath3 (V0 m c main_arg0) (V0 m c main_arg2) (ix3 r p c'))
          (fun p c' => Cert.RefValue.rev3 (V0 m c main_arg0) (V0 m c main_arg2) (ix3 r p c')) k := by
  rw [V3_main_v36_eq]
  exact pooled_read 262144 3 384 rfl _ _ _ r k

/-- The first weight matrix as the kernel finds it is the argument. -/
theorem V3_main_v37 : (V3 m outs c main_v37 : S384x128.Idx → EReal) = (V0 m c main_arg12 : S384x128.Idx → EReal) := by
  dsimp only [V3, hostOps1]
  after_results
  rw [V2_launch m outs c main_arg12 (by decide) (by decide)]
  rfl
/-- The second weight matrix as the kernel finds it is the argument. -/
theorem V3_main_v38 : (V3 m outs c main_v38 : S128x128.Idx → EReal) = (V0 m c main_arg14 : S128x128.Idx → EReal) := by
  dsimp only [V3, hostOps1]
  after_results
  rw [V2_launch m outs c main_arg14 (by decide) (by decide)]
  rfl
/-- The third weight matrix as the kernel finds it is the argument. -/
theorem V3_main_v39 : (V3 m outs c main_v39 : S128x128.Idx → EReal) = (V0 m c main_arg16 : S128x128.Idx → EReal) := by
  dsimp only [V3, hostOps1]
  after_results
  rw [V2_launch m outs c main_arg16 (by decide) (by decide)]
  rfl
/-- The read-out matrix as the kernel finds it is the argument. -/
theorem V3_main_v40 : (V3 m outs c main_v40 : S128x2.Idx → EReal) = (V0 m c main_arg18 : S128x2.Idx → EReal) := by
  dsimp only [V3, hostOps1]
  after_results
  rw [V2_launch m outs c main_arg18 (by decide) (by decide)]
  rfl

/-- The first bias as the kernel finds it, one row: entry `(0, j)` is entry `j` of the argument. -/
theorem V3_main_v41 (u : Fin 1) (j : Fin 128) :
    (V3 m outs c main_v41 : S1x128.Idx → EReal) (ix2 u j) = (V0 m c main_arg13 : S128.Idx → EReal) (ix1 j) := by
  dsimp only [V3, hostOps1]
  after_results
  rw [V2_launch m outs c main_arg13 (by decide) (by decide)]
  exact row_read _ _ u j
/-- The second bias as the kernel finds it, one row: entry `(0, j)` is entry `j` of the argument. -/
theorem V3_main_v42 (u : Fin 1) (j : Fin 128) :
    (V3 m outs c main_v42 : S1x128.Idx → EReal) (ix2 u j) = (V0 m c main_arg15 : S128.Idx → EReal) (ix1 j) := by
  dsimp only [V3, hostOps1]
  after_results
  rw [V2_launch m outs c main_arg15 (by decide) (by decide)]
  exact row_read _ _ u j
/-- The third bias as the kernel finds it, one row: entry `(0, j)` is entry `j` of the argument. -/
theorem V3_main_v43 (u : Fin 1) (j : Fin 128) :
    (V3 m outs c main_v43 : S1x128.Idx → EReal) (ix2 u j) = (V0 m c main_arg17 : S128.Idx → EReal) (ix1 j) := by
  dsimp only [V3, hostOps1]
  after_results
  rw [V2_launch m outs c main_arg17 (by decide) (by decide)]
  exact row_read _ _ u j
/-- The read-out bias as the kernel finds it, one row: entry `(0, j)` is entry `j` of the argument. -/
theorem V3_main_v44 (u : Fin 1) (j : Fin 2) :
    (V3 m outs c main_v44 : S1x2.Idx → EReal) (ix2 u j) = (V0 m c main_arg19 : S2.Idx → EReal) (ix1 j) := by
  dsimp only [V3, hostOps1]
  after_results
  rw [V2_launch m outs c main_arg19 (by decide) (by decide)]
  exact row_read _ _ u j

end Cert.HostGlue

end
-- ==== Proof.HostGlue3.lean ====
/-
  What level 4's kernel finds in its input arrays: the third host stretch, read at an index.

  The stretch transposes the previous kernel's result (read elsewhere), normalises level 4's index table, gathers
  four rows per node from the feature table in the narrow format the first stretch wrote, reverses the gathered stack
  along the position axis, widens both, adds them, flattens `[N, 4, 128]` to `[N, 512]` and rounds; it rounds the
  four weight matrices and reshapes the four bias vectors to one row.  Nothing between the launch and this stretch
  writes the arguments or the narrow feature table, and on the extended reals every change of format is the identity:
  the operand is the specification's pooled row of the stack the reference gathers, each weight array is the argument,
  each bias row the argument vector.  None of this depends on what the earlier kernels left.
-/
import proofs.«174930_j4569845203353_2_alg».proof.Proof.Gen.KernelIdeal.Regions
import proofs.«174930_j4569845203353_2_alg».proof.Proof.HostGlue0
import proofs.«174930_j4569845203353_2_alg».proof.Proof.RefValueA
import proofs.«174930_j4569845203353_2_alg».proof.Proof.HostGlue1

noncomputable section

namespace Cert.HostGlue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (outs : Outs (F := Ideal)) (c : Dev nD)

/-- An array that nothing before this stretch writes holds its launch contents when the stretch starts. -/
theorem V4_launch (r : Ref sig .tc) (h3 : r ∉ ([main_v45] : List (Ref sig .tc))) (h2 : r ∉ hostOps1_W)
    (h1 : r ∉ ([main_v22] : List (Ref sig .tc))) (h0 : r ∉ hostOps0_W) :
    V4 m outs c r = V0 m c r :=
  (V4_of m outs c r h3).trans <| (V3_of m outs c r h2).trans <| (V2_of m outs c r h1).trans (V1_of m c r h0)

/-- The feature table in the narrow format reaches this stretch as the first stretch wrote it: the argument. -/
theorem V4_main_v0 : (V4 m outs c main_v0 : S131072x128.Idx → EReal) = (V0 m c main_arg0 : S131072x128.Idx → EReal) :=
  (V4_of m outs c main_v0 (by decide)).trans <| (V3_of m outs c main_v0 (by decide)).trans <|
    (V2_of m outs c main_v0 (by decide)).trans (V1_main_v0 m c)

/-- The operand array of level 4's kernel: the gathered stack plus its reverse, flattened. -/
theorem V5_main_v59_eq : (V5 m outs c main_v59 : S393216x512.Idx → EReal)
    = shapeCast S393216x512 (addf (F := Idealize.ShloMosaic.Ideal) (φ := .f32)
        (Cert.RefValue.gath4 (V0 m c main_arg0) (V0 m c main_arg3))
        (Cert.RefValue.rev4 (V0 m c main_arg0) (V0 m c main_arg3)))
        shapeCasts_S393216x4x128_S393216x512 := by
  dsimp only [V5, hostOps2]
  after_results_simp
  rw [V4_main_v0, V4_launch m outs c main_arg3 (by decide) (by decide) (by decide) (by decide)]
  rfl

/-- The operand of level 4's kernel at node `r`, entry `k`: the specification's pooled row. -/
theorem V5_main_v59 (r : Fin 393216) (k : Fin 512) :
    (V5 m outs c main_v59 : S393216x512.Idx → EReal) (ix2 r k)
      = Cert.Spec.pooled 4 512 rfl
          (fun p c' => Cert.RefValue.gath4 (V0 m c main_arg0) (V0 m c main_arg3) (ix3 r p c'))
          (fun p c' => Cert.RefValue.rev4 (V0 m c main_arg0) (V0 m c main_arg3) (ix3 r p c')) k := by
  rw [V5_main_v59_eq]
  exact pooled_read 393216 4 512 rfl _ _ _ r k

/-- The first weight matrix as the kernel finds it is the argument. -/
theorem V5_main_v60 : (V5 m outs c main_v60 : S512x128.Idx → EReal) = (V0 m c main_arg20 : S512x128.Idx → EReal) := by
  dsimp only [V5, hostOps2]
  after_results
  rw [V4_launch m outs c main_arg20 (by decide) (by decide) (by decide) (by decide)]
  rfl
/-- The second weight matrix as the kernel finds it is the argument. -/
theorem V5_main_v61 : (V5 m outs c main_v61 : S128x128.Idx → EReal) = (V0 m c main_arg22 : S128x128.Idx → EReal) := by
  dsimp only [V5, hostOps2]
  after_results
  rw [V4_launch m outs c main_arg22 (by decide) (by decide) (by decide) (by decide)]
  rfl
/-- The third weight matrix as the kernel finds it is the argument. -/
theorem V5_main_v62 : (V5 m outs c main_v62 : S128x128.Idx → EReal) = (V0 m c main_arg24 : S128x128.Idx → EReal) := by
  dsimp only [V5, hostOps2]
  after_results
  rw [V4_launch m outs c main_arg24 (by decide) (by decide) (by decide) (by decide)]
  rfl
/-- The read-out matrix as the kernel finds it is the argument. -/
theorem V5_main_v63 : (V5 m outs c main_v63 : S128x2.Idx → EReal) = (V0 m c main_arg26 : S128x2.Idx → EReal) := by
  dsimp only [V5, hostOps2]
  after_results
  rw [V4_launch m outs c main_arg26 (by decide) (by decide) (by decide) (by decide)]
  rfl

/-- The first bias as the kernel finds it, one row: entry `(0, j)` is entry `j` of the argument. -/
theorem V5_main_v64 (u : Fin 1) (j : Fin 128) :
    (V5 m outs c main_v64 : S1x128.Idx → EReal) (ix2 u j) = (V0 m c main_arg21 : S128.Idx → EReal) (ix1 j) := by
  dsimp only [V5, hostOps2]
  after_results
  rw [V4_launch m outs c main_arg21 (by decide) (by decide) (by decide) (by decide)]
  exact row_read _ _ u j
/-- The second bias as the kernel finds it, one row: entry `(0, j)` is entry `j` of the argument. -/
theorem V5_main_v65 (u : Fin 1) (j : Fin 128) :
    (V5 m outs c main_v65 : S1x128.Idx → EReal) (ix2 u j) = (V0 m c main_arg23 : S128.Idx → EReal) (ix1 j) := by
  dsimp only [V5, hostOps2]
  after_results
  rw [V4_launch m outs c main_arg23 (by decide) (by decide) (by decide) (by decide)]
  exact row_read _ _ u j
/-- The third bias as the kernel finds it, one row: entry `(0, j)` is entry `j` of the argument. -/
theorem V5_main_v66 (u : Fin 1) (j : Fin 128) :
    (V5 m outs c main_v66 : S1x128.Idx → EReal) (ix2 u j) = (V0 m c main_arg25 : S128.Idx → EReal) (ix1 j) := by
  dsimp only [V5, hostOps2]
  after_results
  rw [V4_launch m outs c main_arg25 (by decide) (by decide) (by decide) (by decide)]
  exact row_read _ _ u j
/-- The read-out bias as the kernel finds it, one row: entry `(0, j)` is entry `j` of the argument. -/
theorem V5_main_v67 (u : Fin 1) (j : Fin 2) :
    (V5 m outs c main_v67 : S1x2.Idx → EReal) (ix2 u j) = (V0 m c main_arg27 : S2.Idx → EReal) (ix1 j) := by
  dsimp only [V5, hostOps2]
  after_results
  rw [V4_launch m outs c main_arg27 (by decide) (by decide) (by decide) (by decide)]
  exact row_read _ _ u j

end Cert.HostGlue

end
-- ==== Proof.RefValueB.lean ====
/-
  Level 3 of the reference, stage by stage, is level 3 of the specification: the pooled row of width 384, three
  hidden layers and the read-out, each read at an index.  The same reading as level 2's, at this level's shapes.
-/
import proofs.«174930_j4569845203353_2_alg».proof.Proof.RefValueA

noncomputable section

namespace Cert.RefValue

open Cert.ReferenceIdeal Cert.ReferenceIdeal.Gen Cert.ReferenceIdeal.Read Idealize.ShloMosaic Idealize.ShloMosaic.StableHlo
  Idealize.ShloMosaic.ValueIdx

/-! ## Level 3, stage by stage -/

section Level3

variable (x0 : FVec Ideal S131072x128 .f32) (x2 : IVec S262144x3 32)
  (x12 : FVec Ideal S384x128 .f32) (x13 : FVec Ideal S128 .f32) (x14 : FVec Ideal S128x128 .f32) (x15 : FVec Ideal S128 .f32)
  (x16 : FVec Ideal S128x128 .f32) (x17 : FVec Ideal S128 .f32) (x18 : FVec Ideal S128x2 .f32) (x19 : FVec Ideal S2 .f32)

/-- The pooled row: entry `k` of node `r`'s flattened sum is the gathered entry at position `k / 128`, lane
    `k % 128`, plus the reversed tensor's entry there — a row of width 384 is three positions of 128 lanes, laid out
    position-major. -/
theorem pooled3 (r : Fin 262144) (k : Fin 384) :
    val_main_v40 (F := Ideal) x0 x2 (ix2 r k)
      = Spec.pooled 3 384 rfl (fun p c => gath3 x0 x2 (ix3 r p c)) (fun p c => rev3 x0 x2 (ix3 r p c)) k := by
  have hk := k.isLt
  have e7 : idx_main_v37 (ix2 r k) = ix3 r ⟨k.val / 128, by omega⟩ ⟨k.val % 128, by omega⟩ :=
    funext fun a => Fin.ext (by
      match a with
      | ⟨0, _⟩ => show (r.val * 384 + k.val) / 384 = r.val; omega
      | ⟨1, _⟩ => show (r.val * 384 + k.val) / 128 % 3 = k.val / 128; omega
      | ⟨2, _⟩ => show (r.val * 384 + k.val) % 128 = k.val % 128; omega)
  have e9 : idx_main_v39 (ix2 r k) = ix3 r ⟨k.val / 128, by omega⟩ ⟨k.val % 128, by omega⟩ :=
    funext fun a => Fin.ext (by
      match a with
      | ⟨0, _⟩ => show (r.val * 384 + k.val) / 384 = r.val; omega
      | ⟨1, _⟩ => show (r.val * 384 + k.val) / 128 % 3 = k.val / 128; omega
      | ⟨2, _⟩ => show (r.val * 384 + k.val) % 128 = k.val % 128; omega)
  rw [val_main_v40_apply, val_main_v37_apply, val_main_v39_apply, e7, e9]
  rfl

/-- The first hidden layer at node `r`, unit `j`: the sum over the 384 pooled entries against column `j` of the
    first matrix, plus the bias, maximum with zero. -/
theorem hidden3a (r : Fin 262144) (j : Fin 128) :
    val_main_v45 (F := Ideal) x0 x2 x12 x13 (ix2 r j)
      = Spec.hidden (Spec.pooled 3 384 rfl (fun p c => gath3 x0 x2 (ix3 r p c)) (fun p c => rev3 x0 x2 (ix3 r p c)))
          (fun k j => x12 (ix2 k j)) (fun j => x13 (ix1 j)) j := by
  have el : ∀ k : Fin 384, lidx_main_v41 (ix2 r j) k = ix2 r k := fun k =>
    funext fun a => Fin.ext (by match a with | ⟨0, _⟩ => rfl | ⟨1, _⟩ => rfl)
  have er : ∀ k : Fin 384, ridx_main_v41 (ix2 r j) k = ix2 k j := fun k =>
    funext fun a => Fin.ext (by match a with | ⟨0, _⟩ => rfl | ⟨1, _⟩ => rfl)
  have eb : idx_main_v42 (idx_main_v43 (ix2 r j)) = ix1 j :=
    funext fun a => Fin.ext (by match a with | ⟨0, _⟩ => rfl)
  rw [val_main_v45_apply, val_main_v44_apply, val_main_v41_apply, val_main_v43_apply, val_main_v42_apply,
    val_main_call3_v0_apply, val_main_call3_cst_apply, eb, Ideal.ofBits_def, Ideal.ofBits_zero_f32]
  have hs : (∑ k : Fin 384, val_main_v40 (F := Ideal) x0 x2 (lidx_main_v41 (ix2 r j) k) * x12 (ridx_main_v41 (ix2 r j) k))
      = ∑ k : Fin 384, Spec.pooled 3 384 rfl (fun p c => gath3 x0 x2 (ix3 r p c)) (fun p c => rev3 x0 x2 (ix3 r p c)) k
          * x12 (ix2 k j) :=
    Finset.sum_congr rfl fun k _ => by rw [el k, er k, pooled3]
  rw [hs]
  rfl

/-- The second hidden layer at node `r`, unit `j`. -/
theorem hidden3b (r : Fin 262144) (j : Fin 128) :
    val_main_v50 (F := Ideal) x0 x2 x12 x13 x14 x15 (ix2 r j)
      = Spec.hidden (Spec.hidden (Spec.pooled 3 384 rfl (fun p c => gath3 x0 x2 (ix3 r p c)) (fun p c => rev3 x0 x2 (ix3 r p c)))
          (fun k j => x12 (ix2 k j)) (fun j => x13 (ix1 j))) (fun k j => x14 (ix2 k j)) (fun j => x15 (ix1 j)) j := by
  have el : ∀ k : Fin 128, lidx_main_v46 (ix2 r j) k = ix2 r k := fun k =>
    funext fun a => Fin.ext (by match a with | ⟨0, _⟩ => rfl | ⟨1, _⟩ => rfl)
  have er : ∀ k : Fin 128, ridx_main_v46 (ix2 r j) k = ix2 k j := fun k =>
    funext fun a => Fin.ext (by match a with | ⟨0, _⟩ => rfl | ⟨1, _⟩ => rfl)
  have eb : idx_main_v47 (idx_main_v48 (ix2 r j)) = ix1 j :=
    funext fun a => Fin.ext (by match a with | ⟨0, _⟩ => rfl)
  rw [val_main_v50_apply, val_main_v49_apply, val_main_v46_apply, val_main_v48_apply, val_main_v47_apply,
    val_main_call4_v0_apply, val_main_call4_cst_apply, eb, Ideal.ofBits_def, Ideal.ofBits_zero_f32]
  have hs : (∑ k : Fin 128, val_main_v45 (F := Ideal) x0 x2 x12 x13 (lidx_main_v46 (ix2 r j) k) * x14 (ridx_main_v46 (ix2 r j) k))
      = ∑ k : Fin 128, Spec.hidden (Spec.pooled 3 384 rfl (fun p c => gath3 x0 x2 (ix3 r p c)) (fun p c => rev3 x0 x2 (ix3 r p c)))
          (fun k j => x12 (ix2 k j)) (fun j => x13 (ix1 j)) k * x14 (ix2 k j) :=
    Finset.sum_congr rfl fun k _ => by rw [el k, er k, hidden3a]
  rw [hs]
  rfl

/-- The third hidden layer at node `r`, unit `j`. -/
theorem hidden3c (r : Fin 262144) (j : Fin 128) :
    val_main_v55 (F := Ideal) x0 x2 x12 x13 x14 x15 x16 x17 (ix2 r j)
      = Spec.hidden (Spec.hidden (Spec.hidden (Spec.pooled 3 384 rfl (fun p c => gath3 x0 x2 (ix3 r p c)) (fun p c => rev3 x0 x2 (ix3 r p c)))
          (fun k j => x12 (ix2 k j)) (fun j => x13 (ix1 j))) (fun k j => x14 (ix2 k j)) (fun j => x15 (ix1 j)))
          (fun k j => x16 (ix2 k j)) (fun j => x17 (ix1 j)) j := by
  have el : ∀ k : Fin 128, lidx_main_v51 (ix2 r j) k = ix2 r k := fun k =>
    funext fun a => Fin.ext (by match a with | ⟨0, _⟩ => rfl | ⟨1, _⟩ => rfl)
  have er : ∀ k : Fin 128, ridx_main_v51 (ix2 r j) k = ix2 k j := fun k =>
    funext fun a => Fin.ext (by match a with | ⟨0, _⟩ => rfl | ⟨1, _⟩ => rfl)
  have eb : idx_main_v52 (idx_main_v53 (ix2 r j)) = ix1 j :=
    funext fun a => Fin.ext (by match a with | ⟨0, _⟩ => rfl)
  rw [val_main_v55_apply, val_main_v54_apply, val_main_v51_apply, val_main_v53_apply, val_main_v52_apply,
    val_main_call5_v0_apply, val_main_call5_cst_apply, eb, Ideal.ofBits_def, Ideal.ofBits_zero_f32]
  have hs : (∑ k : Fin 128, val_main_v50 (F := Ideal) x0 x2 x12 x13 x14 x15 (lidx_main_v51 (ix2 r j) k) * x16 (ridx_main_v51 (ix2 r j) k))
      = ∑ k : Fin 128, Spec.hidden (Spec.hidden (Spec.pooled 3 384 rfl (fun p c => gath3 x0 x2 (ix3 r p c)) (fun p c => rev3 x0 x2 (ix3 r p c)))
          (fun k j => x12 (ix2 k j)) (fun j => x13 (ix1 j))) (fun k j => x14 (ix2 k j)) (fun j => x15 (ix1 j)) k * x16 (ix2 k j) :=
    Finset.sum_congr rfl fun k _ => by rw [el k, er k, hidden3b]
  rw [hs]
  rfl

/-- Level 3's result at node `r`, output `o`, is the specification's: the read-out of the third hidden layer. -/
theorem level3 (r : Fin 262144) (o : Fin 2) :
    val_main_v59 (F := Ideal) x0 x2 x12 x13 x14 x15 x16 x17 x18 x19 (ix2 r o)
      = Spec.level 3 384 rfl (fun r p c => gath3 x0 x2 (ix3 r p c)) (fun r p c => rev3 x0 x2 (ix3 r p c))
          (fun k j => x12 (ix2 k j)) (fun j => x13 (ix1 j)) (fun k j => x14 (ix2 k j)) (fun j => x15 (ix1 j))
          (fun k j => x16 (ix2 k j)) (fun j => x17 (ix1 j)) (fun k j => x18 (ix2 k j)) (fun j => x19 (ix1 j)) r o := by
  have el : ∀ k : Fin 128, lidx_main_v56 (ix2 r o) k = ix2 r k := fun k =>
    funext fun a => Fin.ext (by match a with | ⟨0, _⟩ => rfl | ⟨1, _⟩ => rfl)
  have er : ∀ k : Fin 128, ridx_main_v56 (ix2 r o) k = ix2 k o := fun k =>
    funext fun a => Fin.ext (by match a with | ⟨0, _⟩ => rfl | ⟨1, _⟩ => rfl)
  have eb : idx_main_v57 (idx_main_v58 (ix2 r o)) = ix1 o :=
    funext fun a => Fin.ext (by match a with | ⟨0, _⟩ => rfl)
  rw [val_main_v59_apply, val_main_v56_apply, val_main_v58_apply, val_main_v57_apply, eb]
  have hs : (∑ k : Fin 128, val_main_v55 (F := Ideal) x0 x2 x12 x13 x14 x15 x16 x17 (lidx_main_v56 (ix2 r o) k) * x18 (ridx_main_v56 (ix2 r o) k))
      = ∑ k : Fin 128, Spec.hidden (Spec.hidden (Spec.hidden (Spec.pooled 3 384 rfl (fun p c => gath3 x0 x2 (ix3 r p c)) (fun p c => rev3 x0 x2 (ix3 r p c)))
          (fun k j => x12 (ix2 k j)) (fun j => x13 (ix1 j))) (fun k j => x14 (ix2 k j)) (fun j => x15 (ix1 j)))
          (fun k j => x16 (ix2 k j)) (fun j => x17 (ix1 j)) k * x18 (ix2 k o) :=
    Finset.sum_congr rfl fun k _ => by rw [el k, er k, hidden3c]
  rw [hs]
  rfl

end Level3

end Cert.RefValue

end
-- ==== Proof.RefValueC.lean ====
/-
  Level 4 of the reference, stage by stage, is level 4 of the specification: the pooled row of width 512, three
  hidden layers and the read-out, each read at an index.  The same reading as level 2's, at this level's shapes.
-/
import proofs.«174930_j4569845203353_2_alg».proof.Proof.RefValueA

noncomputable section

namespace Cert.RefValue

open Cert.ReferenceIdeal Cert.ReferenceIdeal.Gen Cert.ReferenceIdeal.Read Idealize.ShloMosaic Idealize.ShloMosaic.StableHlo
  Idealize.ShloMosaic.ValueIdx

/-! ## Level 4, stage by stage -/

section Level4

variable (x0 : FVec Ideal S131072x128 .f32) (x3 : IVec S393216x4 32)
  (x20 : FVec Ideal S512x128 .f32) (x21 : FVec Ideal S128 .f32) (x22 : FVec Ideal S128x128 .f32) (x23 : FVec Ideal S128 .f32)
  (x24 : FVec Ideal S128x128 .f32) (x25 : FVec Ideal S128 .f32) (x26 : FVec Ideal S128x2 .f32) (x27 : FVec Ideal S2 .f32)

/-- The pooled row: entry `k` of node `r`'s flattened sum is the gathered entry at position `k / 128`, lane
    `k % 128`, plus the reversed tensor's entry there — a row of width 512 is four positions of 128 lanes, laid out
    position-major. -/
theorem pooled4 (r : Fin 393216) (k : Fin 512) :
    val_main_v70 (F := Ideal) x0 x3 (ix2 r k)
      = Spec.pooled 4 512 rfl (fun p c => gath4 x0 x3 (ix3 r p c)) (fun p c => rev4 x0 x3 (ix3 r p c)) k := by
  have hk := k.isLt
  have e7 : idx_main_v67 (ix2 r k) = ix3 r ⟨k.val / 128, by omega⟩ ⟨k.val % 128, by omega⟩ :=
    funext fun a => Fin.ext (by
      match a with
      | ⟨0, _⟩ => show (r.val * 512 + k.val) / 512 = r.val; omega
      | ⟨1, _⟩ => show (r.val * 512 + k.val) / 128 % 4 = k.val / 128; omega
      | ⟨2, _⟩ => show (r.val * 512 + k.val) % 128 = k.val % 128; omega)
  have e9 : idx_main_v69 (ix2 r k) = ix3 r ⟨k.val / 128, by omega⟩ ⟨k.val % 128, by omega⟩ :=
    funext fun a => Fin.ext (by
      match a with
      | ⟨0, _⟩ => show (r.val * 512 + k.val) / 512 = r.val; omega
      | ⟨1, _⟩ => show (r.val * 512 + k.val) / 128 % 4 = k.val / 128; omega
      | ⟨2, _⟩ => show (r.val * 512 + k.val) % 128 = k.val % 128; omega)
  rw [val_main_v70_apply, val_main_v67_apply, val_main_v69_apply, e7, e9]
  rfl

/-- The first hidden layer at node `r`, unit `j`: the sum over the 512 pooled entries against column `j` of the
    first matrix, plus the bias, maximum with zero. -/
theorem hidden4a (r : Fin 393216) (j : Fin 128) :
    val_main_v75 (F := Ideal) x0 x3 x20 x21 (ix2 r j)
      = Spec.hidden (Spec.pooled 4 512 rfl (fun p c => gath4 x0 x3 (ix3 r p c)) (fun p c => rev4 x0 x3 (ix3 r p c)))
          (fun k j => x20 (ix2 k j)) (fun j => x21 (ix1 j)) j := by
  have el : ∀ k : Fin 512, lidx_main_v71 (ix2 r j) k = ix2 r k := fun k =>
    funext fun a => Fin.ext (by match a with | ⟨0, _⟩ => rfl | ⟨1, _⟩ => rfl)
  have er : ∀ k : Fin 512, ridx_main_v71 (ix2 r j) k = ix2 k j := fun k =>
    funext fun a => Fin.ext (by match a with | ⟨0, _⟩ => rfl | ⟨1, _⟩ => rfl)
  have eb : idx_main_v72 (idx_main_v73 (ix2 r j)) = ix1 j :=
    funext fun a => Fin.ext (by match a with | ⟨0, _⟩ => rfl)
  rw [val_main_v75_apply, val_main_v74_apply, val_main_v71_apply, val_main_v73_apply, val_main_v72_apply,
    val_main_call6_v0_apply, val_main_call6_cst_apply, eb, Ideal.ofBits_def, Ideal.ofBits_zero_f32]
  have hs : (∑ k : Fin 512, val_main_v70 (F := Ideal) x0 x3 (lidx_main_v71 (ix2 r j) k) * x20 (ridx_main_v71 (ix2 r j) k))
      = ∑ k : Fin 512, Spec.pooled 4 512 rfl (fun p c => gath4 x0 x3 (ix3 r p c)) (fun p c => rev4 x0 x3 (ix3 r p c)) k
          * x20 (ix2 k j) :=
    Finset.sum_congr rfl fun k _ => by rw [el k, er k, pooled4]
  rw [hs]
  rfl

/-- The second hidden layer at node `r`, unit `j`. -/
theorem hidden4b (r : Fin 393216) (j : Fin 128) :
    val_main_v80 (F := Ideal) x0 x3 x20 x21 x22 x23 (ix2 r j)
      = Spec.hidden (Spec.hidden (Spec.pooled 4 512 rfl (fun p c => gath4 x0 x3 (ix3 r p c)) (fun p c => rev4 x0 x3 (ix3 r p c)))
          (fun k j => x20 (ix2 k j)) (fun j => x21 (ix1 j))) (fun k j => x22 (ix2 k j)) (fun j => x23 (ix1 j)) j := by
  have el : ∀ k : Fin 128, lidx_main_v76 (ix2 r j) k = ix2 r k := fun k =>
    funext fun a => Fin.ext (by match a with | ⟨0, _⟩ => rfl | ⟨1, _⟩ => rfl)
  have er : ∀ k : Fin 128, ridx_main_v76 (ix2 r j) k = ix2 k j := fun k =>
    funext fun a => Fin.ext (by match a with | ⟨0, _⟩ => rfl | ⟨1, _⟩ => rfl)
  have eb : idx_main_v77 (idx_main_v78 (ix2 r j)) = ix1 j :=
    funext fun a => Fin.ext (by match a with | ⟨0, _⟩ => rfl)
  rw [val_main_v80_apply, val_main_v79_apply, val_main_v76_apply, val_main_v78_apply, val_main_v77_apply,
    val_main_call7_v0_apply, val_main_call7_cst_apply, eb, Ideal.ofBits_def, Ideal.ofBits_zero_f32]
  have hs : (∑ k : Fin 128, val_main_v75 (F := Ideal) x0 x3 x20 x21 (lidx_main_v76 (ix2 r j) k) * x22 (ridx_main_v76 (ix2 r j) k))
      = ∑ k : Fin 128, Spec.hidden (Spec.pooled 4 512 rfl (fun p c => gath4 x0 x3 (ix3 r p c)) (fun p c => rev4 x0 x3 (ix3 r p c)))
          (fun k j => x20 (ix2 k j)) (fun j => x21 (ix1 j)) k * x22 (ix2 k j) :=
    Finset.sum_congr rfl fun k _ => by rw [el k, er k, hidden4a]
  rw [hs]
  rfl

/-- The third hidden layer at node `r`, unit `j`. -/
theorem hidden4c (r : Fin 393216) (j : Fin 128) :
    val_main_v85 (F := Ideal) x0 x3 x20 x21 x22 x23 x24 x25 (ix2 r j)
      = Spec.hidden (Spec.hidden (Spec.hidden (Spec.pooled 4 512 rfl (fun p c => gath4 x0 x3 (ix3 r p c)) (fun p c => rev4 x0 x3 (ix3 r p c)))
          (fun k j => x20 (ix2 k j)) (fun j => x21 (ix1 j))) (fun k j => x22 (ix2 k j)) (fun j => x23 (ix1 j)))
          (fun k j => x24 (ix2 k j)) (fun j => x25 (ix1 j)) j := by
  have el : ∀ k : Fin 128, lidx_main_v81 (ix2 r j) k = ix2 r k := fun k =>
    funext fun a => Fin.ext (by match a with | ⟨0, _⟩ => rfl | ⟨1, _⟩ => rfl)
  have er : ∀ k : Fin 128, ridx_main_v81 (ix2 r j) k = ix2 k j := fun k =>
    funext fun a => Fin.ext (by match a with | ⟨0, _⟩ => rfl | ⟨1, _⟩ => rfl)
  have eb : idx_main_v82 (idx_main_v83 (ix2 r j)) = ix1 j :=
    funext fun a => Fin.ext (by match a with | ⟨0, _⟩ => rfl)
  rw [val_main_v85_apply, val_main_v84_apply, val_main_v81_apply, val_main_v83_apply, val_main_v82_apply,
    val_main_call8_v0_apply, val_main_call8_cst_apply, eb, Ideal.ofBits_def, Ideal.ofBits_zero_f32]
  have hs : (∑ k : Fin 128, val_main_v80 (F := Ideal) x0 x3 x20 x21 x22 x23 (lidx_main_v81 (ix2 r j) k) * x24 (ridx_main_v81 (ix2 r j) k))
      = ∑ k : Fin 128, Spec.hidden (Spec.hidden (Spec.pooled 4 512 rfl (fun p c => gath4 x0 x3 (ix3 r p c)) (fun p c => rev4 x0 x3 (ix3 r p c)))
          (fun k j => x20 (ix2 k j)) (fun j => x21 (ix1 j))) (fun k j => x22 (ix2 k j)) (fun j => x23 (ix1 j)) k * x24 (ix2 k j) :=
    Finset.sum_congr rfl fun k _ => by rw [el k, er k, hidden4b]
  rw [hs]
  rfl

/-- Level 4's result at node `r`, output `o`, is the specification's: the read-out of the third hidden layer. -/
theorem level4 (r : Fin 393216) (o : Fin 2) :
    val_main_v89 (F := Ideal) x0 x3 x20 x21 x22 x23 x24 x25 x26 x27 (ix2 r o)
      = Spec.level 4 512 rfl (fun r p c => gath4 x0 x3 (ix3 r p c)) (fun r p c => rev4 x0 x3 (ix3 r p c))
          (fun k j => x20 (ix2 k j)) (fun j => x21 (ix1 j)) (fun k j => x22 (ix2 k j)) (fun j => x23 (ix1 j))
          (fun k j => x24 (ix2 k j)) (fun j => x25 (ix1 j)) (fun k j => x26 (ix2 k j)) (fun j => x27 (ix1 j)) r o := by
  have el : ∀ k : Fin 128, lidx_main_v86 (ix2 r o) k = ix2 r k := fun k =>
    funext fun a => Fin.ext (by match a with | ⟨0, _⟩ => rfl | ⟨1, _⟩ => rfl)
  have er : ∀ k : Fin 128, ridx_main_v86 (ix2 r o) k = ix2 k o := fun k =>
    funext fun a => Fin.ext (by match a with | ⟨0, _⟩ => rfl | ⟨1, _⟩ => rfl)
  have eb : idx_main_v87 (idx_main_v88 (ix2 r o)) = ix1 o :=
    funext fun a => Fin.ext (by match a with | ⟨0, _⟩ => rfl)
  rw [val_main_v89_apply, val_main_v86_apply, val_main_v88_apply, val_main_v87_apply, eb]
  have hs : (∑ k : Fin 128, val_main_v85 (F := Ideal) x0 x3 x20 x21 x22 x23 x24 x25 (lidx_main_v86 (ix2 r o) k) * x26 (ridx_main_v86 (ix2 r o) k))
      = ∑ k : Fin 128, Spec.hidden (Spec.hidden (Spec.hidden (Spec.pooled 4 512 rfl (fun p c => gath4 x0 x3 (ix3 r p c)) (fun p c => rev4 x0 x3 (ix3 r p c)))
          (fun k j => x20 (ix2 k j)) (fun j => x21 (ix1 j))) (fun k j => x22 (ix2 k j)) (fun j => x23 (ix1 j)))
          (fun k j => x24 (ix2 k j)) (fun j => x25 (ix1 j)) k * x26 (ix2 k o) :=
    Finset.sum_congr rfl fun k _ => by rw [el k, er k, hidden4c]
  rw [hs]
  rfl

end Level4

end Cert.RefValue

end
-- ==== Proof.RefValue.lean ====
/-
  The reference's whole result is the specification.

  The reference stacks its three levels' results along the node axis: row `i` of the stacked array is level 2's row
  `i` for `i < 131072`, level 3's row `i − 131072` for `i < 393216`, level 4's row `i − 393216` otherwise.  A
  concatenation read at an index is the piece whose span along the joined axis holds the index, read at the index
  less the extents of the pieces before it; with the three levels' stage-by-stage readings this makes the reference's
  result, index by index, the specification's stacked function of the argument arrays.  The last theorem restates the
  reference program's run with that function as its result.
-/
import proofs.«174930_j4569845203353_2_alg».proof.Proof.RefValueA
import proofs.«174930_j4569845203353_2_alg».proof.Proof.RefValueB
import proofs.«174930_j4569845203353_2_alg».proof.Proof.RefValueC

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Three arrays of 131072, 262144 and 393216 rows of width 2 joined along the rows, read in the first array's span:
    row `i < 131072` is the first array's row `i`. -/
theorem joined_first (t2 : FVec Ideal S131072x2 .f32) (t3 : FVec Ideal S262144x2 .f32) (t4 : FVec Ideal S393216x2 .f32)
    (i : Fin 786432) (o : Fin 2) (h2 : i.val < 131072) :
    concatenate S786432x2 0 [⟨S131072x2, t2⟩, ⟨S262144x2, t3⟩, ⟨S393216x2, t4⟩]
        concatenates_S131072x2_S262144x2_S393216x2_S786432x2_d0 (ix2 i o) = t2 (ix2 ⟨i.val, h2⟩ o) :=
  concatenate_apply_piece (0 : Fin S786432x2.rank)
    ([⟨S131072x2, t2⟩, ⟨S262144x2, t3⟩, ⟨S393216x2, t4⟩] : List ((s : Shape) × (s.Idx → Ideal .f32)))
    concatenates_S131072x2_S262144x2_S393216x2_S786432x2_d0 (ix2 i o) 0 (by simp) S131072x2 t2 rfl rfl 0 rfl
    (ix2 ⟨i.val, h2⟩ o) (fun b hb => by match b with | ⟨0, _⟩ => exact absurd (Fin.ext rfl) hb | ⟨1, _⟩ => rfl)
    (by show 0 + i.val = i.val; omega)

/-- The same, read in the second array's span: row `131072 ≤ i < 393216` is the second array's row `i − 131072`. -/
theorem joined_second (t2 : FVec Ideal S131072x2 .f32) (t3 : FVec Ideal S262144x2 .f32) (t4 : FVec Ideal S393216x2 .f32)
    (i : Fin 786432) (o : Fin 2) (h2 : ¬ i.val < 131072) (h3 : i.val < 393216) :
    concatenate S786432x2 0 [⟨S131072x2, t2⟩, ⟨S262144x2, t3⟩, ⟨S393216x2, t4⟩]
        concatenates_S131072x2_S262144x2_S393216x2_S786432x2_d0 (ix2 i o) = t3 (ix2 ⟨i.val - 131072, by omega⟩ o) :=
  concatenate_apply_piece (0 : Fin S786432x2.rank)
    ([⟨S131072x2, t2⟩, ⟨S262144x2, t3⟩, ⟨S393216x2, t4⟩] : List ((s : Shape) × (s.Idx → Ideal .f32)))
    concatenates_S131072x2_S262144x2_S393216x2_S786432x2_d0 (ix2 i o) 1 (by simp) S262144x2 t3 rfl rfl 131072 rfl
    (ix2 ⟨i.val - 131072, by omega⟩ o) (fun b hb => by match b with | ⟨0, _⟩ => exact absurd (Fin.ext rfl) hb | ⟨1, _⟩ => rfl)
    (by show 131072 + (i.val - 131072) = i.val; omega)

/-- The first two arrays have 131072 + 262144 = 393216 rows between them. -/
theorem rows_before_third :
    (([S131072x2, S262144x2] : List Shape).map fun s =>
      if h : s.rank = S786432x2.rank then s.size ((0 : Fin S786432x2.rank).cast h.symm) else 0).sum = 393216 := rfl

/-- The same, read in the third array's span: row `393216 ≤ i` is the third array's row `i − 393216`. -/
theorem joined_third (t2 : FVec Ideal S131072x2 .f32) (t3 : FVec Ideal S262144x2 .f32) (t4 : FVec Ideal S393216x2 .f32)
    (i : Fin 786432) (o : Fin 2) (h3 : ¬ i.val < 393216) :
    concatenate S786432x2 0 [⟨S131072x2, t2⟩, ⟨S262144x2, t3⟩, ⟨S393216x2, t4⟩]
        concatenates_S131072x2_S262144x2_S393216x2_S786432x2_d0 (ix2 i o)
      = t4 (ix2 ⟨i.val - 393216, by have := i.isLt; omega⟩ o) :=
  concatenate_apply_piece (0 : Fin S786432x2.rank)
    ([⟨S131072x2, t2⟩, ⟨S262144x2, t3⟩, ⟨S393216x2, t4⟩] : List ((s : Shape) × (s.Idx → Ideal .f32)))
    concatenates_S131072x2_S262144x2_S393216x2_S786432x2_d0 (ix2 i o) 2 (by simp) S393216x2 t4 rfl rfl 393216
    rows_before_third
    (ix2 ⟨i.val - 393216, by have := i.isLt; omega⟩ o)
    (fun b hb => by match b with | ⟨0, _⟩ => exact absurd (Fin.ext rfl) hb | ⟨1, _⟩ => rfl)
    (by show 393216 + (i.val - 393216) = i.val; omega)

/-- The joined array read at row `i`, column `o`: the array whose span of rows holds `i`, at `i` less the rows
    before it — the specification's stacking. -/
theorem stacked_read (t2 : FVec Ideal S131072x2 .f32) (t3 : FVec Ideal S262144x2 .f32) (t4 : FVec Ideal S393216x2 .f32)
    (i : Fin 786432) (o : Fin 2) :
    concatenate S786432x2 0 [⟨S131072x2, t2⟩, ⟨S262144x2, t3⟩, ⟨S393216x2, t4⟩]
        concatenates_S131072x2_S262144x2_S393216x2_S786432x2_d0 (ix2 i o)
      = Spec.stacked (fun r o => t2 (ix2 r o)) (fun r o => t3 (ix2 r o)) (fun r o => t4 (ix2 r o)) i o := by
  unfold Spec.stacked
  by_cases h2 : i.val < 131072
  · rw [dif_pos h2]; exact joined_first t2 t3 t4 i o h2
  · rw [dif_neg h2]
    by_cases h3 : i.val < 393216
    · rw [dif_pos h3]; exact joined_second t2 t3 t4 i o h2 h3
    · rw [dif_neg h3]; exact joined_third t2 t3 t4 i o h3

/-- The specification's result as a function of the reference's 28 argument arrays: the three levels, each over its
    gathered tensor and that tensor reversed, with the weights in plain coordinates, stacked along the node axis. -/
def refOut
    (x0 : FVec Ideal S131072x128 .f32) (x1 : IVec S131072x2 32) (x2 : IVec S262144x3 32) (x3 : IVec S393216x4 32)
    (x4 : FVec Ideal S256x128 .f32) (x5 : FVec Ideal S128 .f32) (x6 : FVec Ideal S128x128 .f32) (x7 : FVec Ideal S128 .f32) (x8 : FVec Ideal S128x128 .f32) (x9 : FVec Ideal S128 .f32) (x10 : FVec Ideal S128x2 .f32) (x11 : FVec Ideal S2 .f32)
    (x12 : FVec Ideal S384x128 .f32) (x13 : FVec Ideal S128 .f32) (x14 : FVec Ideal S128x128 .f32) (x15 : FVec Ideal S128 .f32) (x16 : FVec Ideal S128x128 .f32) (x17 : FVec Ideal S128 .f32) (x18 : FVec Ideal S128x2 .f32) (x19 : FVec Ideal S2 .f32)
    (x20 : FVec Ideal S512x128 .f32) (x21 : FVec Ideal S128 .f32) (x22 : FVec Ideal S128x128 .f32) (x23 : FVec Ideal S128 .f32) (x24 : FVec Ideal S128x128 .f32) (x25 : FVec Ideal S128 .f32) (x26 : FVec Ideal S128x2 .f32) (x27 : FVec Ideal S2 .f32) :
    Fin 786432 → Fin 2 → EReal :=
  Spec.stacked
    (Spec.level 2 256 rfl (fun r p c => gath2 x0 x1 (ix3 r p c)) (fun r p c => rev2 x0 x1 (ix3 r p c))
      (fun k j => x4 (ix2 k j)) (fun j => x5 (ix1 j)) (fun k j => x6 (ix2 k j)) (fun j => x7 (ix1 j))
      (fun k j => x8 (ix2 k j)) (fun j => x9 (ix1 j)) (fun k j => x10 (ix2 k j)) (fun j => x11 (ix1 j)))
    (Spec.level 3 384 rfl (fun r p c => gath3 x0 x2 (ix3 r p c)) (fun r p c => rev3 x0 x2 (ix3 r p c))
      (fun k j => x12 (ix2 k j)) (fun j => x13 (ix1 j)) (fun k j => x14 (ix2 k j)) (fun j => x15 (ix1 j))
      (fun k j => x16 (ix2 k j)) (fun j => x17 (ix1 j)) (fun k j => x18 (ix2 k j)) (fun j => x19 (ix1 j)))
    (Spec.level 4 512 rfl (fun r p c => gath4 x0 x3 (ix3 r p c)) (fun r p c => rev4 x0 x3 (ix3 r p c))
      (fun k j => x20 (ix2 k j)) (fun j => x21 (ix1 j)) (fun k j => x22 (ix2 k j)) (fun j => x23 (ix1 j))
      (fun k j => x24 (ix2 k j)) (fun j => x25 (ix1 j)) (fun k j => x26 (ix2 k j)) (fun j => x27 (ix1 j)))

/-- The reference's last stage at row `i`, column `o` is the specification's stacked result. -/
theorem result_apply
    (x0 : FVec Ideal S131072x128 .f32) (x1 : IVec S131072x2 32) (x2 : IVec S262144x3 32) (x3 : IVec S393216x4 32)
    (x4 : FVec Ideal S256x128 .f32) (x5 : FVec Ideal S128 .f32) (x6 : FVec Ideal S128x128 .f32) (x7 : FVec Ideal S128 .f32) (x8 : FVec Ideal S128x128 .f32) (x9 : FVec Ideal S128 .f32) (x10 : FVec Ideal S128x2 .f32) (x11 : FVec Ideal S2 .f32)
    (x12 : FVec Ideal S384x128 .f32) (x13 : FVec Ideal S128 .f32) (x14 : FVec Ideal S128x128 .f32) (x15 : FVec Ideal S128 .f32) (x16 : FVec Ideal S128x128 .f32) (x17 : FVec Ideal S128 .f32) (x18 : FVec Ideal S128x2 .f32) (x19 : FVec Ideal S2 .f32)
    (x20 : FVec Ideal S512x128 .f32) (x21 : FVec Ideal S128 .f32) (x22 : FVec Ideal S128x128 .f32) (x23 : FVec Ideal S128 .f32) (x24 : FVec Ideal S128x128 .f32) (x25 : FVec Ideal S128 .f32) (x26 : FVec Ideal S128x2 .f32) (x27 : FVec Ideal S2 .f32)
    (i : Fin 786432) (o : Fin 2) :
    val_main_v90 (F := Ideal) x0 x1 x2 x3 x4 x5 x6 x7 x8 x9 x10 x11 x12 x13 x14 x15 x16 x17 x18 x19 x20 x21 x22 x23 x24 x25 x26 x27 (ix2 i o)
      = refOut x0 x1 x2 x3 x4 x5 x6 x7 x8 x9 x10 x11 x12 x13 x14 x15 x16 x17 x18 x19 x20 x21 x22 x23 x24 x25 x26 x27 i o := by
  have e2 : (fun (r : Fin 131072) (o : Fin 2) => val_main_v29 (F := Ideal) x0 x1 x4 x5 x6 x7 x8 x9 x10 x11 (ix2 r o))
      = (Spec.level 2 256 rfl (fun r p c => gath2 x0 x1 (ix3 r p c)) (fun r p c => rev2 x0 x1 (ix3 r p c))
      (fun k j => x4 (ix2 k j)) (fun j => x5 (ix1 j)) (fun k j => x6 (ix2 k j)) (fun j => x7 (ix1 j))
      (fun k j => x8 (ix2 k j)) (fun j => x9 (ix1 j)) (fun k j => x10 (ix2 k j)) (fun j => x11 (ix1 j))) :=
    funext fun r => funext fun o => level2 x0 x1 x4 x5 x6 x7 x8 x9 x10 x11 r o
  have e3 : (fun (r : Fin 262144) (o : Fin 2) => val_main_v59 (F := Ideal) x0 x2 x12 x13 x14 x15 x16 x17 x18 x19 (ix2 r o))
      = (Spec.level 3 384 rfl (fun r p c => gath3 x0 x2 (ix3 r p c)) (fun r p c => rev3 x0 x2 (ix3 r p c))
      (fun k j => x12 (ix2 k j)) (fun j => x13 (ix1 j)) (fun k j => x14 (ix2 k j)) (fun j => x15 (ix1 j))
      (fun k j => x16 (ix2 k j)) (fun j => x17 (ix1 j)) (fun k j => x18 (ix2 k j)) (fun j => x19 (ix1 j))) :=
    funext fun r => funext fun o => level3 x0 x2 x12 x13 x14 x15 x16 x17 x18 x19 r o
  have e4 : (fun (r : Fin 393216) (o : Fin 2) => val_main_v89 (F := Ideal) x0 x3 x20 x21 x22 x23 x24 x25 x26 x27 (ix2 r o))
      = (Spec.level 4 512 rfl (fun r p c => gath4 x0 x3 (ix3 r p c)) (fun r p c => rev4 x0 x3 (ix3 r p c))
      (fun k j => x20 (ix2 k j)) (fun j => x21 (ix1 j)) (fun k j => x22 (ix2 k j)) (fun j => x23 (ix1 j))
      (fun k j => x24 (ix2 k j)) (fun j => x25 (ix1 j)) (fun k j => x26 (ix2 k j)) (fun j => x27 (ix1 j))) :=
    funext fun r => funext fun o => level4 x0 x3 x20 x21 x22 x23 x24 x25 x26 x27 r o
  unfold val_main_v90 refOut
  rw [stacked_read, e2, e3, e4]

/-- The reference's last stage, as a whole array, is the specification's stacked result at the index's two
    coordinates. -/
theorem result_eq
    (x0 : FVec Ideal S131072x128 .f32) (x1 : IVec S131072x2 32) (x2 : IVec S262144x3 32) (x3 : IVec S393216x4 32)
    (x4 : FVec Ideal S256x128 .f32) (x5 : FVec Ideal S128 .f32) (x6 : FVec Ideal S128x128 .f32) (x7 : FVec Ideal S128 .f32) (x8 : FVec Ideal S128x128 .f32) (x9 : FVec Ideal S128 .f32) (x10 : FVec Ideal S128x2 .f32) (x11 : FVec Ideal S2 .f32)
    (x12 : FVec Ideal S384x128 .f32) (x13 : FVec Ideal S128 .f32) (x14 : FVec Ideal S128x128 .f32) (x15 : FVec Ideal S128 .f32) (x16 : FVec Ideal S128x128 .f32) (x17 : FVec Ideal S128 .f32) (x18 : FVec Ideal S128x2 .f32) (x19 : FVec Ideal S2 .f32)
    (x20 : FVec Ideal S512x128 .f32) (x21 : FVec Ideal S128 .f32) (x22 : FVec Ideal S128x128 .f32) (x23 : FVec Ideal S128 .f32) (x24 : FVec Ideal S128x128 .f32) (x25 : FVec Ideal S128 .f32) (x26 : FVec Ideal S128x2 .f32) (x27 : FVec Ideal S2 .f32) :
    val_main_v90 (F := Ideal) x0 x1 x2 x3 x4 x5 x6 x7 x8 x9 x10 x11 x12 x13 x14 x15 x16 x17 x18 x19 x20 x21 x22 x23 x24 x25 x26 x27
      = fun j => refOut x0 x1 x2 x3 x4 x5 x6 x7 x8 x9 x10 x11 x12 x13 x14 x15 x16 x17 x18 x19 x20 x21 x22 x23 x24 x25 x26 x27 (j 0) (j 1) :=
  funext fun j => (congrArg (val_main_v90 (F := Ideal) x0 x1 x2 x3 x4 x5 x6 x7 x8 x9 x10 x11 x12 x13 x14 x15 x16 x17 x18 x19 x20 x21 x22 x23 x24 x25 x26 x27) (eq_ix2 j)).trans
    (result_apply x0 x1 x2 x3 x4 x5 x6 x7 x8 x9 x10 x11 x12 x13 x14 x15 x16 x17 x18 x19 x20 x21 x22 x23 x24 x25 x26 x27 (j 0) (j 1))

/-- The term the reference's run leaves in its result buffer is the specification's stacked result of the
    launch contents of the 28 arguments. -/
theorem res_eq (m : (ℓ : Loc nD τ sig) → Buf (Elt Ideal) ℓ) (c : Dev nD) :
    Cert.ReferenceIdeal.Value.res_main_v90 (F := Ideal) m c
      = fun j => refOut
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17))
        (m ((c.tc : Thread nD τ).loc main_arg18))
        (m ((c.tc : Thread nD τ).loc main_arg19))
        (m ((c.tc : Thread nD τ).loc main_arg20))
        (m ((c.tc : Thread nD τ).loc main_arg21))
        (m ((c.tc : Thread nD τ).loc main_arg22))
        (m ((c.tc : Thread nD τ).loc main_arg23))
        (m ((c.tc : Thread nD τ).loc main_arg24))
        (m ((c.tc : Thread nD τ).loc main_arg25))
        (m ((c.tc : Thread nD τ).loc main_arg26))
        (m ((c.tc : Thread nD τ).loc main_arg27)) (j 0) (j 1) :=
  (val_main_v90_eq (F := Ideal) m c).trans (result_eq _ _ _ _ _ _ _ _ _ _ _ _ _ _ _ _ _ _ _ _ _ _ _ _ _ _ _ _)

/-- The reference program's run with its result named by the specification: on every device, every weakly fair
    execution terminates with the result buffer holding the specification's stacked result of the arguments' launch
    contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v90) = (fun j => refOut
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17))
        (m ((c.tc : Thread nD τ).loc main_arg18))
        (m ((c.tc : Thread nD τ).loc main_arg19))
        (m ((c.tc : Thread nD τ).loc main_arg20))
        (m ((c.tc : Thread nD τ).loc main_arg21))
        (m ((c.tc : Thread nD τ).loc main_arg22))
        (m ((c.tc : Thread nD τ).loc main_arg23))
        (m ((c.tc : Thread nD τ).loc main_arg24))
        (m ((c.tc : Thread nD τ).loc main_arg25))
        (m ((c.tc : Thread nD τ).loc main_arg26))
        (m ((c.tc : Thread nD τ).loc main_arg27)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨(h c).1.trans (res_eq m c), (h c).2⟩)
    (Cert.ReferenceIdeal.Value.run (F := Ideal) m ρ)

end Cert.RefValue

end
-- ==== Proof.Bridge.lean ====
/-
  The two programs compute the same function.

  On the kernel's side the result buffer is the stack of the three transposed region outputs; entry (o, r) of
  region L's output is level L's perceptron at node r (the block pipeline's closed form, fed by what the host
  stretch before the region wrote); so the result at row i, column o is the stacked specification.  The
  reference's result read at an index is the same stacked specification of the same gathered tensors and
  parameters.  Memories agreeing on the arguments give the same value on both sides.
-/
import proofs.«174930_j4569845203353_2_alg».proof.Defs
import proofs.«174930_j4569845203353_2_alg».proof.Proof.Gen.Kernel
import proofs.«174930_j4569845203353_2_alg».proof.Proof.Gen.KernelIdeal
import proofs.«174930_j4569845203353_2_alg».proof.Proof.Gen.ReferenceIdeal
import proofs.«174930_j4569845203353_2_alg».proof.Proof.Gen.Pre_finite_inputs
import proofs.«174930_j4569845203353_2_alg».proof.Proof.IdealEnds
import proofs.«174930_j4569845203353_2_alg».proof.Proof.IdealArray0
import proofs.«174930_j4569845203353_2_alg».proof.Proof.IdealArray1
import proofs.«174930_j4569845203353_2_alg».proof.Proof.IdealArray2
import proofs.«174930_j4569845203353_2_alg».proof.Proof.HostGlue
import proofs.«174930_j4569845203353_2_alg».proof.Proof.HostGlue1
import proofs.«174930_j4569845203353_2_alg».proof.Proof.HostGlue2
import proofs.«174930_j4569845203353_2_alg».proof.Proof.HostGlue3
import proofs.«174930_j4569845203353_2_alg».proof.Proof.RefValue

set_option maxRecDepth 16384

noncomputable section

namespace Cert.Bridge

open Idealize.ShloMosaic Idealize.ShloMosaic.TcCoe Idealize.ShloMosaic.ValueIdx Idealize.SL.Sem

/-- The perceptron depends on its row and parameters only through their entries. -/
theorem mlp_congr {K : ℕ} {x x' : Fin K → EReal} {W0 W0' : Fin K → Fin 128 → EReal} {b0 b0' : Fin 128 → EReal}
    {W1 W1' : Fin 128 → Fin 128 → EReal} {b1 b1' : Fin 128 → EReal} {W2 W2' : Fin 128 → Fin 128 → EReal} {b2 b2' : Fin 128 → EReal}
    {Wo Wo' : Fin 128 → Fin 2 → EReal} {bo bo' : Fin 2 → EReal}
    (hx : ∀ k, x k = x' k) (hW0 : ∀ k j, W0 k j = W0' k j) (hb0 : ∀ j, b0 j = b0' j)
    (hW1 : ∀ k j, W1 k j = W1' k j) (hb1 : ∀ j, b1 j = b1' j) (hW2 : ∀ k j, W2 k j = W2' k j) (hb2 : ∀ j, b2 j = b2' j)
    (hWo : ∀ k j, Wo k j = Wo' k j) (hbo : ∀ j, bo j = bo' j) (o : Fin 2) :
    Cert.Spec.mlp x W0 b0 W1 b1 W2 b2 Wo bo o = Cert.Spec.mlp x' W0' b0' W1' b1' W2' b2' Wo' bo' o := by
  obtain rfl : x = x' := funext hx
  obtain rfl : W0 = W0' := funext fun k => funext (hW0 k)
  obtain rfl : b0 = b0' := funext hb0
  obtain rfl : W1 = W1' := funext fun k => funext (hW1 k)
  obtain rfl : b1 = b1' := funext hb1
  obtain rfl : W2 = W2' := funext fun k => funext (hW2 k)
  obtain rfl : b2 = b2' := funext hb2
  obtain rfl : Wo = Wo' := funext fun k => funext (hWo k)
  obtain rfl : bo = bo' := funext hbo
  rfl

section Kernel

open Cert.KernelIdeal Cert.KernelIdeal.Gen Cert.KernelIdeal.Region

variable (m : (ℓ : Loc nD τ sig) → Buf (Elt Ideal) ℓ) (c : Dev nD)

/-- Entry (o, r) of what region 0 leaves in its 2 × 131072 output array is level 2's result at node r, output o:
    the block pipeline's closed form is the perceptron of row r of the pooled rows as the region finds them, and
    the host stretch before the region left there exactly the pooled rows and the parameters. -/
theorem left0_read (r : Fin 131072) (o : Fin 2) :
    (outs m 2 main_v22 c : S2x131072.Idx → EReal) (ix2 o r)
      = Cert.Spec.level 2 256 rfl (fun r p c' => Cert.RefValue.gath2 (V0 m c main_arg0) (V0 m c main_arg1) (ix3 r p c')) (fun r p c' => Cert.RefValue.rev2 (V0 m c main_arg0) (V0 m c main_arg1) (ix3 r p c'))
        (fun k j => (V0 m c main_arg4 : S256x128.Idx → EReal) (ix2 k j)) (fun j => (V0 m c main_arg5 : S128.Idx → EReal) (ix1 j)) (fun k j => (V0 m c main_arg6 : S128x128.Idx → EReal) (ix2 k j)) (fun j => (V0 m c main_arg7 : S128.Idx → EReal) (ix1 j)) (fun k j => (V0 m c main_arg8 : S128x128.Idx → EReal) (ix2 k j)) (fun j => (V0 m c main_arg9 : S128.Idx → EReal) (ix1 j)) (fun k j => (V0 m c main_arg10 : S128x2.Idx → EReal) (ix2 k j)) (fun j => (V0 m c main_arg11 : S2.Idx → EReal) (ix1 j)) r o := by
  rw [outs_2]
  show ((dat0 (F := Ideal) (atTc (X1 m)) c).arrAt 9 cfg0.N : S2x131072.Idx → EReal) (ix2 o r) = _
  rw [array0]
  unfold arrG0 Cert.Spec.level
  dsimp only [atTc]
  exact mlp_congr (fun k => Cert.HostGlue.V1_main_v13 m c r k)
    (fun k j => congrFun (Cert.HostGlue.V1_main_v14 m c) (ix2 k j))
    (fun j => Cert.HostGlue.V1_main_v18 m c 0 j)
    (fun k j => congrFun (Cert.HostGlue.V1_main_v15 m c) (ix2 k j))
    (fun j => Cert.HostGlue.V1_main_v19 m c 0 j)
    (fun k j => congrFun (Cert.HostGlue.V1_main_v16 m c) (ix2 k j))
    (fun j => Cert.HostGlue.V1_main_v20 m c 0 j)
    (fun k j => congrFun (Cert.HostGlue.V1_main_v17 m c) (ix2 k j))
    (fun j => Cert.HostGlue.V1_main_v21 m c 0 j) o

/-- Entry (o, r) of what region 1 leaves in its 2 × 262144 output array is level 3's result at node r, output o:
    the block pipeline's closed form is the perceptron of row r of the pooled rows as the region finds them, and
    the host stretch before the region left there exactly the pooled rows and the parameters. -/
theorem left1_read (r : Fin 262144) (o : Fin 2) :
    (outs m 4 main_v45 c : S2x262144.Idx → EReal) (ix2 o r)
      = Cert.Spec.level 3 384 rfl (fun r p c' => Cert.RefValue.gath3 (V0 m c main_arg0) (V0 m c main_arg2) (ix3 r p c')) (fun r p c' => Cert.RefValue.rev3 (V0 m c main_arg0) (V0 m c main_arg2) (ix3 r p c'))
        (fun k j => (V0 m c main_arg12 : S384x128.Idx → EReal) (ix2 k j)) (fun j => (V0 m c main_arg13 : S128.Idx → EReal) (ix1 j)) (fun k j => (V0 m c main_arg14 : S128x128.Idx → EReal) (ix2 k j)) (fun j => (V0 m c main_arg15 : S128.Idx → EReal) (ix1 j)) (fun k j => (V0 m c main_arg16 : S128x128.Idx → EReal) (ix2 k j)) (fun j => (V0 m c main_arg17 : S128.Idx → EReal) (ix1 j)) (fun k j => (V0 m c main_arg18 : S128x2.Idx → EReal) (ix2 k j)) (fun j => (V0 m c main_arg19 : S2.Idx → EReal) (ix1 j)) r o := by
  rw [outs_4]
  show ((dat1 (F := Ideal) (atTc (X3 m)) c).arrAt 9 cfg1.N : S2x262144.Idx → EReal) (ix2 o r) = _
  rw [array1]
  unfold arrG1 Cert.Spec.level
  dsimp only [atTc]
  rw [X3_eq m c]
  exact mlp_congr (fun k => Cert.HostGlue.V3_main_v36 m (outs m) c r k)
    (fun k j => congrFun (Cert.HostGlue.V3_main_v37 m (outs m) c) (ix2 k j))
    (fun j => Cert.HostGlue.V3_main_v41 m (outs m) c 0 j)
    (fun k j => congrFun (Cert.HostGlue.V3_main_v38 m (outs m) c) (ix2 k j))
    (fun j => Cert.HostGlue.V3_main_v42 m (outs m) c 0 j)
    (fun k j => congrFun (Cert.HostGlue.V3_main_v39 m (outs m) c) (ix2 k j))
    (fun j => Cert.HostGlue.V3_main_v43 m (outs m) c 0 j)
    (fun k j => congrFun (Cert.HostGlue.V3_main_v40 m (outs m) c) (ix2 k j))
    (fun j => Cert.HostGlue.V3_main_v44 m (outs m) c 0 j) o

/-- Entry (o, r) of what region 2 leaves in its 2 × 393216 output array is level 4's result at node r, output o:
    the block pipeline's closed form is the perceptron of row r of the pooled rows as the region finds them, and
    the host stretch before the region left there exactly the pooled rows and the parameters. -/
theorem left2_read (r : Fin 393216) (o : Fin 2) :
    (outs m 6 main_v68 c : S2x393216.Idx → EReal) (ix2 o r)
      = Cert.Spec.level 4 512 rfl (fun r p c' => Cert.RefValue.gath4 (V0 m c main_arg0) (V0 m c main_arg3) (ix3 r p c')) (fun r p c' => Cert.RefValue.rev4 (V0 m c main_arg0) (V0 m c main_arg3) (ix3 r p c'))
        (fun k j => (V0 m c main_arg20 : S512x128.Idx → EReal) (ix2 k j)) (fun j => (V0 m c main_arg21 : S128.Idx → EReal) (ix1 j)) (fun k j => (V0 m c main_arg22 : S128x128.Idx → EReal) (ix2 k j)) (fun j => (V0 m c main_arg23 : S128.Idx → EReal) (ix1 j)) (fun k j => (V0 m c main_arg24 : S128x128.Idx → EReal) (ix2 k j)) (fun j => (V0 m c main_arg25 : S128.Idx → EReal) (ix1 j)) (fun k j => (V0 m c main_arg26 : S128x2.Idx → EReal) (ix2 k j)) (fun j => (V0 m c main_arg27 : S2.Idx → EReal) (ix1 j)) r o := by
  rw [outs_6]
  show ((dat2 (F := Ideal) (atTc (X5 m)) c).arrAt 9 cfg2.N : S2x393216.Idx → EReal) (ix2 o r) = _
  rw [array2]
  unfold arrG2 Cert.Spec.level
  dsimp only [atTc]
  rw [X5_eq m c]
  exact mlp_congr (fun k => Cert.HostGlue.V5_main_v59 m (outs m) c r k)
    (fun k j => congrFun (Cert.HostGlue.V5_main_v60 m (outs m) c) (ix2 k j))
    (fun j => Cert.HostGlue.V5_main_v64 m (outs m) c 0 j)
    (fun k j => congrFun (Cert.HostGlue.V5_main_v61 m (outs m) c) (ix2 k j))
    (fun j => Cert.HostGlue.V5_main_v65 m (outs m) c 0 j)
    (fun k j => congrFun (Cert.HostGlue.V5_main_v62 m (outs m) c) (ix2 k j))
    (fun j => Cert.HostGlue.V5_main_v66 m (outs m) c 0 j)
    (fun k j => congrFun (Cert.HostGlue.V5_main_v63 m (outs m) c) (ix2 k j))
    (fun j => Cert.HostGlue.V5_main_v67 m (outs m) c 0 j) o

/-- The kernel's result buffer, entry by entry, is the stacked specification of the gathered tensors and parameters. -/
theorem kernel_result :
    (Gen.V7 m (outs m) c main_v70 : S786432x2.Idx → EReal)
      = fun j => Cert.RefValue.refOut (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg14) (V0 m c main_arg15) (V0 m c main_arg16) (V0 m c main_arg17) (V0 m c main_arg18) (V0 m c main_arg19) (V0 m c main_arg20) (V0 m c main_arg21) (V0 m c main_arg22) (V0 m c main_arg23) (V0 m c main_arg24) (V0 m c main_arg25) (V0 m c main_arg26) (V0 m c main_arg27) (j 0) (j 1) := by
  funext j
  obtain ⟨i, o, rfl⟩ : ∃ (i : Fin 786432) (o : Fin 2), j = ix2 i o := ⟨j 0, j 1, eq_ix2 j⟩
  rw [Cert.HostGlue.V7_main_v70]
  have e2 : (fun r o => (outs m 2 main_v22 c : S2x131072.Idx → EReal) (ix2 o r)) = Cert.Spec.level 2 256 rfl (fun r p c' => Cert.RefValue.gath2 (V0 m c main_arg0) (V0 m c main_arg1) (ix3 r p c')) (fun r p c' => Cert.RefValue.rev2 (V0 m c main_arg0) (V0 m c main_arg1) (ix3 r p c'))
        (fun k j => (V0 m c main_arg4 : S256x128.Idx → EReal) (ix2 k j)) (fun j => (V0 m c main_arg5 : S128.Idx → EReal) (ix1 j)) (fun k j => (V0 m c main_arg6 : S128x128.Idx → EReal) (ix2 k j)) (fun j => (V0 m c main_arg7 : S128.Idx → EReal) (ix1 j)) (fun k j => (V0 m c main_arg8 : S128x128.Idx → EReal) (ix2 k j)) (fun j => (V0 m c main_arg9 : S128.Idx → EReal) (ix1 j)) (fun k j => (V0 m c main_arg10 : S128x2.Idx → EReal) (ix2 k j)) (fun j => (V0 m c main_arg11 : S2.Idx → EReal) (ix1 j)) :=
    funext fun r => funext fun o => left0_read m c r o
  have e3 : (fun r o => (outs m 4 main_v45 c : S2x262144.Idx → EReal) (ix2 o r)) = Cert.Spec.level 3 384 rfl (fun r p c' => Cert.RefValue.gath3 (V0 m c main_arg0) (V0 m c main_arg2) (ix3 r p c')) (fun r p c' => Cert.RefValue.rev3 (V0 m c main_arg0) (V0 m c main_arg2) (ix3 r p c'))
        (fun k j => (V0 m c main_arg12 : S384x128.Idx → EReal) (ix2 k j)) (fun j => (V0 m c main_arg13 : S128.Idx → EReal) (ix1 j)) (fun k j => (V0 m c main_arg14 : S128x128.Idx → EReal) (ix2 k j)) (fun j => (V0 m c main_arg15 : S128.Idx → EReal) (ix1 j)) (fun k j => (V0 m c main_arg16 : S128x128.Idx → EReal) (ix2 k j)) (fun j => (V0 m c main_arg17 : S128.Idx → EReal) (ix1 j)) (fun k j => (V0 m c main_arg18 : S128x2.Idx → EReal) (ix2 k j)) (fun j => (V0 m c main_arg19 : S2.Idx → EReal) (ix1 j)) :=
    funext fun r => funext fun o => left1_read m c r o
  have e4 : (fun r o => (outs m 6 main_v68 c : S2x393216.Idx → EReal) (ix2 o r)) = Cert.Spec.level 4 512 rfl (fun r p c' => Cert.RefValue.gath4 (V0 m c main_arg0) (V0 m c main_arg3) (ix3 r p c')) (fun r p c' => Cert.RefValue.rev4 (V0 m c main_arg0) (V0 m c main_arg3) (ix3 r p c'))
        (fun k j => (V0 m c main_arg20 : S512x128.Idx → EReal) (ix2 k j)) (fun j => (V0 m c main_arg21 : S128.Idx → EReal) (ix1 j)) (fun k j => (V0 m c main_arg22 : S128x128.Idx → EReal) (ix2 k j)) (fun j => (V0 m c main_arg23 : S128.Idx → EReal) (ix1 j)) (fun k j => (V0 m c main_arg24 : S128x128.Idx → EReal) (ix2 k j)) (fun j => (V0 m c main_arg25 : S128.Idx → EReal) (ix1 j)) (fun k j => (V0 m c main_arg26 : S128x2.Idx → EReal) (ix2 k j)) (fun j => (V0 m c main_arg27 : S2.Idx → EReal) (ix1 j)) :=
    funext fun r => funext fun o => left2_read m c r o
  rw [e2, e3, e4]
  rfl

end Kernel

set_option maxHeartbeats 2000000 in
/-- THE ALGEBRAIC CLAIM: from memories agreeing on the 28 arguments both programs run to the end, the kernel's result
    buffer and the reference's hold the same extended reals entry by entry, and the arguments are unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun j => Cert.RefValue.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (j 0) (j 1)), ?_, ?_⟩
  · exact (θ_run Cert.KernelIdeal.defs _ _).mono (fun r h c => ⟨(h c).1.trans (kernel_result m c), (h c).2⟩)
      (Cert.KernelIdeal.Region.run_result (F := Ideal) m ρ)
  · refine (θ_run Cert.ReferenceIdeal.defs _ _).mono (fun r h c => ⟨(h c).1.trans ?_, (h c).2⟩) (Cert.RefValue.run m' ρ')
    obtain ⟨h0, h1, h2, h3, h4, h5, h6, h7, h8, h9, h10, h11, h12, h13, h14, h15, h16, h17, h18, h19, h20, h21, h22, h23, h24, h25, h26, h27⟩ := hagree c
    simp only [h0, h1, h2, h3, h4, h5, h6, h7, h8, h9, h10, h11, h12, h13, h14, h15, h16, h17, h18, h19, h20, h21, h22, h23, h24, h25, h26, h27]
    rfl

end Cert.Bridge

end
-- ==== Proof.lean ====
/-
  The certificate: a pooled-neighbourhood perceptron computed level by level.

  For each level L ∈ {2, 3, 4} every node gathers L rows of the feature table, adds the same rows in reversed order,
  lays the L sums side by side as one row of width L · 128, and sends that row through three hidden layers
  `y ↦ max (y · W + b) 0` of width 128 and an affine read-out of width 2; the three levels' results are stacked.
  The kernel does the gathering on the host and the perceptron in one blocked region per level — 4096 rows per grid
  point, parameters resident, the 2 × 4096 result block written transposed — and transposes back and stacks on the
  host; the reference does everything on the host.

  Frames.  The kernel program is a chain of seven segments: host stretch, region, host stretch, region, host stretch,
  region, host stretch.  Each region's body is run symbolically once, at a generic grid point: it reads its nine
  input blocks, leaves them unchanged and writes one output block.  The block pipeline around it then leaves every
  array but the region's output as it found it.  No host stretch writes an argument, so every execution terminates
  without fault with the 28 arguments as launched — at the word level and on the extended reals alike, since the
  argument is the same text at both.  The reference is a straight-line host program, and its frame is its run with
  the result dropped.

  Values.  On the extended reals a change of float format is the identity and a matrix product into a zero
  accumulator is the plain sum over the contracted index, so one output block of a region is, entry by entry, the
  perceptron of the corresponding row of the block's rows; the output blocks tile the 2 × N array; the host's
  transpose and concatenation put entry (o, n) of level L's array at row (offset L + n), column o.  The reference's
  result read at an index is the same perceptron of the same pooled row: both sides take the same sums in the same
  order, and the pooled row is the same sum of the same two gathered entries (the kernel adds before flattening, the
  reference after).  No law of the extended reals beyond that is used, so finiteness of the inputs is never needed.
-/
import proofs.«174930_j4569845203353_2_alg».proof.Defs
import proofs.«174930_j4569845203353_2_alg».proof.Proof.Gen.Kernel
import proofs.«174930_j4569845203353_2_alg».proof.Proof.Gen.KernelIdeal
import proofs.«174930_j4569845203353_2_alg».proof.Proof.Gen.ReferenceIdeal
import proofs.«174930_j4569845203353_2_alg».proof.Proof.Gen.ReferenceIdeal.Run
import proofs.«174930_j4569845203353_2_alg».proof.Proof.Gen.ReferenceIdeal.Read
import proofs.«174930_j4569845203353_2_alg».proof.Proof.Gen.Pre_finite_inputs
import proofs.«174930_j4569845203353_2_alg».proof.Proof.WordEnds
import proofs.«174930_j4569845203353_2_alg».proof.Proof.IdealEnds
import proofs.«174930_j4569845203353_2_alg».proof.Proof.Bridge
import Idealize.ShloMosaic.Adequacy
import Idealize.ShloMosaic.Init

noncomputable section

namespace Cert.Proof

open Idealize.ShloMosaic Idealize.SL.Sem

/-- The word-level kernel terminates without fault and leaves its arguments as launched. -/
theorem frame_word : Cert.frame_Kernel (hKernel := Cert.Kernel.Gen.facts) (hPre_finite_inputs := Cert.Pre_finite_inputs.Gen.facts) :=
  fun m ρ _ => Cert.Kernel.Region.frame (F := Bits) m ρ

/-- So does the kernel read on the extended reals. -/
theorem frame_ideal : Cert.frame_KernelIdeal (hKernelIdeal := Cert.KernelIdeal.Gen.facts) (hPre_finite_inputs := Cert.Pre_finite_inputs.Gen.facts) :=
  fun m ρ _ => Cert.KernelIdeal.Region.frame (F := Ideal) m ρ

/-- The reference's frame is its run with the result dropped. -/
theorem frame_ref : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_word, frame_ideal, frame_ref, trivial, Cert.Bridge.algebraic⟩

end Cert.Proof

end
